-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v230)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v230) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v284) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S100 : Shape := ⟨1, ![100]⟩
abbrev S4x64x32 : Shape := ⟨3, ![4, 64, 32]⟩
abbrev S32 : Shape := ⟨1, ![32]⟩
abbrev S4x32x64 : Shape := ⟨3, ![4, 32, 64]⟩
abbrev S64 : Shape := ⟨1, ![64]⟩
abbrev S4x64x64 : Shape := ⟨3, ![4, 64, 64]⟩
abbrev S64x10 : Shape := ⟨2, ![64, 10]⟩
abbrev S10 : Shape := ⟨1, ![10]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100 : S_.BroadcastsInDim S100 (![] : Fin 0 → Fin S100.rank)
  reducesTo_S100_S_d0 : S100.ReducesTo [0] S_
  bcast_S_S4x64x32 : S_.BroadcastsInDim S4x64x32 (![] : Fin 0 → Fin S4x64x32.rank)
  reducesTo_S4x64x32_S_d0_1_2 : S4x64x32.ReducesTo [0, 1, 2] S_
  bcast_S_S32 : S_.BroadcastsInDim S32 (![] : Fin 0 → Fin S32.rank)
  reducesTo_S32_S_d0 : S32.ReducesTo [0] S_
  bcast_S_S4x32x64 : S_.BroadcastsInDim S4x32x64 (![] : Fin 0 → Fin S4x32x64.rank)
  reducesTo_S4x32x64_S_d0_1_2 : S4x32x64.ReducesTo [0, 1, 2] S_
  bcast_S_S64 : S_.BroadcastsInDim S64 (![] : Fin 0 → Fin S64.rank)
  reducesTo_S64_S_d0 : S64.ReducesTo [0] S_
  bcast_S_S4x64x64 : S_.BroadcastsInDim S4x64x64 (![] : Fin 0 → Fin S4x64x64.rank)
  reducesTo_S4x64x64_S_d0_1_2 : S4x64x64.ReducesTo [0, 1, 2] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S64 .f32) (main_arg10 : FVec F S64x10 .f32) (main_arg11 : FVec F S10 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x10 .f32 := Host.absf main_arg10
  let main_cst_14 : FVec F S_ .f32 := constant S_ .f32 0x7F800000#32
  let main_v40 : FVec F S64x10 .f32 := broadcastInDim S64x10 ![] bcast_S_S64x10 main_cst_14
  let main_v41 : IVec S64x10 1 := cmpf .olt main_v39 main_v40
  let main_c_15 : IVec S_ 1 := constantI S_ 1 1#1
  let main_v42 : IVec S_ 1 := (fun x v => Host.reduce IntOp.andi x v reducesTo_S64x10_S_d0_1 h_S_) main_v41 main_c_15
  let main_v43 : IVec S_ 1 := andi main_v38 main_v42
  let main_v44 : FVec F S10 .f32 := Host.absf main_arg11
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  main_v48

def fn_part1 {F : FTy → Type} [FloatOps F] (main_arg6 : FVec F S4x32x64 .f32) (main_arg7 : FVec F S64 .f32) (main_arg8 : FVec F S4x64x64 .f32) (main_arg9 : FVec F S64 .f32) (main_arg10 : FVec F S64x10 .f32) (main_arg11 : FVec F S10 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S4x32x64 .f32 := Host.absf main_arg6
  let main_cst_6 : FVec F S_ .f32 := constant S_ .f32 0x7F800000#32
  let main_v20 : FVec F S4x32x64 .f32 := broadcastInDim S4x32x64 ![] bcast_S_S4x32x64 main_cst_6
  let main_v21 : IVec S4x32x64 1 := cmpf .olt main_v19 main_v20
  let main_c_7 : IVec S_ 1 := constantI S_ 1 1#1
  let main_v22 : IVec S_ 1 := (fun x v => Host.reduce IntOp.andi x v reducesTo_S4x32x64_S_d0_1_2 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S4x64x64 .f32 := Host.absf main_arg8
  let main_cst_10 : FVec F S_ .f32 := constant S_ .f32 0x7F800000#32
  let main_v30 : FVec F S4x64x64 .f32 := broadcastInDim S4x64x64 ![] bcast_S_S4x64x64 main_cst_10
  let main_v31 : IVec S4x64x64 1 := cmpf .olt main_v29 main_v30
  let main_c_11 : IVec S_ 1 := constantI S_ 1 1#1
  let main_v32 : IVec S_ 1 := (fun x v => Host.reduce IntOp.andi x v reducesTo_S4x64x64_S_d0_1_2 h_S_) main_v31 main_c_11
  let main_v33 : IVec S_ 1 := andi main_v28 main_v32
  fn_part2 (F := F) main_arg9 main_arg10 main_arg11 main_v33

def fn {F : FTy → Type} [FloatOps F] (main_arg0 : FVec F S100000x64 .f32) (main_arg1 : IVec S2x1600000 32) (main_arg2 : IVec S100000 32) (main_arg3 : FVec F S100 .f32) (main_arg4 : FVec F S4x64x32 .f32) (main_arg5 : FVec F S32 .f32) (main_arg6 : FVec F S4x32x64 .f32) (main_arg7 : FVec F S64 .f32) (main_arg8 : FVec F S4x64x64 .f32) (main_arg9 : FVec F S64 .f32) (main_arg10 : FVec F S64x10 .f32) (main_arg11 : FVec F S10 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100 .f32 := Host.absf main_arg3
  let main_cst_0 : FVec F S_ .f32 := constant S_ .f32 0x7F800000#32
  let main_v5 : FVec F S100 .f32 := broadcastInDim S100 ![] bcast_S_S100 main_cst_0
  let main_v6 : IVec S100 1 := cmpf .olt main_v4 main_v5
  let main_c_1 : IVec S_ 1 := constantI S_ 1 1#1
  let main_v7 : IVec S_ 1 := (fun x v => Host.reduce IntOp.andi x v reducesTo_S100_S_d0 h_S_) main_v6 main_c_1
  let main_v8 : IVec S_ 1 := andi main_v3 main_v7
  let main_v9 : FVec F S4x64x32 .f32 := Host.absf main_arg4
  let main_cst_2 : FVec F S_ .f32 := constant S_ .f32 0x7F800000#32
  let main_v10 : FVec F S4x64x32 .f32 := broadcastInDim S4x64x32 ![] bcast_S_S4x64x32 main_cst_2
  let main_v11 : IVec S4x64x32 1 := cmpf .olt main_v9 main_v10
  let main_c_3 : IVec S_ 1 := constantI S_ 1 1#1
  let main_v12 : IVec S_ 1 := (fun x v => Host.reduce IntOp.andi x v reducesTo_S4x64x32_S_d0_1_2 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg6 main_arg7 main_arg8 main_arg9 main_arg10 main_arg11 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S100 : Shape := ⟨1, ![100]⟩
abbrev S4x64x32 : Shape := ⟨3, ![4, 64, 32]⟩
abbrev S32 : Shape := ⟨1, ![32]⟩
abbrev S4x32x64 : Shape := ⟨3, ![4, 32, 64]⟩
abbrev S64 : Shape := ⟨1, ![64]⟩
abbrev S4x64x64 : Shape := ⟨3, ![4, 64, 64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1600000x64 : Shape := ⟨2, ![1600000, 64]⟩
abbrev S100000x32 : Shape := ⟨2, ![100000, 32]⟩
abbrev S5000x64 : Shape := ⟨2, ![5000, 64]⟩
abbrev S5000x32 : Shape := ⟨2, ![5000, 32]⟩
abbrev S1x64x32 : Shape := ⟨3, ![1, 64, 32]⟩
abbrev S64x32 : Shape := ⟨2, ![64, 32]⟩
abbrev S1x32 : Shape := ⟨2, ![1, 32]⟩
abbrev S1600000x32 : Shape := ⟨2, ![1600000, 32]⟩
abbrev S1x32x64 : Shape := ⟨3, ![1, 32, 64]⟩
abbrev S32x64 : Shape := ⟨2, ![32, 64]⟩
abbrev S1x64 : Shape := ⟨2, ![1, 64]⟩
abbrev S1x64x64 : Shape := ⟨3, ![1, 64, 64]⟩
abbrev S64x64 : Shape := ⟨2, ![64, 64]⟩
abbrev S100x64 : Shape := ⟨2, ![100, 64]⟩
abbrev S100x10 : Shape := ⟨2, ![100, 10]⟩
abbrev S1x10 : Shape := ⟨2, ![1, 10]⟩

abbrev nBuf : Space → Nat
  | .hbm => 294
  | .vmem => 36
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S100, .f32⟩
  | 4 => ⟨S4x64x32, .f32⟩
  | 5 => ⟨S32, .f32⟩
  | 6 => ⟨S4x32x64, .f32⟩
  | 7 => ⟨S64, .f32⟩
  | 8 => ⟨S4x64x64, .f32⟩
  | 9 => ⟨S64, .f32⟩
  | 10 => ⟨S64x10, .f32⟩
  | 11 => ⟨S10, .f32⟩
  | 12 => ⟨S1x1600000, .i32⟩
  | 13 => ⟨S1600000, .i32⟩
  | 14 => ⟨S1x1600000, .i32⟩
  | 15 => ⟨S1600000, .i32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S100000, .f32⟩
  | 24 => ⟨S100000, .i1⟩
  | 25 => ⟨S_, .f32⟩
  | 26 => ⟨S100000, .f32⟩
  | 27 => ⟨S100000, .f32⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S100000, .i32⟩
  | 35 => ⟨S100000, .i1⟩
  | 36 => ⟨S_, .i32⟩
  | 37 => ⟨S100000, .i32⟩
  | 38 => ⟨S100000, .i32⟩
  | 39 => ⟨S100000, .i32⟩
  | 40 => ⟨S100000x1, .i32⟩
  | 41 => ⟨S100000, .f32⟩
  | 42 => ⟨S_, .f32⟩
  | 43 => ⟨S100000, .f32⟩
  | 44 => ⟨S100000, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000, .f32⟩
  | 54 => ⟨S1600000, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000, .f32⟩
  | 64 => ⟨S1600000, .f32⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S1600000, .f32⟩
  | 74 => ⟨S1600000, .f32⟩
  | 75 => ⟨S_, .f32⟩
  | 76 => ⟨S100000, .f32⟩
  | 77 => ⟨S100000, .f32⟩
  | 78 => ⟨S1600000x1, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000x64, .f32⟩
  | 88 => ⟨S1600000x64, .f32⟩
  | 89 => ⟨S1600000x64, .f32⟩
  | 90 => ⟨S_, .f32⟩
  | 91 => ⟨S100000x64, .f32⟩
  | 92 => ⟨S1600000x1, .i32⟩
  | 93 => ⟨S100000x64, .f32⟩
  | 94 => ⟨S100000x1, .f32⟩
  | 95 => ⟨S100000x64, .f32⟩
  | 96 => ⟨S100000x64, .f32⟩
  | 97 => ⟨S100000x64, .f32⟩
  | 98 => ⟨S1600000x1, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x64, .f32⟩
  | 108 => ⟨S1600000x64, .f32⟩
  | 109 => ⟨S1600000x64, .f32⟩
  | 110 => ⟨S_, .f32⟩
  | 111 => ⟨S100000x64, .f32⟩
  | 112 => ⟨S1600000x1, .i32⟩
  | 113 => ⟨S100000x64, .f32⟩
  | 114 => ⟨S100000x1, .f32⟩
  | 115 => ⟨S100000x64, .f32⟩
  | 116 => ⟨S100000x64, .f32⟩
  | 117 => ⟨S100000x64, .f32⟩
  | 118 => ⟨S_, .f32⟩
  | 119 => ⟨S100000x64, .f32⟩
  | 120 => ⟨S100000x64, .f32⟩
  | 121 => ⟨S100000x64, .f32⟩
  | 122 => ⟨S1600000x1, .f32⟩
  | 123 => ⟨S_, .i32⟩
  | 124 => ⟨S1600000, .i32⟩
  | 125 => ⟨S1600000, .i1⟩
  | 126 => ⟨S_, .i32⟩
  | 127 => ⟨S1600000, .i32⟩
  | _ => ⟨S100000x64, .f32⟩

abbrev hbmTy0_1 (i : Nat) : BufTy := match i % 128 with
  | 0 => ⟨S1600000, .i32⟩
  | 1 => ⟨S1600000, .i32⟩
  | 2 => ⟨S1600000x1, .i32⟩
  | 3 => ⟨S1600000x64, .f32⟩
  | 4 => ⟨S1600000x64, .f32⟩
  | 5 => ⟨S1600000x64, .f32⟩
  | 6 => ⟨S_, .f32⟩
  | 7 => ⟨S100000x64, .f32⟩
  | 8 => ⟨S1600000x1, .i32⟩
  | 9 => ⟨S100000x64, .f32⟩
  | 10 => ⟨S100000x1, .f32⟩
  | 11 => ⟨S100000x64, .f32⟩
  | 12 => ⟨S100000x64, .f32⟩
  | 13 => ⟨S100000x64, .f32⟩
  | 14 => ⟨S_, .f32⟩
  | 15 => ⟨S100000x64, .f32⟩
  | 16 => ⟨S100000x64, .f32⟩
  | 17 => ⟨S100000x64, .f32⟩
  | 18 => ⟨S100000x32, .f32⟩
  | 19 => ⟨S1600000x1, .f32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000x32, .f32⟩
  | 29 => ⟨S1600000x32, .f32⟩
  | 30 => ⟨S1600000x32, .f32⟩
  | 31 => ⟨S_, .f32⟩
  | 32 => ⟨S100000x32, .f32⟩
  | 33 => ⟨S1600000x1, .i32⟩
  | 34 => ⟨S100000x32, .f32⟩
  | 35 => ⟨S100000x1, .f32⟩
  | 36 => ⟨S100000x32, .f32⟩
  | 37 => ⟨S100000x32, .f32⟩
  | 38 => ⟨S100000x32, .f32⟩
  | 39 => ⟨S1600000x1, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000x32, .f32⟩
  | 49 => ⟨S1600000x32, .f32⟩
  | 50 => ⟨S1600000x32, .f32⟩
  | 51 => ⟨S_, .f32⟩
  | 52 => ⟨S100000x32, .f32⟩
  | 53 => ⟨S1600000x1, .i32⟩
  | 54 => ⟨S100000x32, .f32⟩
  | 55 => ⟨S100000x1, .f32⟩
  | 56 => ⟨S100000x32, .f32⟩
  | 57 => ⟨S100000x32, .f32⟩
  | 58 => ⟨S100000x32, .f32⟩
  | 59 => ⟨S_, .f32⟩
  | 60 => ⟨S100000x32, .f32⟩
  | 61 => ⟨S100000x32, .f32⟩
  | 62 => ⟨S100000x32, .f32⟩
  | 63 => ⟨S1600000x1, .f32⟩
  | 64 => ⟨S_, .i32⟩
  | 65 => ⟨S1600000, .i32⟩
  | 66 => ⟨S1600000, .i1⟩
  | 67 => ⟨S_, .i32⟩
  | 68 => ⟨S1600000, .i32⟩
  | 69 => ⟨S1600000, .i32⟩
  | 70 => ⟨S1600000, .i32⟩
  | 71 => ⟨S1600000x1, .i32⟩
  | 72 => ⟨S1600000x32, .f32⟩
  | 73 => ⟨S1600000x32, .f32⟩
  | 74 => ⟨S1600000x32, .f32⟩
  | 75 => ⟨S_, .f32⟩
  | 76 => ⟨S100000x32, .f32⟩
  | 77 => ⟨S1600000x1, .i32⟩
  | 78 => ⟨S100000x32, .f32⟩
  | 79 => ⟨S100000x1, .f32⟩
  | 80 => ⟨S100000x32, .f32⟩
  | 81 => ⟨S100000x32, .f32⟩
  | 82 => ⟨S100000x32, .f32⟩
  | 83 => ⟨S_, .f32⟩
  | 84 => ⟨S100000x32, .f32⟩
  | 85 => ⟨S100000x32, .f32⟩
  | 86 => ⟨S100000x32, .f32⟩
  | 87 => ⟨S100000x64, .f32⟩
  | 88 => ⟨S1600000x1, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x64, .f32⟩
  | 98 => ⟨S1600000x64, .f32⟩
  | 99 => ⟨S1600000x64, .f32⟩
  | 100 => ⟨S_, .f32⟩
  | 101 => ⟨S100000x64, .f32⟩
  | 102 => ⟨S1600000x1, .i32⟩
  | 103 => ⟨S100000x64, .f32⟩
  | 104 => ⟨S100000x1, .f32⟩
  | 105 => ⟨S100000x64, .f32⟩
  | 106 => ⟨S100000x64, .f32⟩
  | 107 => ⟨S100000x64, .f32⟩
  | 108 => ⟨S1600000x1, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x64, .f32⟩
  | 118 => ⟨S1600000x64, .f32⟩
  | 119 => ⟨S1600000x64, .f32⟩
  | 120 => ⟨S_, .f32⟩
  | 121 => ⟨S100000x64, .f32⟩
  | 122 => ⟨S1600000x1, .i32⟩
  | 123 => ⟨S100000x64, .f32⟩
  | 124 => ⟨S100000x1, .f32⟩
  | 125 => ⟨S100000x64, .f32⟩
  | 126 => ⟨S100000x64, .f32⟩
  | 127 => ⟨S100000x64, .f32⟩
  | _ => ⟨S100000x64, .f32⟩

abbrev hbmTy0_2 (i : Nat) : BufTy := match i % 128 with
  | 0 => ⟨S_, .f32⟩
  | 1 => ⟨S100000x64, .f32⟩
  | 2 => ⟨S100000x64, .f32⟩
  | 3 => ⟨S100000x64, .f32⟩
  | 4 => ⟨S1600000x1, .f32⟩
  | 5 => ⟨S_, .i32⟩
  | 6 => ⟨S1600000, .i32⟩
  | 7 => ⟨S1600000, .i1⟩
  | 8 => ⟨S_, .i32⟩
  | 9 => ⟨S1600000, .i32⟩
  | 10 => ⟨S1600000, .i32⟩
  | 11 => ⟨S1600000, .i32⟩
  | 12 => ⟨S1600000x1, .i32⟩
  | 13 => ⟨S1600000x64, .f32⟩
  | 14 => ⟨S1600000x64, .f32⟩
  | 15 => ⟨S1600000x64, .f32⟩
  | 16 => ⟨S_, .f32⟩
  | 17 => ⟨S100000x64, .f32⟩
  | 18 => ⟨S1600000x1, .i32⟩
  | 19 => ⟨S100000x64, .f32⟩
  | 20 => ⟨S100000x1, .f32⟩
  | 21 => ⟨S100000x64, .f32⟩
  | 22 => ⟨S100000x64, .f32⟩
  | 23 => ⟨S100000x64, .f32⟩
  | 24 => ⟨S_, .f32⟩
  | 25 => ⟨S100000x64, .f32⟩
  | 26 => ⟨S100000x64, .f32⟩
  | 27 => ⟨S100000x64, .f32⟩
  | 28 => ⟨S100000x64, .f32⟩
  | 29 => ⟨S_, .f32⟩
  | 30 => ⟨S100x64, .f32⟩
  | 31 => ⟨S100000x1, .i32⟩
  | 32 => ⟨S100x64, .f32⟩
  | 33 => ⟨S100x10, .f32⟩
  | 34 => ⟨S1x10, .f32⟩
  | 35 => ⟨S100x10, .f32⟩
  | 36 => ⟨S100x10, .f32⟩
  | 37 => ⟨S100x10, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S4x64x32, .f32⟩
  | .local _ .vmem, ⟨9, _⟩ => ⟨S32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S5000x32, .f32⟩
  | .local _ .vmem, ⟨18, _⟩ => ⟨S5000x32, .f32⟩
  | .local _ .vmem, ⟨19, _⟩ => ⟨S5000x32, .f32⟩
  | .local _ .vmem, ⟨20, _⟩ => ⟨S4x32x64, .f32⟩
  | .local _ .vmem, ⟨21, _⟩ => ⟨S64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S4x64x64, .f32⟩
  | .local _ .vmem, ⟨33, _⟩ => ⟨S64, .f32⟩
  | .local _ .vmem, ⟨34, _⟩ => ⟨S5000x64, .f32⟩
  | .local _ .vmem, ⟨35, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v13 : Ref sig .tc := ⟨.hbm, 32, rfl⟩
abbrev main_c : Ref sig .tc := ⟨.hbm, 33, rfl⟩
abbrev main_v14 : Ref sig .tc := ⟨.hbm, 34, rfl⟩
abbrev main_v15 : Ref sig .tc := ⟨.hbm, 35, rfl⟩
abbrev main_c_4 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_5 : Ref sig .tc := ⟨.hbm, 42, rfl⟩
abbrev main_v21 : Ref sig .tc := ⟨.hbm, 43, rfl⟩
abbrev main_v22 : Ref sig .tc := ⟨.hbm, 44, rfl⟩
abbrev main_c_6 : Ref sig .tc := ⟨.hbm, 45, rfl⟩
abbrev main_v23 : Ref sig .tc := ⟨.hbm, 46, rfl⟩
abbrev main_v24 : Ref sig .tc := ⟨.hbm, 47, rfl⟩
abbrev main_c_7 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_8 : Ref sig .tc := ⟨.hbm, 55, rfl⟩
abbrev main_v31 : Ref sig .tc := ⟨.hbm, 56, rfl⟩
abbrev main_v32 : Ref sig .tc := ⟨.hbm, 57, rfl⟩
abbrev main_c_9 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_c_10 : Ref sig .tc := ⟨.hbm, 65, rfl⟩
abbrev main_v39 : Ref sig .tc := ⟨.hbm, 66, rfl⟩
abbrev main_v40 : Ref sig .tc := ⟨.hbm, 67, rfl⟩
abbrev main_c_11 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_12 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_13 : Ref sig .tc := ⟨.hbm, 79, rfl⟩
abbrev main_v50 : Ref sig .tc := ⟨.hbm, 80, rfl⟩
abbrev main_v51 : Ref sig .tc := ⟨.hbm, 81, rfl⟩
abbrev main_c_14 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_15 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_16 : Ref sig .tc := ⟨.hbm, 99, rfl⟩
abbrev main_v67 : Ref sig .tc := ⟨.hbm, 100, rfl⟩
abbrev main_v68 : Ref sig .tc := ⟨.hbm, 101, rfl⟩
abbrev main_c_17 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_18 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_19 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_c_20 : Ref sig .tc := ⟨.hbm, 123, rfl⟩
abbrev main_v87 : Ref sig .tc := ⟨.hbm, 124, rfl⟩
abbrev main_v88 : Ref sig .tc := ⟨.hbm, 125, rfl⟩
abbrev main_c_21 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_cst_22 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_cst_23 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_c_24 : Ref sig .tc := ⟨.hbm, 148, rfl⟩
abbrev main_v108 : Ref sig .tc := ⟨.hbm, 149, rfl⟩
abbrev main_v109 : Ref sig .tc := ⟨.hbm, 150, rfl⟩
abbrev main_c_25 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_cst_26 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_c_27 : Ref sig .tc := ⟨.hbm, 168, rfl⟩
abbrev main_v125 : Ref sig .tc := ⟨.hbm, 169, rfl⟩
abbrev main_v126 : Ref sig .tc := ⟨.hbm, 170, rfl⟩
abbrev main_c_28 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_cst_29 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_cst_30 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_c_31 : Ref sig .tc := ⟨.hbm, 192, rfl⟩
abbrev main_v145 : Ref sig .tc := ⟨.hbm, 193, rfl⟩
abbrev main_v146 : Ref sig .tc := ⟨.hbm, 194, rfl⟩
abbrev main_c_32 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_cst_33 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_cst_34 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_c_35 : Ref sig .tc := ⟨.hbm, 217, rfl⟩
abbrev main_v166 : Ref sig .tc := ⟨.hbm, 218, rfl⟩
abbrev main_v167 : Ref sig .tc := ⟨.hbm, 219, rfl⟩
abbrev main_c_36 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_cst_37 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_c_38 : Ref sig .tc := ⟨.hbm, 237, rfl⟩
abbrev main_v183 : Ref sig .tc := ⟨.hbm, 238, rfl⟩
abbrev main_v184 : Ref sig .tc := ⟨.hbm, 239, rfl⟩
abbrev main_c_39 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_cst_40 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_cst_41 : Ref sig .tc := ⟨.hbm, 256, rfl⟩
abbrev main_v199 : Ref sig .tc := ⟨.hbm, 257, rfl⟩
abbrev main_v200 : Ref sig .tc := ⟨.hbm, 258, rfl⟩
abbrev main_v201 : Ref sig .tc := ⟨.hbm, 259, rfl⟩
abbrev main_v202 : Ref sig .tc := ⟨.hbm, 260, rfl⟩
abbrev main_c_42 : Ref sig .tc := ⟨.hbm, 261, rfl⟩
abbrev main_v203 : Ref sig .tc := ⟨.hbm, 262, rfl⟩
abbrev main_v204 : Ref sig .tc := ⟨.hbm, 263, rfl⟩
abbrev main_c_43 : Ref sig .tc := ⟨.hbm, 264, rfl⟩
abbrev main_v205 : Ref sig .tc := ⟨.hbm, 265, rfl⟩
abbrev main_v206 : Ref sig .tc := ⟨.hbm, 266, rfl⟩
abbrev main_v207 : Ref sig .tc := ⟨.hbm, 267, rfl⟩
abbrev main_v208 : Ref sig .tc := ⟨.hbm, 268, rfl⟩
abbrev main_v209 : Ref sig .tc := ⟨.hbm, 269, rfl⟩
abbrev main_v210 : Ref sig .tc := ⟨.hbm, 270, rfl⟩
abbrev main_v211 : Ref sig .tc := ⟨.hbm, 271, rfl⟩
abbrev main_cst_44 : Ref sig .tc := ⟨.hbm, 272, rfl⟩
abbrev main_v212 : Ref sig .tc := ⟨.hbm, 273, rfl⟩
abbrev main_v213 : Ref sig .tc := ⟨.hbm, 274, rfl⟩
abbrev main_v214 : Ref sig .tc := ⟨.hbm, 275, rfl⟩
abbrev main_v215 : Ref sig .tc := ⟨.hbm, 276, rfl⟩
abbrev main_v216 : Ref sig .tc := ⟨.hbm, 277, rfl⟩
abbrev main_v217 : Ref sig .tc := ⟨.hbm, 278, rfl⟩
abbrev main_v218 : Ref sig .tc := ⟨.hbm, 279, rfl⟩
abbrev main_cst_45 : Ref sig .tc := ⟨.hbm, 280, rfl⟩
abbrev main_v219 : Ref sig .tc := ⟨.hbm, 281, rfl⟩
abbrev main_v220 : Ref sig .tc := ⟨.hbm, 282, rfl⟩
abbrev main_v221 : Ref sig .tc := ⟨.hbm, 283, rfl⟩
abbrev main_v222 : Ref sig .tc := ⟨.hbm, 284, rfl⟩
abbrev main_cst_46 : Ref sig .tc := ⟨.hbm, 285, rfl⟩
abbrev main_v223 : Ref sig .tc := ⟨.hbm, 286, rfl⟩
abbrev main_v224 : Ref sig .tc := ⟨.hbm, 287, rfl⟩
abbrev main_v225 : Ref sig .tc := ⟨.hbm, 288, rfl⟩
abbrev main_v226 : Ref sig .tc := ⟨.hbm, 289, rfl⟩
abbrev main_v227 : Ref sig .tc := ⟨.hbm, 290, rfl⟩
abbrev main_v228 : Ref sig .tc := ⟨.hbm, 291, rfl⟩
abbrev main_v229 : Ref sig .tc := ⟨.hbm, 292, rfl⟩
abbrev main_v230 : Ref sig .tc := ⟨.hbm, 293, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg6_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem5_0 : DmaSem sig := 21
abbrev cc1_sem6_0 : DmaSem sig := 22
abbrev cc1_sem6_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem5_0 : DmaSem sig := 33
abbrev cc2_sem6_0 : DmaSem sig := 34
abbrev cc2_sem6_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x64x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S4x32x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S4x64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  inb_S4x64x32_S1x64x32_0_0_0 : ∀ a, (![0, 0, 0] : Fin 3 → Nat) a + S1x64x32.size a ≤ S4x64x32.size a
  h_S1x64x32 : 0 < S1x64x32.numel
  shapeCasts_S1x64x32_S64x32 : S1x64x32.ShapeCasts S64x32
  bitsLt_bf16_f32 : FTy.bits .bf16 < FTy.bits .f32
  inb_S4x64x32_S1x64x32_1_0_0 : ∀ a, (![1, 0, 0] : Fin 3 → Nat) a + S1x64x32.size a ≤ S4x64x32.size a
  inb_S4x64x32_S1x64x32_2_0_0 : ∀ a, (![2, 0, 0] : Fin 3 → Nat) a + S1x64x32.size a ≤ S4x64x32.size a
  inb_S4x64x32_S1x64x32_3_0_0 : ∀ a, (![3, 0, 0] : Fin 3 → Nat) a + S1x64x32.size a ≤ S4x64x32.size a
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  inb_S4x32x64_S1x32x64_0_0_0 : ∀ a, (![0, 0, 0] : Fin 3 → Nat) a + S1x32x64.size a ≤ S4x32x64.size a
  h_S1x32x64 : 0 < S1x32x64.numel
  shapeCasts_S1x32x64_S32x64 : S1x32x64.ShapeCasts S32x64
  inb_S4x32x64_S1x32x64_1_0_0 : ∀ a, (![1, 0, 0] : Fin 3 → Nat) a + S1x32x64.size a ≤ S4x32x64.size a
  inb_S4x32x64_S1x32x64_2_0_0 : ∀ a, (![2, 0, 0] : Fin 3 → Nat) a + S1x32x64.size a ≤ S4x32x64.size a
  inb_S4x32x64_S1x32x64_3_0_0 : ∀ a, (![3, 0, 0] : Fin 3 → Nat) a + S1x32x64.size a ≤ S4x32x64.size a
  shapeCasts_S5000x32_S5000x32 : S5000x32.ShapeCasts S5000x32
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S4x64x64_S1x64x64_0_0_0 : ∀ a, (![0, 0, 0] : Fin 3 → Nat) a + S1x64x64.size a ≤ S4x64x64.size a
  h_S1x64x64 : 0 < S1x64x64.numel
  shapeCasts_S1x64x64_S64x64 : S1x64x64.ShapeCasts S64x64
  inb_S4x64x64_S1x64x64_1_0_0 : ∀ a, (![1, 0, 0] : Fin 3 → Nat) a + S1x64x64.size a ≤ S4x64x64.size a
  inb_S4x64x64_S1x64x64_2_0_0 : ∀ a, (![2, 0, 0] : Fin 3 → Nat) a + S1x64x64.size a ≤ S4x64x64.size a
  inb_S4x64x64_S1x64x64_3_0_0 : ∀ a, (![3, 0, 0] : Fin 3 → Nat) a + S1x64x64.size a ≤ S4x64x64.size a
  bcast_S_S100x64 : S_.BroadcastsInDim S100x64 (![] : Fin 0 → Fin S100x64.rank)
  bcast_S10_S1x10_1 : S10.BroadcastsInDim S1x10 (![1] : Fin 1 → Fin S1x10.rank)
  bcast_S1x10_S100x10_0_1 : S1x10.BroadcastsInDim S100x10 (![0, 1] : Fin 2 → Fin S100x10.rank)
  scatter_S100000_S1600000x1_S1600000_n_0_0_1_wf : ScatterDims.WF S100000 S1600000x1 S1600000 [] [0] [0] 1
  gather_S100_S100000x1_S100000_n_0_n_n_0_1_1_wf : GatherDims.WF S100 S100000x1 S100000 [] [0] [] [0] [] 1 ![1]
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x32_S5000x32_1_0_0_1_n_n_wf : DotDims.WF S5000x64 S64x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x64_S5000x64_1_0_0_1_n_n_wf : DotDims.WF S5000x32 S32x64 S5000x64 [1] [0] [0] [1] [] []
  dot_S5000x64_S64x64_S5000x64_1_0_0_1_n_n_wf : DotDims.WF S5000x64 S64x64 S5000x64 [1] [0] [0] [1] [] []
  scatter_S100x64_S100000x1_S100000x64_1_0_0_1_wf : ScatterDims.WF S100x64 S100000x1 S100000x64 [1] [0] [0] 1
  dot_S100x64_S64x10_S100x10_1_0_0_1_n_n_wf : DotDims.WF S100x64 S64x10 S100x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x64x32.size a ≤ S4x64x32.size a
  hwx0_4 : ∀ i : grid0.Coords, EltTy.bits .f32 = 32 ∨ (Rect.block (s := S4x64x32) S4x64x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32.size a ≤ S32.size a
  hwx0_5 : ∀ i : grid0.Coords, EltTy.bits .f32 = 32 ∨ (Rect.block (s := S32) S32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x32.size a ≤ S100000x32.size a
  hwx0_6 : ∀ i : grid0.Coords, EltTy.bits .f32 = 32 ∨ (Rect.block (s := S100000x32) S5000x32.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S100000x32.size a
  hwx1_2 : ∀ i : grid1.Coords, EltTy.bits .f32 = 32 ∨ (Rect.block (s := S100000x32) S5000x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x32.size a ≤ S100000x32.size a
  hwx1_3 : ∀ i : grid1.Coords, EltTy.bits .f32 = 32 ∨ (Rect.block (s := S100000x32) S5000x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4x32x64.size a ≤ S4x32x64.size a
  hwx1_4 : ∀ i : grid1.Coords, EltTy.bits .f32 = 32 ∨ (Rect.block (s := S4x32x64) S4x32x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S4x64x64.size a ≤ S4x64x64.size a
  hwx2_4 : ∀ i : grid2.Coords, EltTy.bits .f32 = 32 ∨ (Rect.block (s := S4x64x64) S4x64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100_S100000x1_S100000_n_0_n_n_0_1_1 : GatherDims S100 S100000x1 S100000 where
  offsetDims := []
  collapsedSliceDims := [0]
  operandBatchingDims := []
  startIndicesBatchingDims := []
  startIndexMap := [0]
  indexVectorDim := 1
  sliceSizes := ![1]
  wf := gather_S100_S100000x1_S100000_n_0_n_n_0_1_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S100x64_S100000x1_S100000x64_1_0_0_1 : ScatterDims S100x64 S100000x1 S100000x64 where
  updateWindowDims := [1]
  insertedWindowDims := [0]
  scatterDimsToOperandDims := [0]
  indexVectorDim := 1
  wf := scatter_S100x64_S100000x1_S100000x64_1_0_0_1_wf
def dot_S100x64_S64x10_S100x10_1_0_0_1_n_n : DotDims S100x64 S64x10 S100x10 where
  lhsContracting := [1]
  rhsContracting := [0]
  lhsNonContracting := [0]
  rhsNonContracting := [1]
  lhsBatch := []
  rhsBatch := []
  wf := dot_S100x64_S64x10_S100x10_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v65) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v85) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v105) S5000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4x64x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v106) S5000x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v106) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v123) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v143) S5000x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v163) S5000x32.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S4x32x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v164) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v164) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v181) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v201) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v221) S5000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S4x64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg9) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v222) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S100 : Shape := ⟨1, ![100]⟩
abbrev S4x64x32 : Shape := ⟨3, ![4, 64, 32]⟩
abbrev S32 : Shape := ⟨1, ![32]⟩
abbrev S4x32x64 : Shape := ⟨3, ![4, 32, 64]⟩
abbrev S64 : Shape := ⟨1, ![64]⟩
abbrev S4x64x64 : Shape := ⟨3, ![4, 64, 64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1x64x32 : Shape := ⟨3, ![1, 64, 32]⟩
abbrev S64x32 : Shape := ⟨2, ![64, 32]⟩
abbrev S100000x32 : Shape := ⟨2, ![100000, 32]⟩
abbrev S1600000x64 : Shape := ⟨2, ![1600000, 64]⟩
abbrev S1x32 : Shape := ⟨2, ![1, 32]⟩
abbrev S1x32x64 : Shape := ⟨3, ![1, 32, 64]⟩
abbrev S32x64 : Shape := ⟨2, ![32, 64]⟩
abbrev S1600000x32 : Shape := ⟨2, ![1600000, 32]⟩
abbrev S1x64 : Shape := ⟨2, ![1, 64]⟩
abbrev S1x64x64 : Shape := ⟨3, ![1, 64, 64]⟩
abbrev S64x64 : Shape := ⟨2, ![64, 64]⟩
abbrev S100x64 : Shape := ⟨2, ![100, 64]⟩
abbrev S100x10 : Shape := ⟨2, ![100, 10]⟩
abbrev S1x10 : Shape := ⟨2, ![1, 10]⟩

abbrev nBuf : Space → Nat
  | .hbm => 348
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S100, .f32⟩
  | 4 => ⟨S4x64x32, .f32⟩
  | 5 => ⟨S32, .f32⟩
  | 6 => ⟨S4x32x64, .f32⟩
  | 7 => ⟨S64, .f32⟩
  | 8 => ⟨S4x64x64, .f32⟩
  | 9 => ⟨S64, .f32⟩
  | 10 => ⟨S64x10, .f32⟩
  | 11 => ⟨S10, .f32⟩
  | 12 => ⟨S1x1600000, .i32⟩
  | 13 => ⟨S1600000, .i32⟩
  | 14 => ⟨S1x1600000, .i32⟩
  | 15 => ⟨S1600000, .i32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S100000, .f32⟩
  | 24 => ⟨S100000, .i1⟩
  | 25 => ⟨S_, .f32⟩
  | 26 => ⟨S100000, .f32⟩
  | 27 => ⟨S100000, .f32⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S100000, .i32⟩
  | 35 => ⟨S100000, .i1⟩
  | 36 => ⟨S_, .i32⟩
  | 37 => ⟨S100000, .i32⟩
  | 38 => ⟨S100000, .i32⟩
  | 39 => ⟨S100000, .i32⟩
  | 40 => ⟨S100000x1, .i32⟩
  | 41 => ⟨S100000, .f32⟩
  | 42 => ⟨S_, .f32⟩
  | 43 => ⟨S100000, .f32⟩
  | 44 => ⟨S100000, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000, .f32⟩
  | 54 => ⟨S1600000, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000, .f32⟩
  | 64 => ⟨S1600000, .f32⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S1600000, .f32⟩
  | 74 => ⟨S1600000, .f32⟩
  | 75 => ⟨S_, .f32⟩
  | 76 => ⟨S100000, .f32⟩
  | 77 => ⟨S100000, .f32⟩
  | 78 => ⟨S1x64x32, .f32⟩
  | 79 => ⟨S64x32, .f32⟩
  | 80 => ⟨S100000x32, .f32⟩
  | 81 => ⟨S1600000x1, .f32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S1600000x64, .f32⟩
  | 91 => ⟨S1600000x64, .f32⟩
  | 92 => ⟨S1600000x64, .f32⟩
  | 93 => ⟨S_, .f32⟩
  | 94 => ⟨S100000x64, .f32⟩
  | 95 => ⟨S1600000x1, .i32⟩
  | 96 => ⟨S100000x64, .f32⟩
  | 97 => ⟨S100000x1, .f32⟩
  | 98 => ⟨S100000x64, .f32⟩
  | 99 => ⟨S100000x64, .f32⟩
  | 100 => ⟨S100000x64, .f32⟩
  | 101 => ⟨S1x64x32, .f32⟩
  | 102 => ⟨S64x32, .f32⟩
  | 103 => ⟨S100000x32, .f32⟩
  | 104 => ⟨S100000x32, .f32⟩
  | 105 => ⟨S1600000x1, .f32⟩
  | 106 => ⟨S_, .i32⟩
  | 107 => ⟨S1600000, .i32⟩
  | 108 => ⟨S1600000, .i1⟩
  | 109 => ⟨S_, .i32⟩
  | 110 => ⟨S1600000, .i32⟩
  | 111 => ⟨S1600000, .i32⟩
  | 112 => ⟨S1600000, .i32⟩
  | 113 => ⟨S1600000x1, .i32⟩
  | 114 => ⟨S1600000x64, .f32⟩
  | 115 => ⟨S1600000x64, .f32⟩
  | 116 => ⟨S1600000x64, .f32⟩
  | 117 => ⟨S_, .f32⟩
  | 118 => ⟨S100000x64, .f32⟩
  | 119 => ⟨S1600000x1, .i32⟩
  | 120 => ⟨S100000x64, .f32⟩
  | 121 => ⟨S100000x1, .f32⟩
  | 122 => ⟨S100000x64, .f32⟩
  | 123 => ⟨S100000x64, .f32⟩
  | 124 => ⟨S100000x64, .f32⟩
  | 125 => ⟨S_, .f32⟩
  | 126 => ⟨S100000x64, .f32⟩
  | 127 => ⟨S100000x64, .f32⟩
  | _ => ⟨S100000x64, .f32⟩

abbrev hbmTy0_1 (i : Nat) : BufTy := match i % 128 with
  | 0 => ⟨S100000x64, .f32⟩
  | 1 => ⟨S1x64x32, .f32⟩
  | 2 => ⟨S64x32, .f32⟩
  | 3 => ⟨S100000x32, .f32⟩
  | 4 => ⟨S100000x32, .f32⟩
  | 5 => ⟨S1600000x1, .f32⟩
  | 6 => ⟨S_, .i32⟩
  | 7 => ⟨S1600000, .i32⟩
  | 8 => ⟨S1600000, .i1⟩
  | 9 => ⟨S_, .i32⟩
  | 10 => ⟨S1600000, .i32⟩
  | 11 => ⟨S1600000, .i32⟩
  | 12 => ⟨S1600000, .i32⟩
  | 13 => ⟨S1600000x1, .i32⟩
  | 14 => ⟨S1600000x64, .f32⟩
  | 15 => ⟨S1600000x64, .f32⟩
  | 16 => ⟨S1600000x64, .f32⟩
  | 17 => ⟨S_, .f32⟩
  | 18 => ⟨S100000x64, .f32⟩
  | 19 => ⟨S1600000x1, .i32⟩
  | 20 => ⟨S100000x64, .f32⟩
  | 21 => ⟨S100000x1, .f32⟩
  | 22 => ⟨S100000x64, .f32⟩
  | 23 => ⟨S100000x64, .f32⟩
  | 24 => ⟨S100000x64, .f32⟩
  | 25 => ⟨S_, .f32⟩
  | 26 => ⟨S100000x64, .f32⟩
  | 27 => ⟨S100000x64, .f32⟩
  | 28 => ⟨S100000x64, .f32⟩
  | 29 => ⟨S1x64x32, .f32⟩
  | 30 => ⟨S64x32, .f32⟩
  | 31 => ⟨S100000x32, .f32⟩
  | 32 => ⟨S100000x32, .f32⟩
  | 33 => ⟨S1x32, .f32⟩
  | 34 => ⟨S100000x32, .f32⟩
  | 35 => ⟨S100000x32, .f32⟩
  | 36 => ⟨S100000x32, .f32⟩
  | 37 => ⟨S1x32x64, .f32⟩
  | 38 => ⟨S32x64, .f32⟩
  | 39 => ⟨S100000x64, .f32⟩
  | 40 => ⟨S1600000x1, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000x32, .f32⟩
  | 50 => ⟨S1600000x32, .f32⟩
  | 51 => ⟨S1600000x32, .f32⟩
  | 52 => ⟨S_, .f32⟩
  | 53 => ⟨S100000x32, .f32⟩
  | 54 => ⟨S1600000x1, .i32⟩
  | 55 => ⟨S100000x32, .f32⟩
  | 56 => ⟨S100000x1, .f32⟩
  | 57 => ⟨S100000x32, .f32⟩
  | 58 => ⟨S100000x32, .f32⟩
  | 59 => ⟨S100000x32, .f32⟩
  | 60 => ⟨S1x32x64, .f32⟩
  | 61 => ⟨S32x64, .f32⟩
  | 62 => ⟨S100000x64, .f32⟩
  | 63 => ⟨S100000x64, .f32⟩
  | 64 => ⟨S1600000x1, .f32⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S1600000x32, .f32⟩
  | 74 => ⟨S1600000x32, .f32⟩
  | 75 => ⟨S1600000x32, .f32⟩
  | 76 => ⟨S_, .f32⟩
  | 77 => ⟨S100000x32, .f32⟩
  | 78 => ⟨S1600000x1, .i32⟩
  | 79 => ⟨S100000x32, .f32⟩
  | 80 => ⟨S100000x1, .f32⟩
  | 81 => ⟨S100000x32, .f32⟩
  | 82 => ⟨S100000x32, .f32⟩
  | 83 => ⟨S100000x32, .f32⟩
  | 84 => ⟨S_, .f32⟩
  | 85 => ⟨S100000x32, .f32⟩
  | 86 => ⟨S100000x32, .f32⟩
  | 87 => ⟨S100000x32, .f32⟩
  | 88 => ⟨S1x32x64, .f32⟩
  | 89 => ⟨S32x64, .f32⟩
  | 90 => ⟨S100000x64, .f32⟩
  | 91 => ⟨S100000x64, .f32⟩
  | 92 => ⟨S1600000x1, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x32, .f32⟩
  | 102 => ⟨S1600000x32, .f32⟩
  | 103 => ⟨S1600000x32, .f32⟩
  | 104 => ⟨S_, .f32⟩
  | 105 => ⟨S100000x32, .f32⟩
  | 106 => ⟨S1600000x1, .i32⟩
  | 107 => ⟨S100000x32, .f32⟩
  | 108 => ⟨S100000x1, .f32⟩
  | 109 => ⟨S100000x32, .f32⟩
  | 110 => ⟨S100000x32, .f32⟩
  | 111 => ⟨S100000x32, .f32⟩
  | 112 => ⟨S_, .f32⟩
  | 113 => ⟨S100000x32, .f32⟩
  | 114 => ⟨S100000x32, .f32⟩
  | 115 => ⟨S100000x32, .f32⟩
  | 116 => ⟨S1x32x64, .f32⟩
  | 117 => ⟨S32x64, .f32⟩
  | 118 => ⟨S100000x64, .f32⟩
  | 119 => ⟨S100000x64, .f32⟩
  | 120 => ⟨S1x64, .f32⟩
  | 121 => ⟨S100000x64, .f32⟩
  | 122 => ⟨S100000x64, .f32⟩
  | 123 => ⟨S100000x64, .f32⟩
  | 124 => ⟨S1x64x64, .f32⟩
  | 125 => ⟨S64x64, .f32⟩
  | 126 => ⟨S100000x64, .f32⟩
  | 127 => ⟨S1600000x1, .f32⟩
  | _ => ⟨S100000x64, .f32⟩

abbrev hbmTy0_2 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000x64, .f32⟩
  | 9 => ⟨S1600000x64, .f32⟩
  | 10 => ⟨S1600000x64, .f32⟩
  | 11 => ⟨S_, .f32⟩
  | 12 => ⟨S100000x64, .f32⟩
  | 13 => ⟨S1600000x1, .i32⟩
  | 14 => ⟨S100000x64, .f32⟩
  | 15 => ⟨S100000x1, .f32⟩
  | 16 => ⟨S100000x64, .f32⟩
  | 17 => ⟨S100000x64, .f32⟩
  | 18 => ⟨S100000x64, .f32⟩
  | 19 => ⟨S1x64x64, .f32⟩
  | 20 => ⟨S64x64, .f32⟩
  | 21 => ⟨S100000x64, .f32⟩
  | 22 => ⟨S100000x64, .f32⟩
  | 23 => ⟨S1600000x1, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x64, .f32⟩
  | 33 => ⟨S1600000x64, .f32⟩
  | 34 => ⟨S1600000x64, .f32⟩
  | 35 => ⟨S_, .f32⟩
  | 36 => ⟨S100000x64, .f32⟩
  | 37 => ⟨S1600000x1, .i32⟩
  | 38 => ⟨S100000x64, .f32⟩
  | 39 => ⟨S100000x1, .f32⟩
  | 40 => ⟨S100000x64, .f32⟩
  | 41 => ⟨S100000x64, .f32⟩
  | 42 => ⟨S100000x64, .f32⟩
  | 43 => ⟨S_, .f32⟩
  | 44 => ⟨S100000x64, .f32⟩
  | 45 => ⟨S100000x64, .f32⟩
  | 46 => ⟨S100000x64, .f32⟩
  | 47 => ⟨S1x64x64, .f32⟩
  | 48 => ⟨S64x64, .f32⟩
  | 49 => ⟨S100000x64, .f32⟩
  | 50 => ⟨S100000x64, .f32⟩
  | 51 => ⟨S1600000x1, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x64, .f32⟩
  | 61 => ⟨S1600000x64, .f32⟩
  | 62 => ⟨S1600000x64, .f32⟩
  | 63 => ⟨S_, .f32⟩
  | 64 => ⟨S100000x64, .f32⟩
  | 65 => ⟨S1600000x1, .i32⟩
  | 66 => ⟨S100000x64, .f32⟩
  | 67 => ⟨S100000x1, .f32⟩
  | 68 => ⟨S100000x64, .f32⟩
  | 69 => ⟨S100000x64, .f32⟩
  | 70 => ⟨S100000x64, .f32⟩
  | 71 => ⟨S_, .f32⟩
  | 72 => ⟨S100000x64, .f32⟩
  | 73 => ⟨S100000x64, .f32⟩
  | 74 => ⟨S100000x64, .f32⟩
  | 75 => ⟨S1x64x64, .f32⟩
  | 76 => ⟨S64x64, .f32⟩
  | 77 => ⟨S100000x64, .f32⟩
  | 78 => ⟨S100000x64, .f32⟩
  | 79 => ⟨S1x64, .f32⟩
  | 80 => ⟨S100000x64, .f32⟩
  | 81 => ⟨S100000x64, .f32⟩
  | 82 => ⟨S100000x64, .f32⟩
  | 83 => ⟨S_, .f32⟩
  | 84 => ⟨S100x64, .f32⟩
  | 85 => ⟨S100000x1, .i32⟩
  | 86 => ⟨S100x64, .f32⟩
  | 87 => ⟨S100x10, .f32⟩
  | 88 => ⟨S1x10, .f32⟩
  | 89 => ⟨S100x10, .f32⟩
  | 90 => ⟨S100x10, .f32⟩
  | 91 => ⟨S100x10, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v13 : Ref sig .tc := ⟨.hbm, 32, rfl⟩
abbrev main_c : Ref sig .tc := ⟨.hbm, 33, rfl⟩
abbrev main_v14 : Ref sig .tc := ⟨.hbm, 34, rfl⟩
abbrev main_v15 : Ref sig .tc := ⟨.hbm, 35, rfl⟩
abbrev main_c_4 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_5 : Ref sig .tc := ⟨.hbm, 42, rfl⟩
abbrev main_v21 : Ref sig .tc := ⟨.hbm, 43, rfl⟩
abbrev main_v22 : Ref sig .tc := ⟨.hbm, 44, rfl⟩
abbrev main_c_6 : Ref sig .tc := ⟨.hbm, 45, rfl⟩
abbrev main_v23 : Ref sig .tc := ⟨.hbm, 46, rfl⟩
abbrev main_v24 : Ref sig .tc := ⟨.hbm, 47, rfl⟩
abbrev main_c_7 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_8 : Ref sig .tc := ⟨.hbm, 55, rfl⟩
abbrev main_v31 : Ref sig .tc := ⟨.hbm, 56, rfl⟩
abbrev main_v32 : Ref sig .tc := ⟨.hbm, 57, rfl⟩
abbrev main_c_9 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_c_10 : Ref sig .tc := ⟨.hbm, 65, rfl⟩
abbrev main_v39 : Ref sig .tc := ⟨.hbm, 66, rfl⟩
abbrev main_v40 : Ref sig .tc := ⟨.hbm, 67, rfl⟩
abbrev main_c_11 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_12 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_c_13 : Ref sig .tc := ⟨.hbm, 82, rfl⟩
abbrev main_v53 : Ref sig .tc := ⟨.hbm, 83, rfl⟩
abbrev main_v54 : Ref sig .tc := ⟨.hbm, 84, rfl⟩
abbrev main_c_14 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_15 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_c_16 : Ref sig .tc := ⟨.hbm, 106, rfl⟩
abbrev main_v74 : Ref sig .tc := ⟨.hbm, 107, rfl⟩
abbrev main_v75 : Ref sig .tc := ⟨.hbm, 108, rfl⟩
abbrev main_c_17 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_18 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_19 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_c_20 : Ref sig .tc := ⟨.hbm, 134, rfl⟩
abbrev main_v98 : Ref sig .tc := ⟨.hbm, 135, rfl⟩
abbrev main_v99 : Ref sig .tc := ⟨.hbm, 136, rfl⟩
abbrev main_c_21 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_cst_22 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_cst_23 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_c_24 : Ref sig .tc := ⟨.hbm, 169, rfl⟩
abbrev main_v129 : Ref sig .tc := ⟨.hbm, 170, rfl⟩
abbrev main_v130 : Ref sig .tc := ⟨.hbm, 171, rfl⟩
abbrev main_c_25 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_cst_26 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_c_27 : Ref sig .tc := ⟨.hbm, 193, rfl⟩
abbrev main_v150 : Ref sig .tc := ⟨.hbm, 194, rfl⟩
abbrev main_v151 : Ref sig .tc := ⟨.hbm, 195, rfl⟩
abbrev main_c_28 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_cst_29 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_cst_30 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_c_31 : Ref sig .tc := ⟨.hbm, 221, rfl⟩
abbrev main_v174 : Ref sig .tc := ⟨.hbm, 222, rfl⟩
abbrev main_v175 : Ref sig .tc := ⟨.hbm, 223, rfl⟩
abbrev main_c_32 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_cst_33 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_cst_34 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_v193 : Ref sig .tc := ⟨.hbm, 244, rfl⟩
abbrev main_v194 : Ref sig .tc := ⟨.hbm, 245, rfl⟩
abbrev main_v195 : Ref sig .tc := ⟨.hbm, 246, rfl⟩
abbrev main_v196 : Ref sig .tc := ⟨.hbm, 247, rfl⟩
abbrev main_v197 : Ref sig .tc := ⟨.hbm, 248, rfl⟩
abbrev main_v198 : Ref sig .tc := ⟨.hbm, 249, rfl⟩
abbrev main_v199 : Ref sig .tc := ⟨.hbm, 250, rfl⟩
abbrev main_v200 : Ref sig .tc := ⟨.hbm, 251, rfl⟩
abbrev main_v201 : Ref sig .tc := ⟨.hbm, 252, rfl⟩
abbrev main_v202 : Ref sig .tc := ⟨.hbm, 253, rfl⟩
abbrev main_v203 : Ref sig .tc := ⟨.hbm, 254, rfl⟩
abbrev main_v204 : Ref sig .tc := ⟨.hbm, 255, rfl⟩
abbrev main_c_35 : Ref sig .tc := ⟨.hbm, 256, rfl⟩
abbrev main_v205 : Ref sig .tc := ⟨.hbm, 257, rfl⟩
abbrev main_v206 : Ref sig .tc := ⟨.hbm, 258, rfl⟩
abbrev main_c_36 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩
abbrev main_v212 : Ref sig .tc := ⟨.hbm, 265, rfl⟩
abbrev main_v213 : Ref sig .tc := ⟨.hbm, 266, rfl⟩
abbrev main_cst_37 : Ref sig .tc := ⟨.hbm, 267, rfl⟩
abbrev main_v214 : Ref sig .tc := ⟨.hbm, 268, rfl⟩
abbrev main_v215 : Ref sig .tc := ⟨.hbm, 269, rfl⟩
abbrev main_v216 : Ref sig .tc := ⟨.hbm, 270, rfl⟩
abbrev main_v217 : Ref sig .tc := ⟨.hbm, 271, rfl⟩
abbrev main_v218 : Ref sig .tc := ⟨.hbm, 272, rfl⟩
abbrev main_v219 : Ref sig .tc := ⟨.hbm, 273, rfl⟩
abbrev main_v220 : Ref sig .tc := ⟨.hbm, 274, rfl⟩
abbrev main_v221 : Ref sig .tc := ⟨.hbm, 275, rfl⟩
abbrev main_v222 : Ref sig .tc := ⟨.hbm, 276, rfl⟩
abbrev main_v223 : Ref sig .tc := ⟨.hbm, 277, rfl⟩
abbrev main_v224 : Ref sig .tc := ⟨.hbm, 278, rfl⟩
abbrev main_v225 : Ref sig .tc := ⟨.hbm, 279, rfl⟩
abbrev main_c_38 : Ref sig .tc := ⟨.hbm, 280, rfl⟩
abbrev main_v226 : Ref sig .tc := ⟨.hbm, 281, rfl⟩
abbrev main_v227 : Ref sig .tc := ⟨.hbm, 282, rfl⟩
abbrev main_c_39 : Ref sig .tc := ⟨.hbm, 283, rfl⟩
abbrev main_v228 : Ref sig .tc := ⟨.hbm, 284, rfl⟩
abbrev main_v229 : Ref sig .tc := ⟨.hbm, 285, rfl⟩
abbrev main_v230 : Ref sig .tc := ⟨.hbm, 286, rfl⟩
abbrev main_v231 : Ref sig .tc := ⟨.hbm, 287, rfl⟩
abbrev main_v232 : Ref sig .tc := ⟨.hbm, 288, rfl⟩
abbrev main_v233 : Ref sig .tc := ⟨.hbm, 289, rfl⟩
abbrev main_v234 : Ref sig .tc := ⟨.hbm, 290, rfl⟩
abbrev main_cst_40 : Ref sig .tc := ⟨.hbm, 291, rfl⟩
abbrev main_v235 : Ref sig .tc := ⟨.hbm, 292, rfl⟩
abbrev main_v236 : Ref sig .tc := ⟨.hbm, 293, rfl⟩
abbrev main_v237 : Ref sig .tc := ⟨.hbm, 294, rfl⟩
abbrev main_v238 : Ref sig .tc := ⟨.hbm, 295, rfl⟩
abbrev main_v239 : Ref sig .tc := ⟨.hbm, 296, rfl⟩
abbrev main_v240 : Ref sig .tc := ⟨.hbm, 297, rfl⟩
abbrev main_v241 : Ref sig .tc := ⟨.hbm, 298, rfl⟩
abbrev main_cst_41 : Ref sig .tc := ⟨.hbm, 299, rfl⟩
abbrev main_v242 : Ref sig .tc := ⟨.hbm, 300, rfl⟩
abbrev main_v243 : Ref sig .tc := ⟨.hbm, 301, rfl⟩
abbrev main_v244 : Ref sig .tc := ⟨.hbm, 302, rfl⟩
abbrev main_v245 : Ref sig .tc := ⟨.hbm, 303, rfl⟩
abbrev main_v246 : Ref sig .tc := ⟨.hbm, 304, rfl⟩
abbrev main_v247 : Ref sig .tc := ⟨.hbm, 305, rfl⟩
abbrev main_v248 : Ref sig .tc := ⟨.hbm, 306, rfl⟩
abbrev main_v249 : Ref sig .tc := ⟨.hbm, 307, rfl⟩
abbrev main_c_42 : Ref sig .tc := ⟨.hbm, 308, rfl⟩
abbrev main_v250 : Ref sig .tc := ⟨.hbm, 309, rfl⟩
abbrev main_v251 : Ref sig .tc := ⟨.hbm, 310, rfl⟩
abbrev main_c_43 : Ref sig .tc := ⟨.hbm, 311, rfl⟩
abbrev main_v252 : Ref sig .tc := ⟨.hbm, 312, rfl⟩
abbrev main_v253 : Ref sig .tc := ⟨.hbm, 313, rfl⟩
abbrev main_v254 : Ref sig .tc := ⟨.hbm, 314, rfl⟩
abbrev main_v255 : Ref sig .tc := ⟨.hbm, 315, rfl⟩
abbrev main_v256 : Ref sig .tc := ⟨.hbm, 316, rfl⟩
abbrev main_v257 : Ref sig .tc := ⟨.hbm, 317, rfl⟩
abbrev main_v258 : Ref sig .tc := ⟨.hbm, 318, rfl⟩
abbrev main_cst_44 : Ref sig .tc := ⟨.hbm, 319, rfl⟩
abbrev main_v259 : Ref sig .tc := ⟨.hbm, 320, rfl⟩
abbrev main_v260 : Ref sig .tc := ⟨.hbm, 321, rfl⟩
abbrev main_v261 : Ref sig .tc := ⟨.hbm, 322, rfl⟩
abbrev main_v262 : Ref sig .tc := ⟨.hbm, 323, rfl⟩
abbrev main_v263 : Ref sig .tc := ⟨.hbm, 324, rfl⟩
abbrev main_v264 : Ref sig .tc := ⟨.hbm, 325, rfl⟩
abbrev main_v265 : Ref sig .tc := ⟨.hbm, 326, rfl⟩
abbrev main_cst_45 : Ref sig .tc := ⟨.hbm, 327, rfl⟩
abbrev main_v266 : Ref sig .tc := ⟨.hbm, 328, rfl⟩
abbrev main_v267 : Ref sig .tc := ⟨.hbm, 329, rfl⟩
abbrev main_v268 : Ref sig .tc := ⟨.hbm, 330, rfl⟩
abbrev main_v269 : Ref sig .tc := ⟨.hbm, 331, rfl⟩
abbrev main_v270 : Ref sig .tc := ⟨.hbm, 332, rfl⟩
abbrev main_v271 : Ref sig .tc := ⟨.hbm, 333, rfl⟩
abbrev main_v272 : Ref sig .tc := ⟨.hbm, 334, rfl⟩
abbrev main_v273 : Ref sig .tc := ⟨.hbm, 335, rfl⟩
abbrev main_v274 : Ref sig .tc := ⟨.hbm, 336, rfl⟩
abbrev main_v275 : Ref sig .tc := ⟨.hbm, 337, rfl⟩
abbrev main_v276 : Ref sig .tc := ⟨.hbm, 338, rfl⟩
abbrev main_cst_46 : Ref sig .tc := ⟨.hbm, 339, rfl⟩
abbrev main_v277 : Ref sig .tc := ⟨.hbm, 340, rfl⟩
abbrev main_v278 : Ref sig .tc := ⟨.hbm, 341, rfl⟩
abbrev main_v279 : Ref sig .tc := ⟨.hbm, 342, rfl⟩
abbrev main_v280 : Ref sig .tc := ⟨.hbm, 343, rfl⟩
abbrev main_v281 : Ref sig .tc := ⟨.hbm, 344, rfl⟩
abbrev main_v282 : Ref sig .tc := ⟨.hbm, 345, rfl⟩
abbrev main_v283 : Ref sig .tc := ⟨.hbm, 346, rfl⟩
abbrev main_v284 : Ref sig .tc := ⟨.hbm, 347, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  slices_S4x64x32_S1x64x32_0_0_0 : S4x64x32.Slices ![0, 0, 0] S1x64x32
  shapeCasts_S1x64x32_S64x32 : S1x64x32.ShapeCasts S64x32
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  slices_S4x64x32_S1x64x32_1_0_0 : S4x64x32.Slices ![1, 0, 0] S1x64x32
  slices_S4x64x32_S1x64x32_2_0_0 : S4x64x32.Slices ![2, 0, 0] S1x64x32
  slices_S4x64x32_S1x64x32_3_0_0 : S4x64x32.Slices ![3, 0, 0] S1x64x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  slices_S4x32x64_S1x32x64_0_0_0 : S4x32x64.Slices ![0, 0, 0] S1x32x64
  shapeCasts_S1x32x64_S32x64 : S1x32x64.ShapeCasts S32x64
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  slices_S4x32x64_S1x32x64_1_0_0 : S4x32x64.Slices ![1, 0, 0] S1x32x64
  slices_S4x32x64_S1x32x64_2_0_0 : S4x32x64.Slices ![2, 0, 0] S1x32x64
  slices_S4x32x64_S1x32x64_3_0_0 : S4x32x64.Slices ![3, 0, 0] S1x32x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S4x64x64_S1x64x64_0_0_0 : S4x64x64.Slices ![0, 0, 0] S1x64x64
  shapeCasts_S1x64x64_S64x64 : S1x64x64.ShapeCasts S64x64
  slices_S4x64x64_S1x64x64_1_0_0 : S4x64x64.Slices ![1, 0, 0] S1x64x64
  slices_S4x64x64_S1x64x64_2_0_0 : S4x64x64.Slices ![2, 0, 0] S1x64x64
  slices_S4x64x64_S1x64x64_3_0_0 : S4x64x64.Slices ![3, 0, 0] S1x64x64
  bcast_S_S100x64 : S_.BroadcastsInDim S100x64 (![] : Fin 0 → Fin S100x64.rank)
  bcast_S10_S1x10_1 : S10.BroadcastsInDim S1x10 (![1] : Fin 1 → Fin S1x10.rank)
  bcast_S1x10_S100x10_0_1 : S1x10.BroadcastsInDim S100x10 (![0, 1] : Fin 2 → Fin S100x10.rank)
  scatter_S100000_S1600000x1_S1600000_n_0_0_1_wf : ScatterDims.WF S100000 S1600000x1 S1600000 [] [0] [0] 1
  gather_S100_S100000x1_S100000_n_0_n_n_0_1_1_wf : GatherDims.WF S100 S100000x1 S100000 [] [0] [] [0] [] 1 ![1]
  gather_S100000_S1600000x1_S1600000_n_0_n_n_0_1_1_wf : GatherDims.WF S100000 S1600000x1 S1600000 [] [0] [] [0] [] 1 ![1]
  dot_S100000x64_S64x32_S100000x32_1_0_0_1_n_n_wf : DotDims.WF S100000x64 S64x32 S100000x32 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x32_S32x64_S100000x64_1_0_0_1_n_n_wf : DotDims.WF S100000x32 S32x64 S100000x64 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x64_S64x64_S100000x64_1_0_0_1_n_n_wf : DotDims.WF S100000x64 S64x64 S100000x64 [1] [0] [0] [1] [] []
  scatter_S100x64_S100000x1_S100000x64_1_0_0_1_wf : ScatterDims.WF S100x64 S100000x1 S100000x64 [1] [0] [0] 1
  dot_S100x64_S64x10_S100x10_1_0_0_1_n_n_wf : DotDims.WF S100x64 S64x10 S100x10 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100_S100000x1_S100000_n_0_n_n_0_1_1 : GatherDims S100 S100000x1 S100000 where
  offsetDims := []
  collapsedSliceDims := [0]
  operandBatchingDims := []
  startIndicesBatchingDims := []
  startIndexMap := [0]
  indexVectorDim := 1
  sliceSizes := ![1]
  wf := gather_S100_S100000x1_S100000_n_0_n_n_0_1_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100x64_S100000x1_S100000x64_1_0_0_1 : ScatterDims S100x64 S100000x1 S100000x64 where
  updateWindowDims := [1]
  insertedWindowDims := [0]
  scatterDimsToOperandDims := [0]
  indexVectorDim := 1
  wf := scatter_S100x64_S100000x1_S100000x64_1_0_0_1_wf
def dot_S100x64_S64x10_S100x10_1_0_0_1_n_n : DotDims S100x64 S64x10 S100x10 where
  lhsContracting := [1]
  rhsContracting := [0]
  lhsNonContracting := [0]
  rhsNonContracting := [1]
  lhsBatch := []
  rhsBatch := []
  wf := dot_S100x64_S64x10_S100x10_1_0_0_1_n_n_wf

class Facts : Prop extends Facts₀ where

variable [Facts]
-- ==== Proof.KernelRun.lean ====
/-
  The idealized kernel program's run, with its result named.

  The program is nine segments in order: three stretches of host operations, the first layer's row-blocked
  kernel, a stretch, the second layer's kernel, a stretch, the third layer's kernel, and the closing stretch
  (pooling, the dense layer, tanh). Each segment takes the core's buffer contents at one boundary to the
  contents at the next; the last boundary's contents are `Gen.W9`. Every weakly fair execution terminates
  with every unscoped buffer at those contents — in particular the result buffer, which is what this module
  records beside the arguments' being unchanged. What `Gen.W9` holds at the result buffer, as a function of
  the arguments, is the business of the modules that import this one.
-/
import proofs.«153326_j64991445123400_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and every argument array as launched. The segments, their chaining and the launch are the
    frame's; only the reading of the final state differs: it keeps the result buffer as well. -/
theorem run_result : θ_run defs (onTc (τ := τ) (main (F := F))) ⟨m, fun _ => 0, ρ⟩ (fun r => ∀ c : Dev nD,
      r.2.mem ((c.tc : Thread nD τ).loc main_v230) = W9 m ρ c (Proc.devRef .tc main_v230)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v230 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c)⟩)

end Cert.KernelIdeal.Whole

end
-- ==== Proof.KernelPrelude.lean ====
/-
  The first stretch of the idealized kernel program, up to its first row-blocked kernel: the graph quantities and
  the first layer's diffused arrays.

  Before the first kernel the program computes, with host operations only, the edge endpoints (the two rows of
  the edge list), the normalised edge weights and the diagonal of the rescaled Laplacian, and from the node
  features x the three diffused arrays  L̂x,  2·L̂(L̂x) − x,  2·L̂(2·L̂(L̂x) − x) − L̂x.  The reference computes the very
  same arrays with the very same host operations (it merely interleaves its matrix products with them), so the
  contents the kernel program holds at this point are, buffer by buffer, the reference's values of the launch
  arguments. Each lemma reads one buffer through the fold of the host operations and meets the reference's
  value, which unfolds to the same operations applied to the same arguments.
-/
import proofs.«153326_j64991445123400_1_alg».proof.Proof.Gen.KernelIdeal.Frame
import proofs.«153326_j64991445123400_1_alg».proof.Proof.RefRead

set_option maxRecDepth 16384

noncomputable section

namespace Cert.KernelIdeal.Whole

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The arguments, untouched by the host operations -/

theorem W3_arg0 : W3 m ρ c (Proc.devRef .tc main_arg0) = m ((c : Thread nD τ).loc main_arg0) := by
  after_results_simp <;> rfl
theorem W3_arg4 : W3 m ρ c (Proc.devRef .tc main_arg4) = m ((c : Thread nD τ).loc main_arg4) := by
  after_results_simp <;> rfl
theorem W3_arg5 : W3 m ρ c (Proc.devRef .tc main_arg5) = m ((c : Thread nD τ).loc main_arg5) := by
  after_results_simp <;> rfl

/-! ## The outlined selection's transports

The selection `where(deg > 0, rsqrt(max(deg, ε)), 0)` is an outlined function whose operations are stated over typed
references: each value is transported along the equation "the buffer's type is the value's type". For these literal
buffers both sides of that equation compute to one type, so every transport is the identity. -/

theorem toBuf_cst_3 (h1 h2 h3) (v : (⟨S_, .f32⟩ : BufTy).Contents (Elt Ideal)) :
    (TRef.of (sig := sig) (T := ⟨S_, .f32⟩) main_cst_3 h1 h2 h3).toBuf v = v := eq_of_heq (cast_heq _ v)
theorem ofBuf_cst_3 (h1 h2 h3) (v : (⟨S_, .f32⟩ : BufTy).Contents (Elt Ideal)) :
    (TRef.of (sig := sig) (T := ⟨S_, .f32⟩) main_cst_3 h1 h2 h3).ofBuf v = v := eq_of_heq (cast_heq _ v)
theorem toBuf_call0_v0 (h1 h2 h3) (v : (⟨S_, .f32⟩ : BufTy).Contents (Elt Ideal)) :
    (TRef.of (sig := sig) (T := ⟨S_, .f32⟩) main_call0_v0 h1 h2 h3).toBuf v = v := eq_of_heq (cast_heq _ v)
theorem ofBuf_call0_v0 (h1 h2 h3) (v : (⟨S_, .f32⟩ : BufTy).Contents (Elt Ideal)) :
    (TRef.of (sig := sig) (T := ⟨S_, .f32⟩) main_call0_v0 h1 h2 h3).ofBuf v = v := eq_of_heq (cast_heq _ v)
theorem toBuf_call0_v1 (h1 h2 h3) (v : (⟨S100000, .f32⟩ : BufTy).Contents (Elt Ideal)) :
    (TRef.of (sig := sig) (T := ⟨S100000, .f32⟩) main_call0_v1 h1 h2 h3).toBuf v = v := eq_of_heq (cast_heq _ v)
theorem ofBuf_call0_v1 (h1 h2 h3) (v : (⟨S100000, .f32⟩ : BufTy).Contents (Elt Ideal)) :
    (TRef.of (sig := sig) (T := ⟨S100000, .f32⟩) main_call0_v1 h1 h2 h3).ofBuf v = v := eq_of_heq (cast_heq _ v)
theorem toBuf_v9 (h1 h2 h3) (v : (⟨S100000, .i1⟩ : BufTy).Contents (Elt Ideal)) :
    (TRef.of (sig := sig) (T := ⟨S100000, .i1⟩) main_v9 h1 h2 h3).toBuf v = v := eq_of_heq (cast_heq _ v)
theorem ofBuf_v9 (h1 h2 h3) (v : (⟨S100000, .i1⟩ : BufTy).Contents (Elt Ideal)) :
    (TRef.of (sig := sig) (T := ⟨S100000, .i1⟩) main_v9 h1 h2 h3).ofBuf v = v := eq_of_heq (cast_heq _ v)
theorem toBuf_v12 (h1 h2 h3) (v : (⟨S100000, .f32⟩ : BufTy).Contents (Elt Ideal)) :
    (TRef.of (sig := sig) (T := ⟨S100000, .f32⟩) main_v12 h1 h2 h3).toBuf v = v := eq_of_heq (cast_heq _ v)
theorem ofBuf_v12 (h1 h2 h3) (v : (⟨S100000, .f32⟩ : BufTy).Contents (Elt Ideal)) :
    (TRef.of (sig := sig) (T := ⟨S100000, .f32⟩) main_v12 h1 h2 h3).ofBuf v = v := eq_of_heq (cast_heq _ v)
theorem toBuf_v13 (h1 h2 h3) (v : (⟨S100000, .f32⟩ : BufTy).Contents (Elt Ideal)) :
    (TRef.of (sig := sig) (T := ⟨S100000, .f32⟩) main_v13 h1 h2 h3).toBuf v = v := eq_of_heq (cast_heq _ v)
theorem ofBuf_v13 (h1 h2 h3) (v : (⟨S100000, .f32⟩ : BufTy).Contents (Elt Ideal)) :
    (TRef.of (sig := sig) (T := ⟨S100000, .f32⟩) main_v13 h1 h2 h3).ofBuf v = v := eq_of_heq (cast_heq _ v)

/-! ## The graph quantities and the diffused arrays -/

set_option maxHeartbeats 40000000 in
theorem W3_v1 : W3 m ρ c (Proc.devRef .tc main_v1) = Cert.ReferenceIdeal.RefRead.val_main_v1 (F := Ideal) (m ((c : Thread nD τ).loc main_arg1)) := by
  after_results_simp <;> rfl

set_option maxHeartbeats 40000000 in
theorem W3_v3 : W3 m ρ c (Proc.devRef .tc main_v3) = Cert.ReferenceIdeal.RefRead.val_main_v3 (F := Ideal) (m ((c : Thread nD τ).loc main_arg1)) := by
  after_results_simp <;> rfl

set_option maxHeartbeats 40000000 in
theorem W3_v46 : W3 m ρ c (Proc.devRef .tc main_v46) = Cert.ReferenceIdeal.RefRead.val_main_v46 (F := Ideal) (m ((c : Thread nD τ).loc main_arg1)) (m ((c : Thread nD τ).loc main_arg2)) (m ((c : Thread nD τ).loc main_arg3)) := by
  after_results_simp
  simp only [toBuf_cst_3, ofBuf_cst_3, toBuf_call0_v0, ofBuf_call0_v0, toBuf_call0_v1, ofBuf_call0_v1, toBuf_v9, ofBuf_v9, toBuf_v12, ofBuf_v12, toBuf_v13, ofBuf_v13]
  rfl

set_option maxHeartbeats 40000000 in
theorem W3_v48 : W3 m ρ c (Proc.devRef .tc main_v48) = Cert.ReferenceIdeal.RefRead.val_main_v48 (F := Ideal) (m ((c : Thread nD τ).loc main_arg2)) (m ((c : Thread nD τ).loc main_arg3)) := by
  after_results_simp <;> rfl

set_option maxHeartbeats 40000000 in
theorem W3_v65 : W3 m ρ c (Proc.devRef .tc main_v65) = Cert.ReferenceIdeal.RefRead.val_main_v68 (F := Ideal) (m ((c : Thread nD τ).loc main_arg0)) (m ((c : Thread nD τ).loc main_arg1)) (m ((c : Thread nD τ).loc main_arg2)) (m ((c : Thread nD τ).loc main_arg3)) := by
  after_results_simp
  simp only [toBuf_cst_3, ofBuf_cst_3, toBuf_call0_v0, ofBuf_call0_v0, toBuf_call0_v1, ofBuf_call0_v1, toBuf_v9, ofBuf_v9, toBuf_v12, ofBuf_v12, toBuf_v13, ofBuf_v13]
  rfl

set_option maxHeartbeats 40000000 in
theorem W3_v85 : W3 m ρ c (Proc.devRef .tc main_v85) = Cert.ReferenceIdeal.RefRead.val_main_v92 (F := Ideal) (m ((c : Thread nD τ).loc main_arg0)) (m ((c : Thread nD τ).loc main_arg1)) (m ((c : Thread nD τ).loc main_arg2)) (m ((c : Thread nD τ).loc main_arg3)) := by
  after_results_simp
  simp only [toBuf_cst_3, ofBuf_cst_3, toBuf_call0_v0, ofBuf_call0_v0, toBuf_call0_v1, ofBuf_call0_v1, toBuf_v9, ofBuf_v9, toBuf_v12, ofBuf_v12, toBuf_v13, ofBuf_v13]
  rfl

set_option maxHeartbeats 40000000 in
theorem W3_v105 : W3 m ρ c (Proc.devRef .tc main_v105) = Cert.ReferenceIdeal.RefRead.val_main_v116 (F := Ideal) (m ((c : Thread nD τ).loc main_arg0)) (m ((c : Thread nD τ).loc main_arg1)) (m ((c : Thread nD τ).loc main_arg2)) (m ((c : Thread nD τ).loc main_arg3)) := by
  after_results_simp
  simp only [toBuf_cst_3, ofBuf_cst_3, toBuf_call0_v0, ofBuf_call0_v0, toBuf_call0_v1, ofBuf_call0_v1, toBuf_v9, ofBuf_v9, toBuf_v12, ofBuf_v12, toBuf_v13, ofBuf_v13]
  rfl

end Cert.KernelIdeal.Whole

end
-- ==== Proof.ChebSpec.lean ====
/-
  One Chebyshev graph-convolution layer after the diffusion steps, as a function of whole arrays.

  Given the four diffused feature arrays T₀ … T₃ (each M × K), the stacked weights W (4 × K × N) and the bias b (N),
  the layer's output is, entry by entry,

      out[r, c] = tanh( (((Σₖ T₀[r,k]·W[0,k,c] + Σₖ T₁[r,k]·W[1,k,c]) + Σₖ T₂[r,k]·W[2,k,c]) + Σₖ T₃[r,k]·W[3,k,c]) + b[c] )

  over the extended reals. The grouping of the five summands is kept exactly as written: both programs add the four
  products from the left and the bias last, so no rearrangement (and hence no finiteness of the entries) is needed to
  identify them. Row r of the output depends on row r of each Tⱼ only, which is why a row-blocked computation of it
  and a whole-array computation agree.
-/
import Idealize.ShloMosaic.PureOps.Ideal
import Idealize.ShloMosaic.Lib.ValueIdx

noncomputable section

namespace Cert.Cheb

open Idealize.ShloMosaic Idealize.ShloMosaic.ValueIdx
open scoped BigOperators

/-- The product of row `r` of `T` with column `c` of the `j`-th weight matrix: Σₖ T[r,k] · W[j,k,c]. -/
def rowDot (M K N : ℕ) (T : (⟨2, ![M, K]⟩ : Shape).Idx → EReal) (W : (⟨3, ![4, K, N]⟩ : Shape).Idx → EReal)
    (j : Fin 4) (r : Fin M) (c : Fin N) : EReal :=
  ∑ k : Fin K, T (ix2 r k) * W (ix3 j k c)

/-- Entry (r, c) of the layer's output. -/
def entry (M K N : ℕ) (T0 T1 T2 T3 : (⟨2, ![M, K]⟩ : Shape).Idx → EReal) (W : (⟨3, ![4, K, N]⟩ : Shape).Idx → EReal)
    (b : (⟨1, ![N]⟩ : Shape).Idx → EReal) (r : Fin M) (c : Fin N) : EReal :=
  Ideal.tanh ((((rowDot M K N T0 W 0 r c + rowDot M K N T1 W 1 r c) + rowDot M K N T2 W 2 r c) + rowDot M K N T3 W 3 r c)
    + b (ix1 c))

/-- The layer's output array. -/
def layer (M K N : ℕ) (T0 T1 T2 T3 : (⟨2, ![M, K]⟩ : Shape).Idx → EReal) (W : (⟨3, ![4, K, N]⟩ : Shape).Idx → EReal)
    (b : (⟨1, ![N]⟩ : Shape).Idx → EReal) : (⟨2, ![M, N]⟩ : Shape).Idx → EReal :=
  fun i => entry M K N T0 T1 T2 T3 W b (i 0) (i 1)

/-- The output read at the index with coordinates (r, c). -/
theorem layer_apply (M K N : ℕ) (T0 T1 T2 T3 : (⟨2, ![M, K]⟩ : Shape).Idx → EReal) (W : (⟨3, ![4, K, N]⟩ : Shape).Idx → EReal)
    (b : (⟨1, ![N]⟩ : Shape).Idx → EReal) (r : Fin M) (c : Fin N) :
    layer M K N T0 T1 T2 T3 W b (ix2 r c) = entry M K N T0 T1 T2 T3 W b r c := rfl

end Cert.Cheb

end
-- ==== Proof.Region0Array.lean ====
import proofs.«153326_j64991445123400_1_alg».proof.Proof.Gen.KernelIdeal.Frame
import proofs.«153326_j64991445123400_1_alg».proof.Proof.ChebSpec
import Idealize.ShloMosaic.Lib.Pipeline.Value
import Idealize.ShloMosaic.Lib.ValueIdx
import Idealize.ShloMosaic.Lib.ValueLayout
import Idealize.ShloMosaic.PureOps.Ideal.Laws

/-!
  Region 0 of the kernel program (its first Chebyshev layer: 5000-row blocks of four 100000 × 64 feature arrays, times the
  four 64 × 32 weight matrices, plus the bias, through tanh): the array the region leaves in its output window is
  `Cert.Cheb.layer` of the arrays it was entered with.

  The steps: the body's arithmetic at one entry of a block (a matrix product is a sum over the contracted index; the
  four products are added from the left, the bias last); each window's block at a grid point as rows of its array
  (block t of a feature array is rows 5000·t … 5000·t + 4999; the weights and the bias are staged whole); hence what
  point t writes back is block t of the layer's output; the 20 blocks cover the 100000 rows.
-/

set_option maxRecDepth 16384

noncomputable section

namespace Cert.KernelIdeal.RegionArray

open Cert.KernelIdeal Cert.KernelIdeal.Gen Idealize.ShloMosaic Idealize.ShloMosaic.TcCoe Idealize.SL.Sem
open Idealize.ShloMosaic.ValueIdx
open Idealize.ShloMosaic.Pipeline (Dat Cfg Window)
open scoped BigOperators

/-! ## The body's arithmetic at an entry -/

/-- Left operand's index in the contraction, axis by axis: the row of the output entry, then the summation index. -/
theorem region0_lhs_0 (i : S5000x32.Idx) (q : dot_S5000x64_S64x32_S5000x32_1_0_0_1_n_n.contr.Idx) :
    (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
theorem region0_lhs_1 (i : S5000x32.Idx) (q : dot_S5000x64_S64x32_S5000x32_1_0_0_1_n_n.contr.Idx) :
    (dot_S5000x64_S64x32_S5000x32_1_0_0_1_n_n.lhsIdx i q 1).val = (q ⟨0, by decide⟩).val :=
  dot_S5000x64_S64x32_S5000x32_1_0_0_1_n_n.lhsIdx_val_of_single rfl i q
/-- Right operand's index: the summation index, then the column of the output entry. -/
theorem region0_rhs_0 (i : S5000x32.Idx) (q : dot_S5000x64_S64x32_S5000x32_1_0_0_1_n_n.contr.Idx) :
    (dot_S5000x64_S64x32_S5000x32_1_0_0_1_n_n.rhsIdx i q 0).val = (q ⟨0, by decide⟩).val :=
  dot_S5000x64_S64x32_S5000x32_1_0_0_1_n_n.rhsIdx_val_of_single rfl i q
theorem region0_rhs_1 (i : S5000x32.Idx) (q : dot_S5000x64_S64x32_S5000x32_1_0_0_1_n_n.contr.Idx) :
    (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- A block of 5000 rows (64 columns) times a 64 × 32 matrix, accumulated from zero: entry (p, q) is Σₖ x[p,k] · w[k,q]. -/
theorem region0_matmul_apply (x : FVec Ideal S5000x64 .bf16) (w : FVec Ideal S64x32 .bf16) (p : Fin 5000) (q : Fin 32) :
    matmul dot_S5000x64_S64x32_S5000x32_1_0_0_1_n_n none x w (constant S5000x32 .f32 0x00000000#32) (ix2 p q)
      = ∑ k : Fin 64, x (ix2 p k) * w (ix2 k q) := by
  simp only [matmul]
  rw [Ideal.matmul_constant_zero_apply, ← Equiv.sum_comp (contrEquiv1 dot_S5000x64_S64x32_S5000x32_1_0_0_1_n_n 64 rfl rfl).symm]
  refine Finset.sum_congr rfl fun k _ => ?_
  have hk := contrEquiv1_symm_val dot_S5000x64_S64x32_S5000x32_1_0_0_1_n_n 64 rfl rfl k
  have el : dot_S5000x64_S64x32_S5000x32_1_0_0_1_n_n.lhsIdx (ix2 p q) ((contrEquiv1 dot_S5000x64_S64x32_S5000x32_1_0_0_1_n_n 64 rfl rfl).symm k) = ix2 p k :=
    funext fun a => Fin.ext (by
      match a with
      | ⟨0, _⟩ => exact region0_lhs_0 _ _
      | ⟨1, _⟩ => exact (region0_lhs_1 _ _).trans hk)
  have er : dot_S5000x64_S64x32_S5000x32_1_0_0_1_n_n.rhsIdx (ix2 p q) ((contrEquiv1 dot_S5000x64_S64x32_S5000x32_1_0_0_1_n_n 64 rfl rfl).symm k) = ix2 k q :=
    funext fun a => Fin.ext (by
      match a with
      | ⟨0, _⟩ => exact (region0_rhs_0 _ _).trans hk
      | ⟨1, _⟩ => exact region0_rhs_1 _ _)
  rw [el, er]

/-- The body's arithmetic at entry (p, q) of a block: the four products of the row blocks with the weight slices added
    from the left, the bias added last, then tanh. A change of float format is the identity on extended reals, a cast
    between equal shapes is the identity, a 1 × 64 × 32 slice cast to 64 × 32 keeps its entries, and the bias is
    repeated down the rows. -/
theorem region0_payload_apply (w0 w1 w2 w3 : Vec Ideal S1x64x32 .f32) (x0 x1 x2 x3 : Vec Ideal S5000x64 .f32) (b : Vec Ideal S32 .f32)
    (p : Fin 5000) (q : Fin 32) :
    k0_pay1 (k0_pay2 w0 w1 w2 w3 x0 x1 x2 x3 b) (ix2 p q)
      = Ideal.tanh (((((∑ k : Fin 64, x0 (ix2 p k) * w0 (ix3 (0 : Fin 1) k q)) + (∑ k : Fin 64, x1 (ix2 p k) * w1 (ix3 (0 : Fin 1) k q)))
          + (∑ k : Fin 64, x2 (ix2 p k) * w2 (ix3 (0 : Fin 1) k q))) + (∑ k : Fin 64, x3 (ix2 p k) * w3 (ix3 (0 : Fin 1) k q))) + b (ix1 q)) := by
  unfold k0_pay1 k0_pay2
  dsimp only
  rw [show ∀ (v : FVec Ideal S5000x32 .f32) (i : S5000x32.Idx), tanh v i = Ideal.tanh (v i) from fun _ _ => rfl]
  rw [addf_apply, addf_apply, addf_apply, addf_apply]
  rw [region0_matmul_apply, region0_matmul_apply, region0_matmul_apply, region0_matmul_apply]
  simp only [truncf_apply, shapeCast_self, shapeCast_1ab_ab_apply, broadcastTo_1b_ab_apply, shapeCast_a_1a_apply]

/-! ## Each window's block at a grid point, as entries of its array -/

theorem region0_zero1 : (![0] : Fin 1 → Nat) = fun _ => 0 := funext fun a => by fin_cases a; rfl
theorem region0_zero2 : (![0, 0] : Fin 2 → Nat) = fun _ => 0 := funext fun a => by fin_cases a <;> rfl

/-- The index maps over the grid: the row-blocked windows (the four feature arrays and the output) sit at block t on
    the rows and block 0 on the columns; the weights and the bias are always at block 0. -/
theorem region0_index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 3) = 0 ∧ win0_4.index t (1 : Fin 3) = 0 ∧ win0_4.index t (2 : Fin 3) = 0)
    ∧ win0_5.index t (0 : Fin 1) = 0
    ∧ (win0_6.index t (0 : Fin 2) = t.val ∧ win0_6.index t (1 : Fin 2) = 0) :=
  (by decide +kernel : ∀ t : Fin grid0.N, _)

/-- Block t of a row-blocked feature array is rows 5000·t … 5000·t + 4999 of the array (one statement per feature array). -/
theorem region0_rows0_apply (V : (c : Dev nD) → (b : Ref sig .tc) → Buf (Elt Ideal) ((c : Thread nD τ).loc b)) (c : Dev nD) (t : Fin cfg0.N)
    (p : Fin 5000) (k : Fin 64) (r : Fin 100000) (hr : r.val = 5000 * t.val + p.val) :
    (iblk0 V c 0 t : Vec Ideal S5000x64 .f32) (ix2 p k) = (V c main_arg0 : S100000x64.Idx → EReal) (ix2 r k) := by
  have e0 := (region0_index_facts t).1.1
  have e1 := (region0_index_facts t).1.2
  unfold iblk0
  rw [View.read_apply]
  show V c main_arg0 _ = V c main_arg0 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 64 + 1 * k.val = k.val; rw [e1]; omega

theorem region0_rows1_apply (V : (c : Dev nD) → (b : Ref sig .tc) → Buf (Elt Ideal) ((c : Thread nD τ).loc b)) (c : Dev nD) (t : Fin cfg0.N)
    (p : Fin 5000) (k : Fin 64) (r : Fin 100000) (hr : r.val = 5000 * t.val + p.val) :
    (iblk0 V c 1 t : Vec Ideal S5000x64 .f32) (ix2 p k) = (V c main_v65 : S100000x64.Idx → EReal) (ix2 r k) := by
  have e0 := (region0_index_facts t).2.1.1
  have e1 := (region0_index_facts t).2.1.2
  unfold iblk0
  rw [View.read_apply]
  show V c main_v65 _ = V c main_v65 _
  congr 1
  funext a
  apply Fin.ext
  match a with
  | ⟨0, _⟩ => show win0_1.index t (0 : Fin 2) * 5000 + 1 * p.val = r.val; rw [e0, hr]; omega
  | ⟨1, _⟩ => show win0_1.index t (1 : Fin 2) * 64 + 1 * k.val = k.val; rw [e1]; omega

theorem region0_rows2_apply (V : (c : Dev nD) → (b : Ref sig .tc) → Buf (Elt Ideal) ((c : Thread nD τ).loc b)) (c : Dev nD) (t : Fin cfg0.N)
    (p : Fin 5000) (k : Fin 64) (r : Fin 100000) (hr : r.val = 5000 * t.val + p.val) :
    (iblk0 V c 2 t : Vec Ideal S5000x64 .f32) (ix2 p k) = (V c main_v85 : S100000x64.Idx → EReal) (ix2 r k) := by
  have e0 := (region0_index_facts t).2.2.1.1
  have e1 := (region0_index_facts t).2.2.1.2
  unfold iblk0
  rw [View.read_apply]
  show V c main_v85 _ = V c main_v85 _
  congr 1
  funext a
  apply Fin.ext
  match a with
  | ⟨0, _⟩ => show win0_2.index t (0 : Fin 2) * 5000 + 1 * p.val = r.val; rw [e0, hr]; omega
  | ⟨1, _⟩ => show win0_2.index t (1 : Fin 2) * 64 + 1 * k.val = k.val; rw [e1]; omega

theorem region0_rows3_apply (V : (c : Dev nD) → (b : Ref sig .tc) → Buf (Elt Ideal) ((c : Thread nD τ).loc b)) (c : Dev nD) (t : Fin cfg0.N)
    (p : Fin 5000) (k : Fin 64) (r : Fin 100000) (hr : r.val = 5000 * t.val + p.val) :
    (iblk0 V c 3 t : Vec Ideal S5000x64 .f32) (ix2 p k) = (V c main_v105 : S100000x64.Idx → EReal) (ix2 r k) := by
  have e0 := (region0_index_facts t).2.2.2.1.1
  have e1 := (region0_index_facts t).2.2.2.1.2
  unfold iblk0
  rw [View.read_apply]
  show V c main_v105 _ = V c main_v105 _
  congr 1
  funext a
  apply Fin.ext
  match a with
  | ⟨0, _⟩ => show win0_3.index t (0 : Fin 2) * 5000 + 1 * p.val = r.val; rw [e0, hr]; omega
  | ⟨1, _⟩ => show win0_3.index t (1 : Fin 2) * 64 + 1 * k.val = k.val; rw [e1]; omega

/-- The weights' one block is the whole stacked array. -/
theorem region0_weights_apply (V : (c : Dev nD) → (b : Ref sig .tc) → Buf (Elt Ideal) ((c : Thread nD τ).loc b)) (c : Dev nD) (t : Fin cfg0.N) (j : Fin 4) (k : Fin 64) (q : Fin 32) :
    (iblk0 V c 4 t : Vec Ideal S4x64x32 .f32) (ix3 j k q) = (V c main_arg4 : S4x64x32.Idx → EReal) (ix3 j k q) := by
  obtain ⟨e0, e1, e2⟩ := (region0_index_facts t).2.2.2.2.1
  unfold iblk0
  rw [View.read_apply]
  show V c main_arg4 _ = V c main_arg4 _
  congr 1
  funext a
  apply Fin.ext
  match a with
  | ⟨0, _⟩ => show win0_4.index t (0 : Fin 3) * 4 + 1 * j.val = j.val; rw [e0]; omega
  | ⟨1, _⟩ => show win0_4.index t (1 : Fin 3) * 64 + 1 * k.val = k.val; rw [e1]; omega
  | ⟨2, _⟩ => show win0_4.index t (2 : Fin 3) * 32 + 1 * q.val = q.val; rw [e2]; omega

/-- The bias's one block is the whole vector. -/
theorem region0_bias_apply (V : (c : Dev nD) → (b : Ref sig .tc) → Buf (Elt Ideal) ((c : Thread nD τ).loc b)) (c : Dev nD) (t : Fin cfg0.N) (q : Fin 32) :
    (iblk0 V c 5 t : Vec Ideal S32 .f32) (ix1 q) = (V c main_arg5 : S32.Idx → EReal) (ix1 q) := by
  have e0 := (region0_index_facts t).2.2.2.2.2.1
  unfold iblk0
  rw [View.read_apply]
  show V c main_arg5 _ = V c main_arg5 _
  congr 1
  funext a
  apply Fin.ext
  match a with
  | ⟨0, _⟩ => show win0_5.index t (0 : Fin 1) * 32 + 1 * q.val = q.val; rw [e0]; omega

/-- The j-th 1 × 64 × 32 slice of the stacked weights, read at (0, k, q), is the stacked array at (j, k, q). -/
theorem region0_slice_apply (x : Vec Ideal S4x64x32 .f32) (k : Fin 64) (q : Fin 32) :
    View.ld x r0_0 (ix3 (0 : Fin 1) k q) = x (ix3 (0 : Fin 4) k q)
    ∧ View.ld x r0_1 (ix3 (0 : Fin 1) k q) = x (ix3 (1 : Fin 4) k q)
    ∧ View.ld x r0_2 (ix3 (0 : Fin 1) k q) = x (ix3 (2 : Fin 4) k q)
    ∧ View.ld x r0_3 (ix3 (0 : Fin 1) k q) = x (ix3 (3 : Fin 4) k q) := by
  refine ⟨?_, ?_, ?_, ?_⟩ <;>
  · refine congrArg x (funext fun a => Fin.ext ?_)
    match a with
    | ⟨0, _⟩ => rfl
    | ⟨1, _⟩ => show 0 + 1 * k.val = k.val; omega
    | ⟨2, _⟩ => show 0 + 1 * q.val = q.val; omega

/-- The j-th weight slice of the staged block, read at (0, k, q), is the stacked weights at (j, k, q). -/
theorem region0_wslice_apply (V : (c : Dev nD) → (b : Ref sig .tc) → Buf (Elt Ideal) ((c : Thread nD τ).loc b)) (c : Dev nD) (t : Fin cfg0.N) (k : Fin 64) (q : Fin 32) :
    View.ld (iblk0 V c 4 t : Vec Ideal S4x64x32 .f32) r0_0 (ix3 (0 : Fin 1) k q) = (V c main_arg4 : S4x64x32.Idx → EReal) (ix3 (0 : Fin 4) k q)
    ∧ View.ld (iblk0 V c 4 t : Vec Ideal S4x64x32 .f32) r0_1 (ix3 (0 : Fin 1) k q) = (V c main_arg4 : S4x64x32.Idx → EReal) (ix3 (1 : Fin 4) k q)
    ∧ View.ld (iblk0 V c 4 t : Vec Ideal S4x64x32 .f32) r0_2 (ix3 (0 : Fin 1) k q) = (V c main_arg4 : S4x64x32.Idx → EReal) (ix3 (2 : Fin 4) k q)
    ∧ View.ld (iblk0 V c 4 t : Vec Ideal S4x64x32 .f32) r0_3 (ix3 (0 : Fin 1) k q) = (V c main_arg4 : S4x64x32.Idx → EReal) (ix3 (3 : Fin 4) k q) :=
  ⟨(region0_slice_apply _ k q).1.trans (region0_weights_apply V c t 0 k q),
   (region0_slice_apply _ k q).2.1.trans (region0_weights_apply V c t 1 k q),
   (region0_slice_apply _ k q).2.2.1.trans (region0_weights_apply V c t 2 k q),
   (region0_slice_apply _ k q).2.2.2.trans (region0_weights_apply V c t 3 k q)⟩

/-! ## From blocks to the array -/

/-- What point t writes back is block t of the layer's output computed from the whole arrays: entry (p, q) of the
    block is entry (5000·t + p, q) of the output, which reads row 5000·t + p of each feature array, i.e. row p of its block t. -/
theorem region0_flushed (V : (c : Dev nD) → (b : Ref sig .tc) → Buf (Elt Ideal) ((c : Thread nD τ).loc b)) (c : Dev nD) (t : Fin cfg0.N) :
    (dat0 (F := Ideal) V c).flushed 6 t
      = ((cfg0.win 6).blk t).view.read (Elt Ideal) (Cert.Cheb.layer 100000 64 32 (V c main_arg0) (V c main_v65) (V c main_v85) (V c main_v105) (V c main_arg4) (V c main_arg5)) := by
  show (cfg0.win 6).cut (grid0.coords t) ((dat0 V c).after 6 t) = _
  rw [after0_6]
  unfold out0_6
  rw [View.canon_unit_zero region0_zero2]
  simp only [View.ld_unit_zero (S := S5000x64) region0_zero2, View.ld_unit_zero (S := S32) region0_zero1]
  obtain ⟨e0, e1⟩ := (region0_index_facts t).2.2.2.2.2.2
  have ht : t.val < 20 := lt_of_lt_of_eq t.isLt N_0
  funext j
  obtain ⟨p, q, rfl⟩ : ∃ (p : Fin 5000) (q : Fin 32), j = ix2 p q := ⟨j 0, j 1, eq_ix2 j⟩
  have hp : p.val < 5000 := p.isLt
  have hrow : 5000 * t.val + p.val < 100000 := by omega
  have hemb : ((cfg0.win 6).blk t).view.emb (ix2 p q) = ix2 (⟨5000 * t.val + p.val, hrow⟩ : Fin 100000) q := by
    funext a
    apply Fin.ext
    match a with
    | ⟨0, _⟩ => show win0_6.index t (0 : Fin 2) * 5000 + 1 * p.val = 5000 * t.val + p.val; rw [e0]; omega
    | ⟨1, _⟩ => show win0_6.index t (1 : Fin 2) * 32 + 1 * q.val = q.val; rw [e1]; omega
  rw [View.read_apply]
  show k0_pay1 (F := Ideal) (k0_pay2 _ _ _ _ _ _ _ _ _) (ix2 p q)
    = Cert.Cheb.layer 100000 64 32 (V c main_arg0) (V c main_v65) (V c main_v85) (V c main_v105) (V c main_arg4) (V c main_arg5) (((cfg0.win 6).blk t).view.emb (ix2 p q))
  rw [hemb, Cert.Cheb.layer_apply]
  refine (region0_payload_apply _ _ _ _ _ _ _ _ _ p q).trans ?_
  unfold Cert.Cheb.entry Cert.Cheb.rowDot
  simp only [(region0_wslice_apply V c t _ q).1, (region0_wslice_apply V c t _ q).2.1, (region0_wslice_apply V c t _ q).2.2.1, (region0_wslice_apply V c t _ q).2.2.2,
    region0_bias_apply V c t,
    region0_rows0_apply V c t p _ ⟨5000 * t.val + p.val, hrow⟩ rfl, region0_rows1_apply V c t p _ ⟨5000 * t.val + p.val, hrow⟩ rfl,
    region0_rows2_apply V c t p _ ⟨5000 * t.val + p.val, hrow⟩ rfl, region0_rows3_apply V c t p _ ⟨5000 * t.val + p.val, hrow⟩ rfl]

/-- Every entry of the output lies in some point's block: row r is in block r / 5000. -/
theorem region0_cover (i : S100000x32.Idx) :
    ∃ t : Fin cfg0.N, (cfg0.win 6).flush t = true ∧ i ∈ ((cfg0.win 6).blk t).view.set := by
  have hi0 : (i 0).val < 100000 := (i 0).isLt
  have hi1 : (i 1).val < 32 := (i 1).isLt
  have hN : cfg0.N = 20 := N_0
  have htlt : (i 0).val / 5000 < cfg0.N := by rw [hN]; omega
  obtain ⟨e0, e1⟩ := (region0_index_facts ⟨(i 0).val / 5000, htlt⟩).2.2.2.2.2.2
  refine ⟨⟨(i 0).val / 5000, htlt⟩, flush0_6 _, ?_⟩
  show i ∈ ((View.whole main_v106).slice (win0_6.rect ⟨(i 0).val / 5000, htlt⟩)).set
  rw [View.set_slice_whole, Rect.mem_set_unit]
  intro a
  match a with
  | ⟨0, _⟩ =>
    show win0_6.index ⟨(i 0).val / 5000, htlt⟩ (0 : Fin 2) * 5000 ≤ (i 0).val ∧ (i 0).val < win0_6.index ⟨(i 0).val / 5000, htlt⟩ (0 : Fin 2) * 5000 + 5000
    rw [e0]
    show (i 0).val / 5000 * 5000 ≤ (i 0).val ∧ (i 0).val < (i 0).val / 5000 * 5000 + 5000
    omega
  | ⟨1, _⟩ =>
    show win0_6.index ⟨(i 0).val / 5000, htlt⟩ (1 : Fin 2) * 32 ≤ (i 1).val ∧ (i 1).val < win0_6.index ⟨(i 0).val / 5000, htlt⟩ (1 : Fin 2) * 32 + 32
    rw [e1]
    omega

/-- The output window's array after the region: the layer's output as one function of the arrays the region was entered with. -/
theorem region0_array (V : (c : Dev nD) → (b : Ref sig .tc) → Buf (Elt Ideal) ((c : Thread nD τ).loc b)) (c : Dev nD) :
    (dat0 (F := Ideal) V c).arrAt 6 cfg0.N
      = Cert.Cheb.layer 100000 64 32 (V c main_arg0) (V c main_v65) (V c main_v85) (V c main_v105) (V c main_arg4) (V c main_arg5) :=
  (dat0 (F := Ideal) V c).arrAt_eq_of_cover 6 _ (fun t _ => region0_flushed V c t) (fun i => region0_cover i)

end Cert.KernelIdeal.RegionArray

end
-- ==== Proof.RefLayers.lean ====
/-
  The reference's three layers are the layer function.

  In the reference each layer is spelt with host operations: for j = 0 … 3 the slice W[j] of the stacked weights (a slice
  of extent one along the first axis, then a reshape that drops that axis), the matrix product of the j-th diffused array
  with it, the four products added from the left, the bias broadcast along the rows and added last, and tanh. Read at the
  entry (r, c), a matrix product is the sum over k of T[r,k]·W[j][k,c]; the reshaped slice at (k, c) is the stacked array
  at (j, k, c), because the flat position k·N + c of a K × N array has quotient k and remainder c; and the broadcast bias at
  (r, c) is b[c]. That is `Cert.Cheb.layer` of the diffused arrays, the weights and the bias, with the same grouping.
-/
import proofs.«153326_j64991445123400_1_alg».proof.Proof.RefRead
import proofs.«153326_j64991445123400_1_alg».proof.Proof.ChebSpec

noncomputable section

namespace Cert.ReferenceIdeal.RefLayers

open Cert.ReferenceIdeal Cert.ReferenceIdeal.Gen Cert.ReferenceIdeal.RefRead Idealize.ShloMosaic Idealize.ShloMosaic.ValueIdx

/-- Layer 1 of the reference, entry by entry: its four host matrix products are sums over the contracted axis, the slices
    `W[j]` read the stacked weights at first coordinate `j`, the bias is read through its two broadcasts at the column, and
    the additions are grouped from the left with the bias last — the layer function of the diffused arrays. -/
theorem layer1_eq (x0 : (⟨S100000x64, .f32⟩ : BufTy).Contents (Elt Ideal)) (x1 : (⟨S2x1600000, .i32⟩ : BufTy).Contents (Elt Ideal)) (x2 : (⟨S100000, .i32⟩ : BufTy).Contents (Elt Ideal)) (x3 : (⟨S100, .f32⟩ : BufTy).Contents (Elt Ideal)) (x4 : (⟨S4x64x32, .f32⟩ : BufTy).Contents (Elt Ideal)) (x5 : (⟨S32, .f32⟩ : BufTy).Contents (Elt Ideal)) :
    val_main_v124 (F := Ideal) x0 x1 x2 x3 x4 x5
      = Cert.Cheb.layer 100000 64 32 x0 (val_main_v68 (F := Ideal) x0 x1 x2 x3) (val_main_v92 (F := Ideal) x0 x1 x2 x3) (val_main_v116 (F := Ideal) x0 x1 x2 x3) x4 x5 := by
  funext i
  obtain ⟨r, q, rfl⟩ : ∃ (r : Fin 100000) (q : Fin 32), i = ix2 r q := ⟨i 0, i 1, eq_ix2 i⟩
  rw [Cert.Cheb.layer_apply, val_main_v124_apply, val_main_v123_apply, val_main_v120_apply, val_main_v96_apply, val_main_v72_apply, val_main_v51_apply, val_main_v71_apply, val_main_v95_apply, val_main_v119_apply, val_main_v122_apply, val_main_v121_apply]
  simp only [val_main_v50_apply, val_main_v70_apply, val_main_v94_apply, val_main_v118_apply, val_main_v49_apply, val_main_v69_apply, val_main_v93_apply, val_main_v117_apply]
  have hl0 : ∀ k : Fin 64, lidx_main_v51 (ix2 r q) k = ix2 r k := fun k => funext fun a => match a with | ⟨0, _⟩ => rfl | ⟨1, _⟩ => rfl
  have hl1 : ∀ k : Fin 64, lidx_main_v71 (ix2 r q) k = ix2 r k := fun k => funext fun a => match a with | ⟨0, _⟩ => rfl | ⟨1, _⟩ => rfl
  have hl2 : ∀ k : Fin 64, lidx_main_v95 (ix2 r q) k = ix2 r k := fun k => funext fun a => match a with | ⟨0, _⟩ => rfl | ⟨1, _⟩ => rfl
  have hl3 : ∀ k : Fin 64, lidx_main_v119 (ix2 r q) k = ix2 r k := fun k => funext fun a => match a with | ⟨0, _⟩ => rfl | ⟨1, _⟩ => rfl
  have hw0 : ∀ k : Fin 64, idx_main_v49 (idx_main_v50 (ridx_main_v51 (ix2 r q) k)) = ix3 (0 : Fin 4) k q := fun k => funext fun a => Fin.ext (by
    have hk : k.val < 64 := k.isLt
    have hq : q.val < 32 := q.isLt
    match a with
    | ⟨0, _⟩ => rfl
    | ⟨1, _⟩ => show (k.val * 32 + q.val) / 32 % 64 = k.val; omega
    | ⟨2, _⟩ => show (k.val * 32 + q.val) % 32 = q.val; omega)
  have hw1 : ∀ k : Fin 64, idx_main_v69 (idx_main_v70 (ridx_main_v71 (ix2 r q) k)) = ix3 (1 : Fin 4) k q := fun k => funext fun a => Fin.ext (by
    have hk : k.val < 64 := k.isLt
    have hq : q.val < 32 := q.isLt
    match a with
    | ⟨0, _⟩ => rfl
    | ⟨1, _⟩ => show (k.val * 32 + q.val) / 32 % 64 = k.val; omega
    | ⟨2, _⟩ => show (k.val * 32 + q.val) % 32 = q.val; omega)
  have hw2 : ∀ k : Fin 64, idx_main_v93 (idx_main_v94 (ridx_main_v95 (ix2 r q) k)) = ix3 (2 : Fin 4) k q := fun k => funext fun a => Fin.ext (by
    have hk : k.val < 64 := k.isLt
    have hq : q.val < 32 := q.isLt
    match a with
    | ⟨0, _⟩ => rfl
    | ⟨1, _⟩ => show (k.val * 32 + q.val) / 32 % 64 = k.val; omega
    | ⟨2, _⟩ => show (k.val * 32 + q.val) % 32 = q.val; omega)
  have hw3 : ∀ k : Fin 64, idx_main_v117 (idx_main_v118 (ridx_main_v119 (ix2 r q) k)) = ix3 (3 : Fin 4) k q := fun k => funext fun a => Fin.ext (by
    have hk : k.val < 64 := k.isLt
    have hq : q.val < 32 := q.isLt
    match a with
    | ⟨0, _⟩ => rfl
    | ⟨1, _⟩ => show (k.val * 32 + q.val) / 32 % 64 = k.val; omega
    | ⟨2, _⟩ => show (k.val * 32 + q.val) % 32 = q.val; omega)
  have hb : idx_main_v121 (idx_main_v122 (ix2 r q)) = ix1 q := funext fun a => match a with | ⟨0, _⟩ => rfl
  simp only [hl0, hl1, hl2, hl3, hw0, hw1, hw2, hw3, hb, Ideal.hostUnary_tanh_def, Ideal.addf_def]
  rfl

/-- Layer 2 of the reference, entry by entry: its four host matrix products are sums over the contracted axis, the slices
    `W[j]` read the stacked weights at first coordinate `j`, the bias is read through its two broadcasts at the column, and
    the additions are grouped from the left with the bias last — the layer function of the diffused arrays. -/
theorem layer2_eq (x0 : (⟨S100000x64, .f32⟩ : BufTy).Contents (Elt Ideal)) (x1 : (⟨S2x1600000, .i32⟩ : BufTy).Contents (Elt Ideal)) (x2 : (⟨S100000, .i32⟩ : BufTy).Contents (Elt Ideal)) (x3 : (⟨S100, .f32⟩ : BufTy).Contents (Elt Ideal)) (x4 : (⟨S4x64x32, .f32⟩ : BufTy).Contents (Elt Ideal)) (x5 : (⟨S32, .f32⟩ : BufTy).Contents (Elt Ideal)) (x6 : (⟨S4x32x64, .f32⟩ : BufTy).Contents (Elt Ideal)) (x7 : (⟨S64, .f32⟩ : BufTy).Contents (Elt Ideal)) :
    val_main_v200 (F := Ideal) x0 x1 x2 x3 x4 x5 x6 x7
      = Cert.Cheb.layer 100000 32 64 (val_main_v124 (F := Ideal) x0 x1 x2 x3 x4 x5) (val_main_v144 (F := Ideal) x0 x1 x2 x3 x4 x5) (val_main_v168 (F := Ideal) x0 x1 x2 x3 x4 x5) (val_main_v192 (F := Ideal) x0 x1 x2 x3 x4 x5) x6 x7 := by
  funext i
  obtain ⟨r, q, rfl⟩ : ∃ (r : Fin 100000) (q : Fin 64), i = ix2 r q := ⟨i 0, i 1, eq_ix2 i⟩
  rw [Cert.Cheb.layer_apply, val_main_v200_apply, val_main_v199_apply, val_main_v196_apply, val_main_v172_apply, val_main_v148_apply, val_main_v127_apply, val_main_v147_apply, val_main_v171_apply, val_main_v195_apply, val_main_v198_apply, val_main_v197_apply]
  simp only [val_main_v126_apply, val_main_v146_apply, val_main_v170_apply, val_main_v194_apply, val_main_v125_apply, val_main_v145_apply, val_main_v169_apply, val_main_v193_apply]
  have hl0 : ∀ k : Fin 32, lidx_main_v127 (ix2 r q) k = ix2 r k := fun k => funext fun a => match a with | ⟨0, _⟩ => rfl | ⟨1, _⟩ => rfl
  have hl1 : ∀ k : Fin 32, lidx_main_v147 (ix2 r q) k = ix2 r k := fun k => funext fun a => match a with | ⟨0, _⟩ => rfl | ⟨1, _⟩ => rfl
  have hl2 : ∀ k : Fin 32, lidx_main_v171 (ix2 r q) k = ix2 r k := fun k => funext fun a => match a with | ⟨0, _⟩ => rfl | ⟨1, _⟩ => rfl
  have hl3 : ∀ k : Fin 32, lidx_main_v195 (ix2 r q) k = ix2 r k := fun k => funext fun a => match a with | ⟨0, _⟩ => rfl | ⟨1, _⟩ => rfl
  have hw0 : ∀ k : Fin 32, idx_main_v125 (idx_main_v126 (ridx_main_v127 (ix2 r q) k)) = ix3 (0 : Fin 4) k q := fun k => funext fun a => Fin.ext (by
    have hk : k.val < 32 := k.isLt
    have hq : q.val < 64 := q.isLt
    match a with
    | ⟨0, _⟩ => rfl
    | ⟨1, _⟩ => show (k.val * 64 + q.val) / 64 % 32 = k.val; omega
    | ⟨2, _⟩ => show (k.val * 64 + q.val) % 64 = q.val; omega)
  have hw1 : ∀ k : Fin 32, idx_main_v145 (idx_main_v146 (ridx_main_v147 (ix2 r q) k)) = ix3 (1 : Fin 4) k q := fun k => funext fun a => Fin.ext (by
    have hk : k.val < 32 := k.isLt
    have hq : q.val < 64 := q.isLt
    match a with
    | ⟨0, _⟩ => rfl
    | ⟨1, _⟩ => show (k.val * 64 + q.val) / 64 % 32 = k.val; omega
    | ⟨2, _⟩ => show (k.val * 64 + q.val) % 64 = q.val; omega)
  have hw2 : ∀ k : Fin 32, idx_main_v169 (idx_main_v170 (ridx_main_v171 (ix2 r q) k)) = ix3 (2 : Fin 4) k q := fun k => funext fun a => Fin.ext (by
    have hk : k.val < 32 := k.isLt
    have hq : q.val < 64 := q.isLt
    match a with
    | ⟨0, _⟩ => rfl
    | ⟨1, _⟩ => show (k.val * 64 + q.val) / 64 % 32 = k.val; omega
    | ⟨2, _⟩ => show (k.val * 64 + q.val) % 64 = q.val; omega)
  have hw3 : ∀ k : Fin 32, idx_main_v193 (idx_main_v194 (ridx_main_v195 (ix2 r q) k)) = ix3 (3 : Fin 4) k q := fun k => funext fun a => Fin.ext (by
    have hk : k.val < 32 := k.isLt
    have hq : q.val < 64 := q.isLt
    match a with
    | ⟨0, _⟩ => rfl
    | ⟨1, _⟩ => show (k.val * 64 + q.val) / 64 % 32 = k.val; omega
    | ⟨2, _⟩ => show (k.val * 64 + q.val) % 64 = q.val; omega)
  have hb : idx_main_v197 (idx_main_v198 (ix2 r q)) = ix1 q := funext fun a => match a with | ⟨0, _⟩ => rfl
  simp only [hl0, hl1, hl2, hl3, hw0, hw1, hw2, hw3, hb, Ideal.hostUnary_tanh_def, Ideal.addf_def]
  rfl

/-- Layer 3 of the reference, entry by entry: its four host matrix products are sums over the contracted axis, the slices
    `W[j]` read the stacked weights at first coordinate `j`, the bias is read through its two broadcasts at the column, and
    the additions are grouped from the left with the bias last — the layer function of the diffused arrays. -/
theorem layer3_eq (x0 : (⟨S100000x64, .f32⟩ : BufTy).Contents (Elt Ideal)) (x1 : (⟨S2x1600000, .i32⟩ : BufTy).Contents (Elt Ideal)) (x2 : (⟨S100000, .i32⟩ : BufTy).Contents (Elt Ideal)) (x3 : (⟨S100, .f32⟩ : BufTy).Contents (Elt Ideal)) (x4 : (⟨S4x64x32, .f32⟩ : BufTy).Contents (Elt Ideal)) (x5 : (⟨S32, .f32⟩ : BufTy).Contents (Elt Ideal)) (x6 : (⟨S4x32x64, .f32⟩ : BufTy).Contents (Elt Ideal)) (x7 : (⟨S64, .f32⟩ : BufTy).Contents (Elt Ideal)) (x8 : (⟨S4x64x64, .f32⟩ : BufTy).Contents (Elt Ideal)) (x9 : (⟨S64, .f32⟩ : BufTy).Contents (Elt Ideal)) :
    val_main_v276 (F := Ideal) x0 x1 x2 x3 x4 x5 x6 x7 x8 x9
      = Cert.Cheb.layer 100000 64 64 (val_main_v200 (F := Ideal) x0 x1 x2 x3 x4 x5 x6 x7) (val_main_v220 (F := Ideal) x0 x1 x2 x3 x4 x5 x6 x7) (val_main_v244 (F := Ideal) x0 x1 x2 x3 x4 x5 x6 x7) (val_main_v268 (F := Ideal) x0 x1 x2 x3 x4 x5 x6 x7) x8 x9 := by
  funext i
  obtain ⟨r, q, rfl⟩ : ∃ (r : Fin 100000) (q : Fin 64), i = ix2 r q := ⟨i 0, i 1, eq_ix2 i⟩
  rw [Cert.Cheb.layer_apply, val_main_v276_apply, val_main_v275_apply, val_main_v272_apply, val_main_v248_apply, val_main_v224_apply, val_main_v203_apply, val_main_v223_apply, val_main_v247_apply, val_main_v271_apply, val_main_v274_apply, val_main_v273_apply]
  simp only [val_main_v202_apply, val_main_v222_apply, val_main_v246_apply, val_main_v270_apply, val_main_v201_apply, val_main_v221_apply, val_main_v245_apply, val_main_v269_apply]
  have hl0 : ∀ k : Fin 64, lidx_main_v203 (ix2 r q) k = ix2 r k := fun k => funext fun a => match a with | ⟨0, _⟩ => rfl | ⟨1, _⟩ => rfl
  have hl1 : ∀ k : Fin 64, lidx_main_v223 (ix2 r q) k = ix2 r k := fun k => funext fun a => match a with | ⟨0, _⟩ => rfl | ⟨1, _⟩ => rfl
  have hl2 : ∀ k : Fin 64, lidx_main_v247 (ix2 r q) k = ix2 r k := fun k => funext fun a => match a with | ⟨0, _⟩ => rfl | ⟨1, _⟩ => rfl
  have hl3 : ∀ k : Fin 64, lidx_main_v271 (ix2 r q) k = ix2 r k := fun k => funext fun a => match a with | ⟨0, _⟩ => rfl | ⟨1, _⟩ => rfl
  have hw0 : ∀ k : Fin 64, idx_main_v201 (idx_main_v202 (ridx_main_v203 (ix2 r q) k)) = ix3 (0 : Fin 4) k q := fun k => funext fun a => Fin.ext (by
    have hk : k.val < 64 := k.isLt
    have hq : q.val < 64 := q.isLt
    match a with
    | ⟨0, _⟩ => rfl
    | ⟨1, _⟩ => show (k.val * 64 + q.val) / 64 % 64 = k.val; omega
    | ⟨2, _⟩ => show (k.val * 64 + q.val) % 64 = q.val; omega)
  have hw1 : ∀ k : Fin 64, idx_main_v221 (idx_main_v222 (ridx_main_v223 (ix2 r q) k)) = ix3 (1 : Fin 4) k q := fun k => funext fun a => Fin.ext (by
    have hk : k.val < 64 := k.isLt
    have hq : q.val < 64 := q.isLt
    match a with
    | ⟨0, _⟩ => rfl
    | ⟨1, _⟩ => show (k.val * 64 + q.val) / 64 % 64 = k.val; omega
    | ⟨2, _⟩ => show (k.val * 64 + q.val) % 64 = q.val; omega)
  have hw2 : ∀ k : Fin 64, idx_main_v245 (idx_main_v246 (ridx_main_v247 (ix2 r q) k)) = ix3 (2 : Fin 4) k q := fun k => funext fun a => Fin.ext (by
    have hk : k.val < 64 := k.isLt
    have hq : q.val < 64 := q.isLt
    match a with
    | ⟨0, _⟩ => rfl
    | ⟨1, _⟩ => show (k.val * 64 + q.val) / 64 % 64 = k.val; omega
    | ⟨2, _⟩ => show (k.val * 64 + q.val) % 64 = q.val; omega)
  have hw3 : ∀ k : Fin 64, idx_main_v269 (idx_main_v270 (ridx_main_v271 (ix2 r q) k)) = ix3 (3 : Fin 4) k q := fun k => funext fun a => Fin.ext (by
    have hk : k.val < 64 := k.isLt
    have hq : q.val < 64 := q.isLt
    match a with
    | ⟨0, _⟩ => rfl
    | ⟨1, _⟩ => show (k.val * 64 + q.val) / 64 % 64 = k.val; omega
    | ⟨2, _⟩ => show (k.val * 64 + q.val) % 64 = q.val; omega)
  have hb : idx_main_v273 (idx_main_v274 (ix2 r q)) = ix1 q := funext fun a => match a with | ⟨0, _⟩ => rfl
  simp only [hl0, hl1, hl2, hl3, hw0, hw1, hw2, hw3, hb, Ideal.hostUnary_tanh_def, Ideal.addf_def]
  rfl

end Cert.ReferenceIdeal.RefLayers

end
-- ==== Proof.KernelLayer1.lean ====
/-
  The first layer of the idealized kernel program and the stretch of host operations after it.

  The first row-blocked kernel is entered with the node features and their three diffused arrays, the first
  layer's stacked weights and bias; the array it leaves is the layer function of those six arrays (the kernel's
  blocks are rows 5000·t … 5000·t+4999 of that function), and the reference's first layer is the same function
  of the same six arrays. So the contents after the kernel hold, at its output, the reference's first hidden
  array. The host operations that follow diffuse that array three times with the unchanged graph quantities:
  the same operations as in the reference, applied to equal arrays.
-/
import proofs.«153326_j64991445123400_1_alg».proof.Proof.KernelPrelude
import proofs.«153326_j64991445123400_1_alg».proof.Proof.Region0Array
import proofs.«153326_j64991445123400_1_alg».proof.Proof.RefLayers

set_option maxRecDepth 16384

noncomputable section

namespace Cert.KernelIdeal.Whole

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The arguments at the boundaries of this layer (no host operation and no kernel of this layer writes them) -/

theorem W3_arg2 : W3 m ρ c (Proc.devRef .tc main_arg2) = m ((c : Thread nD τ).loc main_arg2) := by
  after_results_simp <;> rfl
theorem W3_arg6 : W3 m ρ c (Proc.devRef .tc main_arg6) = m ((c : Thread nD τ).loc main_arg6) := by
  after_results_simp <;> rfl
theorem W3_arg7 : W3 m ρ c (Proc.devRef .tc main_arg7) = m ((c : Thread nD τ).loc main_arg7) := by
  after_results_simp <;> rfl
theorem W3_arg8 : W3 m ρ c (Proc.devRef .tc main_arg8) = m ((c : Thread nD τ).loc main_arg8) := by
  after_results_simp <;> rfl
theorem W3_arg9 : W3 m ρ c (Proc.devRef .tc main_arg9) = m ((c : Thread nD τ).loc main_arg9) := by
  after_results_simp <;> rfl
theorem W3_arg10 : W3 m ρ c (Proc.devRef .tc main_arg10) = m ((c : Thread nD τ).loc main_arg10) := by
  after_results_simp <;> rfl
theorem W3_arg11 : W3 m ρ c (Proc.devRef .tc main_arg11) = m ((c : Thread nD τ).loc main_arg11) := by
  after_results_simp <;> rfl
theorem W4_arg2 : W4 m ρ c (Proc.devRef .tc main_arg2) = m ((c : Thread nD τ).loc main_arg2) :=
  (W4_of_ne m ρ c main_arg2 (by decide)).trans (W3_arg2 m ρ c)
theorem W4_arg6 : W4 m ρ c (Proc.devRef .tc main_arg6) = m ((c : Thread nD τ).loc main_arg6) :=
  (W4_of_ne m ρ c main_arg6 (by decide)).trans (W3_arg6 m ρ c)
theorem W4_arg7 : W4 m ρ c (Proc.devRef .tc main_arg7) = m ((c : Thread nD τ).loc main_arg7) :=
  (W4_of_ne m ρ c main_arg7 (by decide)).trans (W3_arg7 m ρ c)
theorem W4_arg8 : W4 m ρ c (Proc.devRef .tc main_arg8) = m ((c : Thread nD τ).loc main_arg8) :=
  (W4_of_ne m ρ c main_arg8 (by decide)).trans (W3_arg8 m ρ c)
theorem W4_arg9 : W4 m ρ c (Proc.devRef .tc main_arg9) = m ((c : Thread nD τ).loc main_arg9) :=
  (W4_of_ne m ρ c main_arg9 (by decide)).trans (W3_arg9 m ρ c)
theorem W4_arg10 : W4 m ρ c (Proc.devRef .tc main_arg10) = m ((c : Thread nD τ).loc main_arg10) :=
  (W4_of_ne m ρ c main_arg10 (by decide)).trans (W3_arg10 m ρ c)
theorem W4_arg11 : W4 m ρ c (Proc.devRef .tc main_arg11) = m ((c : Thread nD τ).loc main_arg11) :=
  (W4_of_ne m ρ c main_arg11 (by decide)).trans (W3_arg11 m ρ c)
theorem W5_arg2 : W5 m ρ c (Proc.devRef .tc main_arg2) = m ((c : Thread nD τ).loc main_arg2) := by
  refine Eq.trans ?_ (W4_arg2 m ρ c)
  after_results_simp
theorem W5_arg6 : W5 m ρ c (Proc.devRef .tc main_arg6) = m ((c : Thread nD τ).loc main_arg6) := by
  refine Eq.trans ?_ (W4_arg6 m ρ c)
  after_results_simp
theorem W5_arg7 : W5 m ρ c (Proc.devRef .tc main_arg7) = m ((c : Thread nD τ).loc main_arg7) := by
  refine Eq.trans ?_ (W4_arg7 m ρ c)
  after_results_simp
theorem W5_arg8 : W5 m ρ c (Proc.devRef .tc main_arg8) = m ((c : Thread nD τ).loc main_arg8) := by
  refine Eq.trans ?_ (W4_arg8 m ρ c)
  after_results_simp
theorem W5_arg9 : W5 m ρ c (Proc.devRef .tc main_arg9) = m ((c : Thread nD τ).loc main_arg9) := by
  refine Eq.trans ?_ (W4_arg9 m ρ c)
  after_results_simp
theorem W5_arg10 : W5 m ρ c (Proc.devRef .tc main_arg10) = m ((c : Thread nD τ).loc main_arg10) := by
  refine Eq.trans ?_ (W4_arg10 m ρ c)
  after_results_simp
theorem W5_arg11 : W5 m ρ c (Proc.devRef .tc main_arg11) = m ((c : Thread nD τ).loc main_arg11) := by
  refine Eq.trans ?_ (W4_arg11 m ρ c)
  after_results_simp

/-! ## The graph quantities, carried across the kernel (it writes none of them) -/

theorem W4_v1 : W4 m ρ c (Proc.devRef .tc main_v1) = Cert.ReferenceIdeal.RefRead.val_main_v1 (F := Ideal) (m ((c : Thread nD τ).loc main_arg1)) :=
  (W4_of_ne m ρ c main_v1 (by decide)).trans (W3_v1 m ρ c)
theorem W4_v3 : W4 m ρ c (Proc.devRef .tc main_v3) = Cert.ReferenceIdeal.RefRead.val_main_v3 (F := Ideal) (m ((c : Thread nD τ).loc main_arg1)) :=
  (W4_of_ne m ρ c main_v3 (by decide)).trans (W3_v3 m ρ c)
theorem W4_v46 : W4 m ρ c (Proc.devRef .tc main_v46) = Cert.ReferenceIdeal.RefRead.val_main_v46 (F := Ideal) (m ((c : Thread nD τ).loc main_arg1)) (m ((c : Thread nD τ).loc main_arg2)) (m ((c : Thread nD τ).loc main_arg3)) :=
  (W4_of_ne m ρ c main_v46 (by decide)).trans (W3_v46 m ρ c)
theorem W4_v48 : W4 m ρ c (Proc.devRef .tc main_v48) = Cert.ReferenceIdeal.RefRead.val_main_v48 (F := Ideal) (m ((c : Thread nD τ).loc main_arg2)) (m ((c : Thread nD τ).loc main_arg3)) :=
  (W4_of_ne m ρ c main_v48 (by decide)).trans (W3_v48 m ρ c)

/-! ## The layer's output: the kernel's array is the layer function of the arrays it was entered with, and so is the reference's -/

theorem W4_v106 : W4 m ρ c (Proc.devRef .tc main_v106) = Cert.ReferenceIdeal.RefRead.val_main_v124 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W4_arr m ρ c 6).trans ?_
  rw [Cert.KernelIdeal.RegionArray.region0_array (V3 m ρ) c, Cert.ReferenceIdeal.RefLayers.layer1_eq]
  show Cert.Cheb.layer 100000 64 32 (W3 m ρ c (Proc.devRef .tc main_arg0)) (W3 m ρ c (Proc.devRef .tc main_v65)) (W3 m ρ c (Proc.devRef .tc main_v85)) (W3 m ρ c (Proc.devRef .tc main_v105)) (W3 m ρ c (Proc.devRef .tc main_arg4)) (W3 m ρ c (Proc.devRef .tc main_arg5)) = _
  rw [W3_arg0 m ρ c, W3_v65 m ρ c, W3_v85 m ρ c, W3_v105 m ρ c, W3_arg4 m ρ c, W3_arg5 m ρ c]

/-! ## The next stretch of host operations, read at what the next segment needs -/

theorem W5_v106 : W5 m ρ c (Proc.devRef .tc main_v106) = Cert.ReferenceIdeal.RefRead.val_main_v124 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine Eq.trans ?_ (W4_v106 m ρ c)
  after_results_simp
theorem W5_v1 : W5 m ρ c (Proc.devRef .tc main_v1) = Cert.ReferenceIdeal.RefRead.val_main_v1 (F := Ideal) (m ((c : Thread nD τ).loc main_arg1)) := by
  refine Eq.trans ?_ (W4_v1 m ρ c)
  after_results_simp
theorem W5_v3 : W5 m ρ c (Proc.devRef .tc main_v3) = Cert.ReferenceIdeal.RefRead.val_main_v3 (F := Ideal) (m ((c : Thread nD τ).loc main_arg1)) := by
  refine Eq.trans ?_ (W4_v3 m ρ c)
  after_results_simp
theorem W5_v46 : W5 m ρ c (Proc.devRef .tc main_v46) = Cert.ReferenceIdeal.RefRead.val_main_v46 (F := Ideal) (m ((c : Thread nD τ).loc main_arg1)) (m ((c : Thread nD τ).loc main_arg2)) (m ((c : Thread nD τ).loc main_arg3)) := by
  refine Eq.trans ?_ (W4_v46 m ρ c)
  after_results_simp
theorem W5_v48 : W5 m ρ c (Proc.devRef .tc main_v48) = Cert.ReferenceIdeal.RefRead.val_main_v48 (F := Ideal) (m ((c : Thread nD τ).loc main_arg2)) (m ((c : Thread nD τ).loc main_arg3)) := by
  refine Eq.trans ?_ (W4_v48 m ρ c)
  after_results_simp
set_option maxHeartbeats 40000000 in
theorem W5_v123 : W5 m ρ c (Proc.devRef .tc main_v123) = Cert.ReferenceIdeal.RefRead.val_main_v144 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  after_results_simp
  rw [W4_v1 m ρ c, W4_v3 m ρ c, W4_v46 m ρ c, W4_v48 m ρ c, W4_v106 m ρ c]
  rfl
set_option maxHeartbeats 40000000 in
theorem W5_v143 : W5 m ρ c (Proc.devRef .tc main_v143) = Cert.ReferenceIdeal.RefRead.val_main_v168 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  after_results_simp
  rw [W4_v1 m ρ c, W4_v3 m ρ c, W4_v46 m ρ c, W4_v48 m ρ c, W4_v106 m ρ c]
  rfl
set_option maxHeartbeats 40000000 in
theorem W5_v163 : W5 m ρ c (Proc.devRef .tc main_v163) = Cert.ReferenceIdeal.RefRead.val_main_v192 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  after_results_simp
  rw [W4_v1 m ρ c, W4_v3 m ρ c, W4_v46 m ρ c, W4_v48 m ρ c, W4_v106 m ρ c]
  rfl

end Cert.KernelIdeal.Whole

end
-- ==== Proof.Region1Array.lean ====
import proofs.«153326_j64991445123400_1_alg».proof.Proof.Gen.KernelIdeal.Frame
import proofs.«153326_j64991445123400_1_alg».proof.Proof.ChebSpec
import Idealize.ShloMosaic.Lib.Pipeline.Value
import Idealize.ShloMosaic.Lib.ValueIdx
import Idealize.ShloMosaic.Lib.ValueLayout
import Idealize.ShloMosaic.PureOps.Ideal.Laws

/-!
  Region 1 of the kernel program (its second Chebyshev layer: 5000-row blocks of four 100000 × 32 feature arrays, times the
  four 32 × 64 weight matrices, plus the bias, through tanh): the array the region leaves in its output window is
  `Cert.Cheb.layer` of the arrays it was entered with.

  The steps: the body's arithmetic at one entry of a block (a matrix product is a sum over the contracted index; the
  four products are added from the left, the bias last); each window's block at a grid point as rows of its array
  (block t of a feature array is rows 5000·t … 5000·t + 4999; the weights and the bias are staged whole); hence what
  point t writes back is block t of the layer's output; the 20 blocks cover the 100000 rows.
-/

set_option maxRecDepth 16384

noncomputable section

namespace Cert.KernelIdeal.RegionArray

open Cert.KernelIdeal Cert.KernelIdeal.Gen Idealize.ShloMosaic Idealize.ShloMosaic.TcCoe Idealize.SL.Sem
open Idealize.ShloMosaic.ValueIdx
open Idealize.ShloMosaic.Pipeline (Dat Cfg Window)
open scoped BigOperators

/-! ## The body's arithmetic at an entry -/

/-- Left operand's index in the contraction, axis by axis: the row of the output entry, then the summation index. -/
theorem region1_lhs_0 (i : S5000x64.Idx) (q : dot_S5000x32_S32x64_S5000x64_1_0_0_1_n_n.contr.Idx) :
    (dot_S5000x32_S32x64_S5000x64_1_0_0_1_n_n.lhsIdx i q 0).val = (i 0).val := by
  unfold DotDims.lhsIdx
  rw [dif_neg (show ¬(0 : Fin S5000x32.rank) ∈ dot_S5000x32_S32x64_S5000x64_1_0_0_1_n_n.lhsBatch by decide), dif_pos (show (0 : Fin S5000x32.rank) ∈ dot_S5000x32_S32x64_S5000x64_1_0_0_1_n_n.lhsNonContracting by decide)]
  rfl
theorem region1_lhs_1 (i : S5000x64.Idx) (q : dot_S5000x32_S32x64_S5000x64_1_0_0_1_n_n.contr.Idx) :
    (dot_S5000x32_S32x64_S5000x64_1_0_0_1_n_n.lhsIdx i q 1).val = (q ⟨0, by decide⟩).val :=
  dot_S5000x32_S32x64_S5000x64_1_0_0_1_n_n.lhsIdx_val_of_single rfl i q
/-- Right operand's index: the summation index, then the column of the output entry. -/
theorem region1_rhs_0 (i : S5000x64.Idx) (q : dot_S5000x32_S32x64_S5000x64_1_0_0_1_n_n.contr.Idx) :
    (dot_S5000x32_S32x64_S5000x64_1_0_0_1_n_n.rhsIdx i q 0).val = (q ⟨0, by decide⟩).val :=
  dot_S5000x32_S32x64_S5000x64_1_0_0_1_n_n.rhsIdx_val_of_single rfl i q
theorem region1_rhs_1 (i : S5000x64.Idx) (q : dot_S5000x32_S32x64_S5000x64_1_0_0_1_n_n.contr.Idx) :
    (dot_S5000x32_S32x64_S5000x64_1_0_0_1_n_n.rhsIdx i q 1).val = (i 1).val := by
  unfold DotDims.rhsIdx
  rw [dif_neg (show ¬(1 : Fin S32x64.rank) ∈ dot_S5000x32_S32x64_S5000x64_1_0_0_1_n_n.rhsBatch by decide), dif_pos (show (1 : Fin S32x64.rank) ∈ dot_S5000x32_S32x64_S5000x64_1_0_0_1_n_n.rhsNonContracting by decide)]
  rfl

/-- A block of 5000 rows (32 columns) times a 32 × 64 matrix, accumulated from zero: entry (p, q) is Σₖ x[p,k] · w[k,q]. -/
theorem region1_matmul_apply (x : FVec Ideal S5000x32 .bf16) (w : FVec Ideal S32x64 .bf16) (p : Fin 5000) (q : Fin 64) :
    matmul dot_S5000x32_S32x64_S5000x64_1_0_0_1_n_n none x w (constant S5000x64 .f32 0x00000000#32) (ix2 p q)
      = ∑ k : Fin 32, x (ix2 p k) * w (ix2 k q) := by
  simp only [matmul]
  rw [Ideal.matmul_constant_zero_apply, ← Equiv.sum_comp (contrEquiv1 dot_S5000x32_S32x64_S5000x64_1_0_0_1_n_n 32 rfl rfl).symm]
  refine Finset.sum_congr rfl fun k _ => ?_
  have hk := contrEquiv1_symm_val dot_S5000x32_S32x64_S5000x64_1_0_0_1_n_n 32 rfl rfl k
  have el : dot_S5000x32_S32x64_S5000x64_1_0_0_1_n_n.lhsIdx (ix2 p q) ((contrEquiv1 dot_S5000x32_S32x64_S5000x64_1_0_0_1_n_n 32 rfl rfl).symm k) = ix2 p k :=
    funext fun a => Fin.ext (by
      match a with
      | ⟨0, _⟩ => exact region1_lhs_0 _ _
      | ⟨1, _⟩ => exact (region1_lhs_1 _ _).trans hk)
  have er : dot_S5000x32_S32x64_S5000x64_1_0_0_1_n_n.rhsIdx (ix2 p q) ((contrEquiv1 dot_S5000x32_S32x64_S5000x64_1_0_0_1_n_n 32 rfl rfl).symm k) = ix2 k q :=
    funext fun a => Fin.ext (by
      match a with
      | ⟨0, _⟩ => exact (region1_rhs_0 _ _).trans hk
      | ⟨1, _⟩ => exact region1_rhs_1 _ _)
  rw [el, er]

/-- The body's arithmetic at entry (p, q) of a block: the four products of the row blocks with the weight slices added
    from the left, the bias added last, then tanh. A change of float format is the identity on extended reals, a cast
    between equal shapes is the identity, a 1 × 32 × 64 slice cast to 32 × 64 keeps its entries, and the bias is
    repeated down the rows. -/
theorem region1_payload_apply (w0 w1 w2 w3 : Vec Ideal S1x32x64 .f32) (x0 x1 x2 x3 : Vec Ideal S5000x32 .f32) (b : Vec Ideal S64 .f32)
    (p : Fin 5000) (q : Fin 64) :
    k1_pay1 (k1_pay2 w0 w1 w2 w3 x0 x1 x2 x3) (k1_pay3 b) (ix2 p q)
      = Ideal.tanh (((((∑ k : Fin 32, x0 (ix2 p k) * w0 (ix3 (0 : Fin 1) k q)) + (∑ k : Fin 32, x1 (ix2 p k) * w1 (ix3 (0 : Fin 1) k q)))
          + (∑ k : Fin 32, x2 (ix2 p k) * w2 (ix3 (0 : Fin 1) k q))) + (∑ k : Fin 32, x3 (ix2 p k) * w3 (ix3 (0 : Fin 1) k q))) + b (ix1 q)) := by
  unfold k1_pay1 k1_pay2 k1_pay3
  dsimp only
  rw [show ∀ (v : FVec Ideal S5000x64 .f32) (i : S5000x64.Idx), tanh v i = Ideal.tanh (v i) from fun _ _ => rfl]
  rw [addf_apply, addf_apply, addf_apply, addf_apply]
  rw [region1_matmul_apply, region1_matmul_apply, region1_matmul_apply, region1_matmul_apply]
  simp only [truncf_apply, shapeCast_self, shapeCast_1ab_ab_apply, broadcastTo_1b_ab_apply, shapeCast_a_1a_apply]

/-! ## Each window's block at a grid point, as entries of its array -/

theorem region1_zero1 : (![0] : Fin 1 → Nat) = fun _ => 0 := funext fun a => by fin_cases a; rfl
theorem region1_zero2 : (![0, 0] : Fin 2 → Nat) = fun _ => 0 := funext fun a => by fin_cases a <;> rfl

/-- The index maps over the grid: the row-blocked windows (the four feature arrays and the output) sit at block t on
    the rows and block 0 on the columns; the weights and the bias are always at block 0. -/
theorem region1_index_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 3) = 0 ∧ win1_4.index t (1 : Fin 3) = 0 ∧ win1_4.index t (2 : Fin 3) = 0)
    ∧ win1_5.index t (0 : Fin 1) = 0
    ∧ (win1_6.index t (0 : Fin 2) = t.val ∧ win1_6.index t (1 : Fin 2) = 0) :=
  (by decide +kernel : ∀ t : Fin grid1.N, _)

/-- Block t of a row-blocked feature array is rows 5000·t … 5000·t + 4999 of the array (one statement per feature array). -/
theorem region1_rows0_apply (V : (c : Dev nD) → (b : Ref sig .tc) → Buf (Elt Ideal) ((c : Thread nD τ).loc b)) (c : Dev nD) (t : Fin cfg1.N)
    (p : Fin 5000) (k : Fin 32) (r : Fin 100000) (hr : r.val = 5000 * t.val + p.val) :
    (iblk1 V c 0 t : Vec Ideal S5000x32 .f32) (ix2 p k) = (V c main_v106 : S100000x32.Idx → EReal) (ix2 r k) := by
  have e0 := (region1_index_facts t).1.1
  have e1 := (region1_index_facts t).1.2
  unfold iblk1
  rw [View.read_apply]
  show V c main_v106 _ = V c main_v106 _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 32 + 1 * k.val = k.val; rw [e1]; omega

theorem region1_rows1_apply (V : (c : Dev nD) → (b : Ref sig .tc) → Buf (Elt Ideal) ((c : Thread nD τ).loc b)) (c : Dev nD) (t : Fin cfg1.N)
    (p : Fin 5000) (k : Fin 32) (r : Fin 100000) (hr : r.val = 5000 * t.val + p.val) :
    (iblk1 V c 1 t : Vec Ideal S5000x32 .f32) (ix2 p k) = (V c main_v123 : S100000x32.Idx → EReal) (ix2 r k) := by
  have e0 := (region1_index_facts t).2.1.1
  have e1 := (region1_index_facts t).2.1.2
  unfold iblk1
  rw [View.read_apply]
  show V c main_v123 _ = V c main_v123 _
  congr 1
  funext a
  apply Fin.ext
  match a with
  | ⟨0, _⟩ => show win1_1.index t (0 : Fin 2) * 5000 + 1 * p.val = r.val; rw [e0, hr]; omega
  | ⟨1, _⟩ => show win1_1.index t (1 : Fin 2) * 32 + 1 * k.val = k.val; rw [e1]; omega

theorem region1_rows2_apply (V : (c : Dev nD) → (b : Ref sig .tc) → Buf (Elt Ideal) ((c : Thread nD τ).loc b)) (c : Dev nD) (t : Fin cfg1.N)
    (p : Fin 5000) (k : Fin 32) (r : Fin 100000) (hr : r.val = 5000 * t.val + p.val) :
    (iblk1 V c 2 t : Vec Ideal S5000x32 .f32) (ix2 p k) = (V c main_v143 : S100000x32.Idx → EReal) (ix2 r k) := by
  have e0 := (region1_index_facts t).2.2.1.1
  have e1 := (region1_index_facts t).2.2.1.2
  unfold iblk1
  rw [View.read_apply]
  show V c main_v143 _ = V c main_v143 _
  congr 1
  funext a
  apply Fin.ext
  match a with
  | ⟨0, _⟩ => show win1_2.index t (0 : Fin 2) * 5000 + 1 * p.val = r.val; rw [e0, hr]; omega
  | ⟨1, _⟩ => show win1_2.index t (1 : Fin 2) * 32 + 1 * k.val = k.val; rw [e1]; omega

theorem region1_rows3_apply (V : (c : Dev nD) → (b : Ref sig .tc) → Buf (Elt Ideal) ((c : Thread nD τ).loc b)) (c : Dev nD) (t : Fin cfg1.N)
    (p : Fin 5000) (k : Fin 32) (r : Fin 100000) (hr : r.val = 5000 * t.val + p.val) :
    (iblk1 V c 3 t : Vec Ideal S5000x32 .f32) (ix2 p k) = (V c main_v163 : S100000x32.Idx → EReal) (ix2 r k) := by
  have e0 := (region1_index_facts t).2.2.2.1.1
  have e1 := (region1_index_facts t).2.2.2.1.2
  unfold iblk1
  rw [View.read_apply]
  show V c main_v163 _ = V c main_v163 _
  congr 1
  funext a
  apply Fin.ext
  match a with
  | ⟨0, _⟩ => show win1_3.index t (0 : Fin 2) * 5000 + 1 * p.val = r.val; rw [e0, hr]; omega
  | ⟨1, _⟩ => show win1_3.index t (1 : Fin 2) * 32 + 1 * k.val = k.val; rw [e1]; omega

/-- The weights' one block is the whole stacked array. -/
theorem region1_weights_apply (V : (c : Dev nD) → (b : Ref sig .tc) → Buf (Elt Ideal) ((c : Thread nD τ).loc b)) (c : Dev nD) (t : Fin cfg1.N) (j : Fin 4) (k : Fin 32) (q : Fin 64) :
    (iblk1 V c 4 t : Vec Ideal S4x32x64 .f32) (ix3 j k q) = (V c main_arg6 : S4x32x64.Idx → EReal) (ix3 j k q) := by
  obtain ⟨e0, e1, e2⟩ := (region1_index_facts t).2.2.2.2.1
  unfold iblk1
  rw [View.read_apply]
  show V c main_arg6 _ = V c main_arg6 _
  congr 1
  funext a
  apply Fin.ext
  match a with
  | ⟨0, _⟩ => show win1_4.index t (0 : Fin 3) * 4 + 1 * j.val = j.val; rw [e0]; omega
  | ⟨1, _⟩ => show win1_4.index t (1 : Fin 3) * 32 + 1 * k.val = k.val; rw [e1]; omega
  | ⟨2, _⟩ => show win1_4.index t (2 : Fin 3) * 64 + 1 * q.val = q.val; rw [e2]; omega

/-- The bias's one block is the whole vector. -/
theorem region1_bias_apply (V : (c : Dev nD) → (b : Ref sig .tc) → Buf (Elt Ideal) ((c : Thread nD τ).loc b)) (c : Dev nD) (t : Fin cfg1.N) (q : Fin 64) :
    (iblk1 V c 5 t : Vec Ideal S64 .f32) (ix1 q) = (V c main_arg7 : S64.Idx → EReal) (ix1 q) := by
  have e0 := (region1_index_facts t).2.2.2.2.2.1
  unfold iblk1
  rw [View.read_apply]
  show V c main_arg7 _ = V c main_arg7 _
  congr 1
  funext a
  apply Fin.ext
  match a with
  | ⟨0, _⟩ => show win1_5.index t (0 : Fin 1) * 64 + 1 * q.val = q.val; rw [e0]; omega

/-- The j-th 1 × 32 × 64 slice of the stacked weights, read at (0, k, q), is the stacked array at (j, k, q). -/
theorem region1_slice_apply (x : Vec Ideal S4x32x64 .f32) (k : Fin 32) (q : Fin 64) :
    View.ld x r1_0 (ix3 (0 : Fin 1) k q) = x (ix3 (0 : Fin 4) k q)
    ∧ View.ld x r1_1 (ix3 (0 : Fin 1) k q) = x (ix3 (1 : Fin 4) k q)
    ∧ View.ld x r1_2 (ix3 (0 : Fin 1) k q) = x (ix3 (2 : Fin 4) k q)
    ∧ View.ld x r1_3 (ix3 (0 : Fin 1) k q) = x (ix3 (3 : Fin 4) k q) := by
  refine ⟨?_, ?_, ?_, ?_⟩ <;>
  · refine congrArg x (funext fun a => Fin.ext ?_)
    match a with
    | ⟨0, _⟩ => rfl
    | ⟨1, _⟩ => show 0 + 1 * k.val = k.val; omega
    | ⟨2, _⟩ => show 0 + 1 * q.val = q.val; omega

/-- The j-th weight slice of the staged block, read at (0, k, q), is the stacked weights at (j, k, q). -/
theorem region1_wslice_apply (V : (c : Dev nD) → (b : Ref sig .tc) → Buf (Elt Ideal) ((c : Thread nD τ).loc b)) (c : Dev nD) (t : Fin cfg1.N) (k : Fin 32) (q : Fin 64) :
    View.ld (iblk1 V c 4 t : Vec Ideal S4x32x64 .f32) r1_0 (ix3 (0 : Fin 1) k q) = (V c main_arg6 : S4x32x64.Idx → EReal) (ix3 (0 : Fin 4) k q)
    ∧ View.ld (iblk1 V c 4 t : Vec Ideal S4x32x64 .f32) r1_1 (ix3 (0 : Fin 1) k q) = (V c main_arg6 : S4x32x64.Idx → EReal) (ix3 (1 : Fin 4) k q)
    ∧ View.ld (iblk1 V c 4 t : Vec Ideal S4x32x64 .f32) r1_2 (ix3 (0 : Fin 1) k q) = (V c main_arg6 : S4x32x64.Idx → EReal) (ix3 (2 : Fin 4) k q)
    ∧ View.ld (iblk1 V c 4 t : Vec Ideal S4x32x64 .f32) r1_3 (ix3 (0 : Fin 1) k q) = (V c main_arg6 : S4x32x64.Idx → EReal) (ix3 (3 : Fin 4) k q) :=
  ⟨(region1_slice_apply _ k q).1.trans (region1_weights_apply V c t 0 k q),
   (region1_slice_apply _ k q).2.1.trans (region1_weights_apply V c t 1 k q),
   (region1_slice_apply _ k q).2.2.1.trans (region1_weights_apply V c t 2 k q),
   (region1_slice_apply _ k q).2.2.2.trans (region1_weights_apply V c t 3 k q)⟩

/-! ## From blocks to the array -/

/-- What point t writes back is block t of the layer's output computed from the whole arrays: entry (p, q) of the
    block is entry (5000·t + p, q) of the output, which reads row 5000·t + p of each feature array, i.e. row p of its block t. -/
theorem region1_flushed (V : (c : Dev nD) → (b : Ref sig .tc) → Buf (Elt Ideal) ((c : Thread nD τ).loc b)) (c : Dev nD) (t : Fin cfg1.N) :
    (dat1 (F := Ideal) V c).flushed 6 t
      = ((cfg1.win 6).blk t).view.read (Elt Ideal) (Cert.Cheb.layer 100000 32 64 (V c main_v106) (V c main_v123) (V c main_v143) (V c main_v163) (V c main_arg6) (V c main_arg7)) := by
  show (cfg1.win 6).cut (grid1.coords t) ((dat1 V c).after 6 t) = _
  rw [after1_6]
  unfold out1_6
  rw [View.canon_unit_zero region1_zero2]
  simp only [View.ld_unit_zero (S := S5000x32) region1_zero2, View.ld_unit_zero (S := S64) region1_zero1]
  obtain ⟨e0, e1⟩ := (region1_index_facts t).2.2.2.2.2.2
  have ht : t.val < 20 := lt_of_lt_of_eq t.isLt N_1
  funext j
  obtain ⟨p, q, rfl⟩ : ∃ (p : Fin 5000) (q : Fin 64), j = ix2 p q := ⟨j 0, j 1, eq_ix2 j⟩
  have hp : p.val < 5000 := p.isLt
  have hrow : 5000 * t.val + p.val < 100000 := by omega
  have hemb : ((cfg1.win 6).blk t).view.emb (ix2 p q) = ix2 (⟨5000 * t.val + p.val, hrow⟩ : Fin 100000) q := by
    funext a
    apply Fin.ext
    match a with
    | ⟨0, _⟩ => show win1_6.index t (0 : Fin 2) * 5000 + 1 * p.val = 5000 * t.val + p.val; rw [e0]; omega
    | ⟨1, _⟩ => show win1_6.index t (1 : Fin 2) * 64 + 1 * q.val = q.val; rw [e1]; omega
  rw [View.read_apply]
  show k1_pay1 (F := Ideal) (k1_pay2 _ _ _ _ _ _ _ _) (k1_pay3 _) (ix2 p q)
    = Cert.Cheb.layer 100000 32 64 (V c main_v106) (V c main_v123) (V c main_v143) (V c main_v163) (V c main_arg6) (V c main_arg7) (((cfg1.win 6).blk t).view.emb (ix2 p q))
  rw [hemb, Cert.Cheb.layer_apply]
  refine (region1_payload_apply _ _ _ _ _ _ _ _ _ p q).trans ?_
  unfold Cert.Cheb.entry Cert.Cheb.rowDot
  simp only [(region1_wslice_apply V c t _ q).1, (region1_wslice_apply V c t _ q).2.1, (region1_wslice_apply V c t _ q).2.2.1, (region1_wslice_apply V c t _ q).2.2.2,
    region1_bias_apply V c t,
    region1_rows0_apply V c t p _ ⟨5000 * t.val + p.val, hrow⟩ rfl, region1_rows1_apply V c t p _ ⟨5000 * t.val + p.val, hrow⟩ rfl,
    region1_rows2_apply V c t p _ ⟨5000 * t.val + p.val, hrow⟩ rfl, region1_rows3_apply V c t p _ ⟨5000 * t.val + p.val, hrow⟩ rfl]

/-- Every entry of the output lies in some point's block: row r is in block r / 5000. -/
theorem region1_cover (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 20 := N_1
  have htlt : (i 0).val / 5000 < cfg1.N := by rw [hN]; omega
  obtain ⟨e0, e1⟩ := (region1_index_facts ⟨(i 0).val / 5000, htlt⟩).2.2.2.2.2.2
  refine ⟨⟨(i 0).val / 5000, htlt⟩, flush1_6 _, ?_⟩
  show i ∈ ((View.whole main_v164).slice (win1_6.rect ⟨(i 0).val / 5000, htlt⟩)).set
  rw [View.set_slice_whole, Rect.mem_set_unit]
  intro a
  match a with
  | ⟨0, _⟩ =>
    show win1_6.index ⟨(i 0).val / 5000, htlt⟩ (0 : Fin 2) * 5000 ≤ (i 0).val ∧ (i 0).val < win1_6.index ⟨(i 0).val / 5000, htlt⟩ (0 : Fin 2) * 5000 + 5000
    rw [e0]
    show (i 0).val / 5000 * 5000 ≤ (i 0).val ∧ (i 0).val < (i 0).val / 5000 * 5000 + 5000
    omega
  | ⟨1, _⟩ =>
    show win1_6.index ⟨(i 0).val / 5000, htlt⟩ (1 : Fin 2) * 64 ≤ (i 1).val ∧ (i 1).val < win1_6.index ⟨(i 0).val / 5000, htlt⟩ (1 : Fin 2) * 64 + 64
    rw [e1]
    omega

/-- The output window's array after the region: the layer's output as one function of the arrays the region was entered with. -/
theorem region1_array (V : (c : Dev nD) → (b : Ref sig .tc) → Buf (Elt Ideal) ((c : Thread nD τ).loc b)) (c : Dev nD) :
    (dat1 (F := Ideal) V c).arrAt 6 cfg1.N
      = Cert.Cheb.layer 100000 32 64 (V c main_v106) (V c main_v123) (V c main_v143) (V c main_v163) (V c main_arg6) (V c main_arg7) :=
  (dat1 (F := Ideal) V c).arrAt_eq_of_cover 6 _ (fun t _ => region1_flushed V c t) (fun i => region1_cover i)

end Cert.KernelIdeal.RegionArray

end
-- ==== Proof.KernelLayer2.lean ====
/-
  The second layer of the idealized kernel program and the stretch of host operations after it: as for the
  first layer, one boundary later. The second kernel is entered with the first hidden array and its three
  diffused arrays, the second layer's weights and bias; what it leaves is the layer function of them, which
  is the reference's second hidden array; the host operations that follow diffuse it three times.
-/
import proofs.«153326_j64991445123400_1_alg».proof.Proof.KernelLayer1
import proofs.«153326_j64991445123400_1_alg».proof.Proof.Region1Array
import proofs.«153326_j64991445123400_1_alg».proof.Proof.RefLayers

set_option maxRecDepth 16384

noncomputable section

namespace Cert.KernelIdeal.Whole

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The arguments at the boundaries of this layer (no host operation and no kernel of this layer writes them) -/

theorem W6_arg2 : W6 m ρ c (Proc.devRef .tc main_arg2) = m ((c : Thread nD τ).loc main_arg2) :=
  (W6_of_ne m ρ c main_arg2 (by decide)).trans (W5_arg2 m ρ c)
theorem W6_arg8 : W6 m ρ c (Proc.devRef .tc main_arg8) = m ((c : Thread nD τ).loc main_arg8) :=
  (W6_of_ne m ρ c main_arg8 (by decide)).trans (W5_arg8 m ρ c)
theorem W6_arg9 : W6 m ρ c (Proc.devRef .tc main_arg9) = m ((c : Thread nD τ).loc main_arg9) :=
  (W6_of_ne m ρ c main_arg9 (by decide)).trans (W5_arg9 m ρ c)
theorem W6_arg10 : W6 m ρ c (Proc.devRef .tc main_arg10) = m ((c : Thread nD τ).loc main_arg10) :=
  (W6_of_ne m ρ c main_arg10 (by decide)).trans (W5_arg10 m ρ c)
theorem W6_arg11 : W6 m ρ c (Proc.devRef .tc main_arg11) = m ((c : Thread nD τ).loc main_arg11) :=
  (W6_of_ne m ρ c main_arg11 (by decide)).trans (W5_arg11 m ρ c)
theorem W7_arg2 : W7 m ρ c (Proc.devRef .tc main_arg2) = m ((c : Thread nD τ).loc main_arg2) := by
  refine Eq.trans ?_ (W6_arg2 m ρ c)
  after_results_simp
theorem W7_arg8 : W7 m ρ c (Proc.devRef .tc main_arg8) = m ((c : Thread nD τ).loc main_arg8) := by
  refine Eq.trans ?_ (W6_arg8 m ρ c)
  after_results_simp
theorem W7_arg9 : W7 m ρ c (Proc.devRef .tc main_arg9) = m ((c : Thread nD τ).loc main_arg9) := by
  refine Eq.trans ?_ (W6_arg9 m ρ c)
  after_results_simp
theorem W7_arg10 : W7 m ρ c (Proc.devRef .tc main_arg10) = m ((c : Thread nD τ).loc main_arg10) := by
  refine Eq.trans ?_ (W6_arg10 m ρ c)
  after_results_simp
theorem W7_arg11 : W7 m ρ c (Proc.devRef .tc main_arg11) = m ((c : Thread nD τ).loc main_arg11) := by
  refine Eq.trans ?_ (W6_arg11 m ρ c)
  after_results_simp

/-! ## The graph quantities, carried across the kernel (it writes none of them) -/

theorem W6_v1 : W6 m ρ c (Proc.devRef .tc main_v1) = Cert.ReferenceIdeal.RefRead.val_main_v1 (F := Ideal) (m ((c : Thread nD τ).loc main_arg1)) :=
  (W6_of_ne m ρ c main_v1 (by decide)).trans (W5_v1 m ρ c)
theorem W6_v3 : W6 m ρ c (Proc.devRef .tc main_v3) = Cert.ReferenceIdeal.RefRead.val_main_v3 (F := Ideal) (m ((c : Thread nD τ).loc main_arg1)) :=
  (W6_of_ne m ρ c main_v3 (by decide)).trans (W5_v3 m ρ c)
theorem W6_v46 : W6 m ρ c (Proc.devRef .tc main_v46) = Cert.ReferenceIdeal.RefRead.val_main_v46 (F := Ideal) (m ((c : Thread nD τ).loc main_arg1)) (m ((c : Thread nD τ).loc main_arg2)) (m ((c : Thread nD τ).loc main_arg3)) :=
  (W6_of_ne m ρ c main_v46 (by decide)).trans (W5_v46 m ρ c)
theorem W6_v48 : W6 m ρ c (Proc.devRef .tc main_v48) = Cert.ReferenceIdeal.RefRead.val_main_v48 (F := Ideal) (m ((c : Thread nD τ).loc main_arg2)) (m ((c : Thread nD τ).loc main_arg3)) :=
  (W6_of_ne m ρ c main_v48 (by decide)).trans (W5_v48 m ρ c)

/-! ## The layer's output: the kernel's array is the layer function of the arrays it was entered with, and so is the reference's -/

theorem W6_v164 : W6 m ρ c (Proc.devRef .tc main_v164) = Cert.ReferenceIdeal.RefRead.val_main_v200 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W6_arr m ρ c 6).trans ?_
  rw [Cert.KernelIdeal.RegionArray.region1_array (V5 m ρ) c, Cert.ReferenceIdeal.RefLayers.layer2_eq]
  show Cert.Cheb.layer 100000 32 64 (W5 m ρ c (Proc.devRef .tc main_v106)) (W5 m ρ c (Proc.devRef .tc main_v123)) (W5 m ρ c (Proc.devRef .tc main_v143)) (W5 m ρ c (Proc.devRef .tc main_v163)) (W5 m ρ c (Proc.devRef .tc main_arg6)) (W5 m ρ c (Proc.devRef .tc main_arg7)) = _
  rw [W5_v106 m ρ c, W5_v123 m ρ c, W5_v143 m ρ c, W5_v163 m ρ c, W5_arg6 m ρ c, W5_arg7 m ρ c]

/-! ## The next stretch of host operations, read at what the next segment needs -/

theorem W7_v164 : W7 m ρ c (Proc.devRef .tc main_v164) = Cert.ReferenceIdeal.RefRead.val_main_v200 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine Eq.trans ?_ (W6_v164 m ρ c)
  after_results_simp
theorem W7_v1 : W7 m ρ c (Proc.devRef .tc main_v1) = Cert.ReferenceIdeal.RefRead.val_main_v1 (F := Ideal) (m ((c : Thread nD τ).loc main_arg1)) := by
  refine Eq.trans ?_ (W6_v1 m ρ c)
  after_results_simp
theorem W7_v3 : W7 m ρ c (Proc.devRef .tc main_v3) = Cert.ReferenceIdeal.RefRead.val_main_v3 (F := Ideal) (m ((c : Thread nD τ).loc main_arg1)) := by
  refine Eq.trans ?_ (W6_v3 m ρ c)
  after_results_simp
theorem W7_v46 : W7 m ρ c (Proc.devRef .tc main_v46) = Cert.ReferenceIdeal.RefRead.val_main_v46 (F := Ideal) (m ((c : Thread nD τ).loc main_arg1)) (m ((c : Thread nD τ).loc main_arg2)) (m ((c : Thread nD τ).loc main_arg3)) := by
  refine Eq.trans ?_ (W6_v46 m ρ c)
  after_results_simp
theorem W7_v48 : W7 m ρ c (Proc.devRef .tc main_v48) = Cert.ReferenceIdeal.RefRead.val_main_v48 (F := Ideal) (m ((c : Thread nD τ).loc main_arg2)) (m ((c : Thread nD τ).loc main_arg3)) := by
  refine Eq.trans ?_ (W6_v48 m ρ c)
  after_results_simp
set_option maxHeartbeats 40000000 in
theorem W7_v181 : W7 m ρ c (Proc.devRef .tc main_v181) = Cert.ReferenceIdeal.RefRead.val_main_v220 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  after_results_simp
  rw [W6_v1 m ρ c, W6_v3 m ρ c, W6_v46 m ρ c, W6_v48 m ρ c, W6_v164 m ρ c]
  rfl
set_option maxHeartbeats 40000000 in
theorem W7_v201 : W7 m ρ c (Proc.devRef .tc main_v201) = Cert.ReferenceIdeal.RefRead.val_main_v244 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  after_results_simp
  rw [W6_v1 m ρ c, W6_v3 m ρ c, W6_v46 m ρ c, W6_v48 m ρ c, W6_v164 m ρ c]
  rfl
set_option maxHeartbeats 40000000 in
theorem W7_v221 : W7 m ρ c (Proc.devRef .tc main_v221) = Cert.ReferenceIdeal.RefRead.val_main_v268 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  after_results_simp
  rw [W6_v1 m ρ c, W6_v3 m ρ c, W6_v46 m ρ c, W6_v48 m ρ c, W6_v164 m ρ c]
  rfl

end Cert.KernelIdeal.Whole

end
-- ==== Proof.Region2Array.lean ====
import proofs.«153326_j64991445123400_1_alg».proof.Proof.Gen.KernelIdeal.Frame
import proofs.«153326_j64991445123400_1_alg».proof.Proof.ChebSpec
import Idealize.ShloMosaic.Lib.Pipeline.Value
import Idealize.ShloMosaic.Lib.ValueIdx
import Idealize.ShloMosaic.Lib.ValueLayout
import Idealize.ShloMosaic.PureOps.Ideal.Laws

/-!
  Region 2 of the kernel program (its third Chebyshev layer: 5000-row blocks of four 100000 × 64 feature arrays, times the
  four 64 × 64 weight matrices, plus the bias, through tanh): the array the region leaves in its output window is
  `Cert.Cheb.layer` of the arrays it was entered with.

  The steps: the body's arithmetic at one entry of a block (a matrix product is a sum over the contracted index; the
  four products are added from the left, the bias last); each window's block at a grid point as rows of its array
  (block t of a feature array is rows 5000·t … 5000·t + 4999; the weights and the bias are staged whole); hence what
  point t writes back is block t of the layer's output; the 20 blocks cover the 100000 rows.
-/

set_option maxRecDepth 16384

noncomputable section

namespace Cert.KernelIdeal.RegionArray

open Cert.KernelIdeal Cert.KernelIdeal.Gen Idealize.ShloMosaic Idealize.ShloMosaic.TcCoe Idealize.SL.Sem
open Idealize.ShloMosaic.ValueIdx
open Idealize.ShloMosaic.Pipeline (Dat Cfg Window)
open scoped BigOperators

/-! ## The body's arithmetic at an entry -/

/-- Left operand's index in the contraction, axis by axis: the row of the output entry, then the summation index. -/
theorem region2_lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem region2_lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- Right operand's index: the summation index, then the column of the output entry. -/
theorem region2_rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem region2_rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A block of 5000 rows (64 columns) times a 64 × 64 matrix, accumulated from zero: entry (p, q) is Σₖ x[p,k] · w[k,q]. -/
theorem region2_matmul_apply (x : FVec Ideal S5000x64 .bf16) (w : FVec Ideal S64x64 .bf16) (p : Fin 5000) (q : Fin 64) :
    matmul dot_S5000x64_S64x64_S5000x64_1_0_0_1_n_n none x w (constant S5000x64 .f32 0x00000000#32) (ix2 p q)
      = ∑ k : Fin 64, x (ix2 p k) * w (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k :=
    funext fun a => Fin.ext (by
      match a with
      | ⟨0, _⟩ => exact region2_lhs_0 _ _
      | ⟨1, _⟩ => exact (region2_lhs_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q :=
    funext fun a => Fin.ext (by
      match a with
      | ⟨0, _⟩ => exact (region2_rhs_0 _ _).trans hk
      | ⟨1, _⟩ => exact region2_rhs_1 _ _)
  rw [el, er]

/-- The body's arithmetic at entry (p, q) of a block: the four products of the row blocks with the weight slices added
    from the left, the bias added last, then tanh. A change of float format is the identity on extended reals, a cast
    between equal shapes is the identity, a 1 × 64 × 64 slice cast to 64 × 64 keeps its entries, and the bias is
    repeated down the rows. -/
theorem region2_payload_apply (w0 w1 w2 w3 : Vec Ideal S1x64x64 .f32) (x0 x1 x2 x3 : Vec Ideal S5000x64 .f32) (b : Vec Ideal S64 .f32)
    (p : Fin 5000) (q : Fin 64) :
    k2_pay1 (k2_pay2 w0 w1 w2 w3 x0 x1 x2 x3) (k2_pay3 b) (ix2 p q)
      = Ideal.tanh (((((∑ k : Fin 64, x0 (ix2 p k) * w0 (ix3 (0 : Fin 1) k q)) + (∑ k : Fin 64, x1 (ix2 p k) * w1 (ix3 (0 : Fin 1) k q)))
          + (∑ k : Fin 64, x2 (ix2 p k) * w2 (ix3 (0 : Fin 1) k q))) + (∑ k : Fin 64, x3 (ix2 p k) * w3 (ix3 (0 : Fin 1) k q))) + b (ix1 q)) := by
  unfold k2_pay1 k2_pay2 k2_pay3
  dsimp only
  rw [show ∀ (v : FVec Ideal S5000x64 .f32) (i : S5000x64.Idx), tanh v i = Ideal.tanh (v i) from fun _ _ => rfl]
  rw [addf_apply, addf_apply, addf_apply, addf_apply]
  rw [region2_matmul_apply, region2_matmul_apply, region2_matmul_apply, region2_matmul_apply]
  simp only [truncf_apply, shapeCast_self, shapeCast_1ab_ab_apply, broadcastTo_1b_ab_apply, shapeCast_a_1a_apply]

/-! ## Each window's block at a grid point, as entries of its array -/

theorem region2_zero1 : (![0] : Fin 1 → Nat) = fun _ => 0 := funext fun a => by fin_cases a; rfl
theorem region2_zero2 : (![0, 0] : Fin 2 → Nat) = fun _ => 0 := funext fun a => by fin_cases a <;> rfl

/-- The index maps over the grid: the row-blocked windows (the four feature arrays and the output) sit at block t on
    the rows and block 0 on the columns; the weights and the bias are always at block 0. -/
theorem region2_index_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0)
    ∧ (win2_4.index t (0 : Fin 3) = 0 ∧ win2_4.index t (1 : Fin 3) = 0 ∧ win2_4.index t (2 : Fin 3) = 0)
    ∧ win2_5.index t (0 : Fin 1) = 0
    ∧ (win2_6.index t (0 : Fin 2) = t.val ∧ win2_6.index t (1 : Fin 2) = 0) :=
  (by decide +kernel : ∀ t : Fin grid2.N, _)

/-- Block t of a row-blocked feature array is rows 5000·t … 5000·t + 4999 of the array (one statement per feature array). -/
theorem region2_rows0_apply (V : (c : Dev nD) → (b : Ref sig .tc) → Buf (Elt Ideal) ((c : Thread nD τ).loc b)) (c : Dev nD) (t : Fin cfg2.N)
    (p : Fin 5000) (k : Fin 64) (r : Fin 100000) (hr : r.val = 5000 * t.val + p.val) :
    (iblk2 V c 0 t : Vec Ideal S5000x64 .f32) (ix2 p k) = (V c main_v164 : S100000x64.Idx → EReal) (ix2 r k) := by
  have e0 := (region2_index_facts t).1.1
  have e1 := (region2_index_facts t).1.2
  unfold iblk2
  rw [View.read_apply]
  show V c main_v164 _ = V c main_v164 _
  congr 1
  funext a
  apply Fin.ext
  match a with
  | ⟨0, _⟩ => show win2_0.index t (0 : Fin 2) * 5000 + 1 * p.val = r.val; rw [e0, hr]; omega
  | ⟨1, _⟩ => show win2_0.index t (1 : Fin 2) * 64 + 1 * k.val = k.val; rw [e1]; omega

theorem region2_rows1_apply (V : (c : Dev nD) → (b : Ref sig .tc) → Buf (Elt Ideal) ((c : Thread nD τ).loc b)) (c : Dev nD) (t : Fin cfg2.N)
    (p : Fin 5000) (k : Fin 64) (r : Fin 100000) (hr : r.val = 5000 * t.val + p.val) :
    (iblk2 V c 1 t : Vec Ideal S5000x64 .f32) (ix2 p k) = (V c main_v181 : S100000x64.Idx → EReal) (ix2 r k) := by
  have e0 := (region2_index_facts t).2.1.1
  have e1 := (region2_index_facts t).2.1.2
  unfold iblk2
  rw [View.read_apply]
  show V c main_v181 _ = V c main_v181 _
  congr 1
  funext a
  apply Fin.ext
  match a with
  | ⟨0, _⟩ => show win2_1.index t (0 : Fin 2) * 5000 + 1 * p.val = r.val; rw [e0, hr]; omega
  | ⟨1, _⟩ => show win2_1.index t (1 : Fin 2) * 64 + 1 * k.val = k.val; rw [e1]; omega

theorem region2_rows2_apply (V : (c : Dev nD) → (b : Ref sig .tc) → Buf (Elt Ideal) ((c : Thread nD τ).loc b)) (c : Dev nD) (t : Fin cfg2.N)
    (p : Fin 5000) (k : Fin 64) (r : Fin 100000) (hr : r.val = 5000 * t.val + p.val) :
    (iblk2 V c 2 t : Vec Ideal S5000x64 .f32) (ix2 p k) = (V c main_v201 : S100000x64.Idx → EReal) (ix2 r k) := by
  have e0 := (region2_index_facts t).2.2.1.1
  have e1 := (region2_index_facts t).2.2.1.2
  unfold iblk2
  rw [View.read_apply]
  show V c main_v201 _ = V c main_v201 _
  congr 1
  funext a
  apply Fin.ext
  match a with
  | ⟨0, _⟩ => show win2_2.index t (0 : Fin 2) * 5000 + 1 * p.val = r.val; rw [e0, hr]; omega
  | ⟨1, _⟩ => show win2_2.index t (1 : Fin 2) * 64 + 1 * k.val = k.val; rw [e1]; omega

theorem region2_rows3_apply (V : (c : Dev nD) → (b : Ref sig .tc) → Buf (Elt Ideal) ((c : Thread nD τ).loc b)) (c : Dev nD) (t : Fin cfg2.N)
    (p : Fin 5000) (k : Fin 64) (r : Fin 100000) (hr : r.val = 5000 * t.val + p.val) :
    (iblk2 V c 3 t : Vec Ideal S5000x64 .f32) (ix2 p k) = (V c main_v221 : S100000x64.Idx → EReal) (ix2 r k) := by
  have e0 := (region2_index_facts t).2.2.2.1.1
  have e1 := (region2_index_facts t).2.2.2.1.2
  unfold iblk2
  rw [View.read_apply]
  show V c main_v221 _ = V c main_v221 _
  congr 1
  funext a
  apply Fin.ext
  match a with
  | ⟨0, _⟩ => show win2_3.index t (0 : Fin 2) * 5000 + 1 * p.val = r.val; rw [e0, hr]; omega
  | ⟨1, _⟩ => show win2_3.index t (1 : Fin 2) * 64 + 1 * k.val = k.val; rw [e1]; omega

/-- The weights' one block is the whole stacked array. -/
theorem region2_weights_apply (V : (c : Dev nD) → (b : Ref sig .tc) → Buf (Elt Ideal) ((c : Thread nD τ).loc b)) (c : Dev nD) (t : Fin cfg2.N) (j : Fin 4) (k : Fin 64) (q : Fin 64) :
    (iblk2 V c 4 t : Vec Ideal S4x64x64 .f32) (ix3 j k q) = (V c main_arg8 : S4x64x64.Idx → EReal) (ix3 j k q) := by
  obtain ⟨e0, e1, e2⟩ := (region2_index_facts t).2.2.2.2.1
  unfold iblk2
  rw [View.read_apply]
  show V c main_arg8 _ = V c main_arg8 _
  congr 1
  funext a
  apply Fin.ext
  match a with
  | ⟨0, _⟩ => show win2_4.index t (0 : Fin 3) * 4 + 1 * j.val = j.val; rw [e0]; omega
  | ⟨1, _⟩ => show win2_4.index t (1 : Fin 3) * 64 + 1 * k.val = k.val; rw [e1]; omega
  | ⟨2, _⟩ => show win2_4.index t (2 : Fin 3) * 64 + 1 * q.val = q.val; rw [e2]; omega

/-- The bias's one block is the whole vector. -/
theorem region2_bias_apply (V : (c : Dev nD) → (b : Ref sig .tc) → Buf (Elt Ideal) ((c : Thread nD τ).loc b)) (c : Dev nD) (t : Fin cfg2.N) (q : Fin 64) :
    (iblk2 V c 5 t : Vec Ideal S64 .f32) (ix1 q) = (V c main_arg9 : S64.Idx → EReal) (ix1 q) := by
  have e0 := (region2_index_facts t).2.2.2.2.2.1
  unfold iblk2
  rw [View.read_apply]
  show V c main_arg9 _ = V c main_arg9 _
  congr 1
  funext a
  apply Fin.ext
  match a with
  | ⟨0, _⟩ => show win2_5.index t (0 : Fin 1) * 64 + 1 * q.val = q.val; rw [e0]; omega

/-- The j-th 1 × 64 × 64 slice of the stacked weights, read at (0, k, q), is the stacked array at (j, k, q). -/
theorem region2_slice_apply (x : Vec Ideal S4x64x64 .f32) (k : Fin 64) (q : Fin 64) :
    View.ld x r2_0 (ix3 (0 : Fin 1) k q) = x (ix3 (0 : Fin 4) k q)
    ∧ View.ld x r2_1 (ix3 (0 : Fin 1) k q) = x (ix3 (1 : Fin 4) k q)
    ∧ View.ld x r2_2 (ix3 (0 : Fin 1) k q) = x (ix3 (2 : Fin 4) k q)
    ∧ View.ld x r2_3 (ix3 (0 : Fin 1) k q) = x (ix3 (3 : Fin 4) k q) := by
  refine ⟨?_, ?_, ?_, ?_⟩ <;>
  · refine congrArg x (funext fun a => Fin.ext ?_)
    match a with
    | ⟨0, _⟩ => rfl
    | ⟨1, _⟩ => show 0 + 1 * k.val = k.val; omega
    | ⟨2, _⟩ => show 0 + 1 * q.val = q.val; omega

/-- The j-th weight slice of the staged block, read at (0, k, q), is the stacked weights at (j, k, q). -/
theorem region2_wslice_apply (V : (c : Dev nD) → (b : Ref sig .tc) → Buf (Elt Ideal) ((c : Thread nD τ).loc b)) (c : Dev nD) (t : Fin cfg2.N) (k : Fin 64) (q : Fin 64) :
    View.ld (iblk2 V c 4 t : Vec Ideal S4x64x64 .f32) r2_0 (ix3 (0 : Fin 1) k q) = (V c main_arg8 : S4x64x64.Idx → EReal) (ix3 (0 : Fin 4) k q)
    ∧ View.ld (iblk2 V c 4 t : Vec Ideal S4x64x64 .f32) r2_1 (ix3 (0 : Fin 1) k q) = (V c main_arg8 : S4x64x64.Idx → EReal) (ix3 (1 : Fin 4) k q)
    ∧ View.ld (iblk2 V c 4 t : Vec Ideal S4x64x64 .f32) r2_2 (ix3 (0 : Fin 1) k q) = (V c main_arg8 : S4x64x64.Idx → EReal) (ix3 (2 : Fin 4) k q)
    ∧ View.ld (iblk2 V c 4 t : Vec Ideal S4x64x64 .f32) r2_3 (ix3 (0 : Fin 1) k q) = (V c main_arg8 : S4x64x64.Idx → EReal) (ix3 (3 : Fin 4) k q) :=
  ⟨(region2_slice_apply _ k q).1.trans (region2_weights_apply V c t 0 k q),
   (region2_slice_apply _ k q).2.1.trans (region2_weights_apply V c t 1 k q),
   (region2_slice_apply _ k q).2.2.1.trans (region2_weights_apply V c t 2 k q),
   (region2_slice_apply _ k q).2.2.2.trans (region2_weights_apply V c t 3 k q)⟩

/-! ## From blocks to the array -/

/-- What point t writes back is block t of the layer's output computed from the whole arrays: entry (p, q) of the
    block is entry (5000·t + p, q) of the output, which reads row 5000·t + p of each feature array, i.e. row p of its block t. -/
theorem region2_flushed (V : (c : Dev nD) → (b : Ref sig .tc) → Buf (Elt Ideal) ((c : Thread nD τ).loc b)) (c : Dev nD) (t : Fin cfg2.N) :
    (dat2 (F := Ideal) V c).flushed 6 t
      = ((cfg2.win 6).blk t).view.read (Elt Ideal) (Cert.Cheb.layer 100000 64 64 (V c main_v164) (V c main_v181) (V c main_v201) (V c main_v221) (V c main_arg8) (V c main_arg9)) := by
  show (cfg2.win 6).cut (grid2.coords t) ((dat2 V c).after 6 t) = _
  rw [after2_6]
  unfold out2_6
  rw [View.canon_unit_zero region2_zero2]
  simp only [View.ld_unit_zero (S := S5000x64) region2_zero2, View.ld_unit_zero (S := S64) region2_zero1]
  obtain ⟨e0, e1⟩ := (region2_index_facts t).2.2.2.2.2.2
  have ht : t.val < 20 := lt_of_lt_of_eq t.isLt N_2
  funext j
  obtain ⟨p, q, rfl⟩ : ∃ (p : Fin 5000) (q : Fin 64), j = ix2 p q := ⟨j 0, j 1, eq_ix2 j⟩
  have hp : p.val < 5000 := p.isLt
  have hrow : 5000 * t.val + p.val < 100000 := by omega
  have hemb : ((cfg2.win 6).blk t).view.emb (ix2 p q) = ix2 (⟨5000 * t.val + p.val, hrow⟩ : Fin 100000) q := by
    funext a
    apply Fin.ext
    match a with
    | ⟨0, _⟩ => show win2_6.index t (0 : Fin 2) * 5000 + 1 * p.val = 5000 * t.val + p.val; rw [e0]; omega
    | ⟨1, _⟩ => show win2_6.index t (1 : Fin 2) * 64 + 1 * q.val = q.val; rw [e1]; omega
  rw [View.read_apply]
  show k2_pay1 (F := Ideal) (k2_pay2 _ _ _ _ _ _ _ _) (k2_pay3 _) (ix2 p q)
    = Cert.Cheb.layer 100000 64 64 (V c main_v164) (V c main_v181) (V c main_v201) (V c main_v221) (V c main_arg8) (V c main_arg9) (((cfg2.win 6).blk t).view.emb (ix2 p q))
  rw [hemb, Cert.Cheb.layer_apply]
  refine (region2_payload_apply _ _ _ _ _ _ _ _ _ p q).trans ?_
  unfold Cert.Cheb.entry Cert.Cheb.rowDot
  simp only [(region2_wslice_apply V c t _ q).1, (region2_wslice_apply V c t _ q).2.1, (region2_wslice_apply V c t _ q).2.2.1, (region2_wslice_apply V c t _ q).2.2.2,
    region2_bias_apply V c t,
    region2_rows0_apply V c t p _ ⟨5000 * t.val + p.val, hrow⟩ rfl, region2_rows1_apply V c t p _ ⟨5000 * t.val + p.val, hrow⟩ rfl,
    region2_rows2_apply V c t p _ ⟨5000 * t.val + p.val, hrow⟩ rfl, region2_rows3_apply V c t p _ ⟨5000 * t.val + p.val, hrow⟩ rfl]

/-- Every entry of the output lies in some point's block: row r is in block r / 5000. -/
theorem region2_cover (i : S100000x64.Idx) :
    ∃ t : Fin cfg2.N, (cfg2.win 6).flush t = true ∧ i ∈ ((cfg2.win 6).blk t).view.set := by
  have hi0 : (i 0).val < 100000 := (i 0).isLt
  have hi1 : (i 1).val < 64 := (i 1).isLt
  have hN : cfg2.N = 20 := N_2
  have htlt : (i 0).val / 5000 < cfg2.N := by rw [hN]; omega
  obtain ⟨e0, e1⟩ := (region2_index_facts ⟨(i 0).val / 5000, htlt⟩).2.2.2.2.2.2
  refine ⟨⟨(i 0).val / 5000, htlt⟩, flush2_6 _, ?_⟩
  show i ∈ ((View.whole main_v222).slice (win2_6.rect ⟨(i 0).val / 5000, htlt⟩)).set
  rw [View.set_slice_whole, Rect.mem_set_unit]
  intro a
  match a with
  | ⟨0, _⟩ =>
    show win2_6.index ⟨(i 0).val / 5000, htlt⟩ (0 : Fin 2) * 5000 ≤ (i 0).val ∧ (i 0).val < win2_6.index ⟨(i 0).val / 5000, htlt⟩ (0 : Fin 2) * 5000 + 5000
    rw [e0]
    show (i 0).val / 5000 * 5000 ≤ (i 0).val ∧ (i 0).val < (i 0).val / 5000 * 5000 + 5000
    omega
  | ⟨1, _⟩ =>
    show win2_6.index ⟨(i 0).val / 5000, htlt⟩ (1 : Fin 2) * 64 ≤ (i 1).val ∧ (i 1).val < win2_6.index ⟨(i 0).val / 5000, htlt⟩ (1 : Fin 2) * 64 + 64
    rw [e1]
    omega

/-- The output window's array after the region: the layer's output as one function of the arrays the region was entered with. -/
theorem region2_array (V : (c : Dev nD) → (b : Ref sig .tc) → Buf (Elt Ideal) ((c : Thread nD τ).loc b)) (c : Dev nD) :
    (dat2 (F := Ideal) V c).arrAt 6 cfg2.N
      = Cert.Cheb.layer 100000 64 64 (V c main_v164) (V c main_v181) (V c main_v201) (V c main_v221) (V c main_arg8) (V c main_arg9) :=
  (dat2 (F := Ideal) V c).arrAt_eq_of_cover 6 _ (fun t _ => region2_flushed V c t) (fun i => region2_cover i)

end Cert.KernelIdeal.RegionArray

end
-- ==== Proof.KernelLayer3.lean ====
/-
  The third layer of the idealized kernel program and the closing host operations.

  The third kernel leaves the layer function of the second hidden array, its three diffused arrays and the third
  layer's weights and bias: the reference's third hidden array. The closing operations pool it per graph (a
  scatter-add along the batch assignment), apply the dense layer and tanh — the same operations in both programs —,
  so the result buffer holds the reference's result of the launch arguments.
-/
import proofs.«153326_j64991445123400_1_alg».proof.Proof.KernelLayer2
import proofs.«153326_j64991445123400_1_alg».proof.Proof.Region2Array
import proofs.«153326_j64991445123400_1_alg».proof.Proof.RefLayers

set_option maxRecDepth 16384

noncomputable section

namespace Cert.KernelIdeal.Whole

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The arguments at the boundaries of this layer (no host operation and no kernel of this layer writes them) -/

theorem W8_arg2 : W8 m ρ c (Proc.devRef .tc main_arg2) = m ((c : Thread nD τ).loc main_arg2) :=
  (W8_of_ne m ρ c main_arg2 (by decide)).trans (W7_arg2 m ρ c)
theorem W8_arg10 : W8 m ρ c (Proc.devRef .tc main_arg10) = m ((c : Thread nD τ).loc main_arg10) :=
  (W8_of_ne m ρ c main_arg10 (by decide)).trans (W7_arg10 m ρ c)
theorem W8_arg11 : W8 m ρ c (Proc.devRef .tc main_arg11) = m ((c : Thread nD τ).loc main_arg11) :=
  (W8_of_ne m ρ c main_arg11 (by decide)).trans (W7_arg11 m ρ c)

/-! ## The layer's output: the kernel's array is the layer function of the arrays it was entered with, and so is the reference's -/

theorem W8_v222 : W8 m ρ c (Proc.devRef .tc main_v222) = Cert.ReferenceIdeal.RefRead.val_main_v276 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W8_arr m ρ c 6).trans ?_
  rw [Cert.KernelIdeal.RegionArray.region2_array (V7 m ρ) c, Cert.ReferenceIdeal.RefLayers.layer3_eq]
  show Cert.Cheb.layer 100000 64 64 (W7 m ρ c (Proc.devRef .tc main_v164)) (W7 m ρ c (Proc.devRef .tc main_v181)) (W7 m ρ c (Proc.devRef .tc main_v201)) (W7 m ρ c (Proc.devRef .tc main_v221)) (W7 m ρ c (Proc.devRef .tc main_arg8)) (W7 m ρ c (Proc.devRef .tc main_arg9)) = _
  rw [W7_v164 m ρ c, W7_v181 m ρ c, W7_v201 m ρ c, W7_v221 m ρ c, W7_arg8 m ρ c, W7_arg9 m ρ c]

/-! ## The next stretch of host operations, read at what the next segment needs -/

set_option maxHeartbeats 40000000 in
theorem W9_v230 : W9 m ρ c (Proc.devRef .tc main_v230) = Cert.ReferenceIdeal.RefRead.val_main_v284 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  after_results_simp
  rw [W8_v222 m ρ c, W8_arg2 m ρ c, W8_arg10 m ρ c, W8_arg11 m ρ c]
  rfl

end Cert.KernelIdeal.Whole

end
-- ==== Proof.RefValue.lean ====
import proofs.«153326_j64991445123400_1_alg».proof.Proof.RefRun
import proofs.«153326_j64991445123400_1_alg».proof.Proof.RefRead
import Idealize.ShloMosaic.PureOps.Ideal

/-!
  The reference program's result as the composition of its operations, read one operation at a time.

  The program is a straight line of 336 array operations. Its run leaves every array at the fold of the operations
  over the launch contents. The line is cut after each of the three graph-convolution layers; at each cut only a few
  arrays are read by what follows: the layer's output, four arrays computed once from the graph (the two edge endpoint
  arrays, the edge weights and the diagonal term), and arguments. Each of those arrays, at each cut, is the
  corresponding one-operation-at-a-time value of the arguments; the next stretch computes from equal arrays, hence
  leaves equal results, and after the last stretch the result array is the value of the whole line. No operation
  writes an argument array, so each argument ends as it was launched.
-/

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal

section Stretches

variable (m : (ℓ : Loc nD τ sig) → Buf (Elt Ideal) ℓ)

/-- Every array after the first stretch (the graph quantities and the first layer). -/
def R1 (c : Dev nD) : Valuation τ sig (Elt Ideal) := after (RefRun.opsA (F := Ideal)) (launchContents m c)
/-- Every array after the second stretch (the second layer), run from what the first left. -/
def R2 (c : Dev nD) : Valuation τ sig (Elt Ideal) := after (RefRun.opsB (F := Ideal)) (R1 m c)
/-- Every array after the third stretch (the third layer), run from what the second left. -/
def R3 (c : Dev nD) : Valuation τ sig (Elt Ideal) := after (RefRun.opsC (F := Ideal)) (R2 m c)

/-! ## Reading and writing inside the called helper function

The first stretch calls one helper function (the masked inverse square root of the degrees). Its three operations reach
the same arrays through references that carry their array types; reading or writing contents through such a reference
is the identity, because the reference's recorded type is the array's own. -/

theorem write_v13 (h hd hu) (v : (⟨S100000, .f32⟩ : BufTy).Contents (Elt Ideal)) :
    (TRef.of (sig := sig) (T := ⟨S100000, .f32⟩) main_v13 h hd hu).toBuf v = v := rfl
theorem read_v9 (h hd hu) (v : main_v9.ty.Contents (Elt Ideal)) :
    (TRef.of (sig := sig) (T := ⟨S100000, .i1⟩) main_v9 h hd hu).ofBuf v = v := rfl
theorem read_v12 (h hd hu) (v : main_v12.ty.Contents (Elt Ideal)) :
    (TRef.of (sig := sig) (T := ⟨S100000, .f32⟩) main_v12 h hd hu).ofBuf v = v := rfl
theorem read_cst_3 (h hd hu) (v : main_cst_3.ty.Contents (Elt Ideal)) :
    (TRef.of (sig := sig) (T := ⟨S_, .f32⟩) main_cst_3 h hd hu).ofBuf v = v := rfl
/-- Reading back through a typed reference what was written through it. -/
theorem read_write {T : BufTy} (x : TRef sig T) (v : T.Contents (Elt Ideal)) : x.ofBuf (x.toBuf v) = v := by
  obtain ⟨r, rfl, _, _⟩ := x; rfl

/-! ## After the first stretch -/

set_option maxHeartbeats 4000000 in
set_option maxRecDepth 8192 in
theorem R1_arg0 (c : Dev nD) : R1 m c (Proc.devRef .tc main_arg0) = m ((c.tc : Thread nD τ).loc main_arg0) := by
  unfold R1; after_results_simp <;> rfl
set_option maxHeartbeats 4000000 in
set_option maxRecDepth 8192 in
theorem R1_arg1 (c : Dev nD) : R1 m c (Proc.devRef .tc main_arg1) = m ((c.tc : Thread nD τ).loc main_arg1) := by
  unfold R1; after_results_simp <;> rfl
set_option maxHeartbeats 4000000 in
set_option maxRecDepth 8192 in
theorem R1_arg2 (c : Dev nD) : R1 m c (Proc.devRef .tc main_arg2) = m ((c.tc : Thread nD τ).loc main_arg2) := by
  unfold R1; after_results_simp <;> rfl
set_option maxHeartbeats 4000000 in
set_option maxRecDepth 8192 in
theorem R1_arg3 (c : Dev nD) : R1 m c (Proc.devRef .tc main_arg3) = m ((c.tc : Thread nD τ).loc main_arg3) := by
  unfold R1; after_results_simp <;> rfl
set_option maxHeartbeats 4000000 in
set_option maxRecDepth 8192 in
theorem R1_arg4 (c : Dev nD) : R1 m c (Proc.devRef .tc main_arg4) = m ((c.tc : Thread nD τ).loc main_arg4) := by
  unfold R1; after_results_simp <;> rfl
set_option maxHeartbeats 4000000 in
set_option maxRecDepth 8192 in
theorem R1_arg5 (c : Dev nD) : R1 m c (Proc.devRef .tc main_arg5) = m ((c.tc : Thread nD τ).loc main_arg5) := by
  unfold R1; after_results_simp <;> rfl
set_option maxHeartbeats 4000000 in
set_option maxRecDepth 8192 in
theorem R1_arg6 (c : Dev nD) : R1 m c (Proc.devRef .tc main_arg6) = m ((c.tc : Thread nD τ).loc main_arg6) := by
  unfold R1; after_results_simp <;> rfl
set_option maxHeartbeats 4000000 in
set_option maxRecDepth 8192 in
theorem R1_arg7 (c : Dev nD) : R1 m c (Proc.devRef .tc main_arg7) = m ((c.tc : Thread nD τ).loc main_arg7) := by
  unfold R1; after_results_simp <;> rfl
set_option maxHeartbeats 4000000 in
set_option maxRecDepth 8192 in
theorem R1_arg8 (c : Dev nD) : R1 m c (Proc.devRef .tc main_arg8) = m ((c.tc : Thread nD τ).loc main_arg8) := by
  unfold R1; after_results_simp <;> rfl
set_option maxHeartbeats 4000000 in
set_option maxRecDepth 8192 in
theorem R1_arg9 (c : Dev nD) : R1 m c (Proc.devRef .tc main_arg9) = m ((c.tc : Thread nD τ).loc main_arg9) := by
  unfold R1; after_results_simp <;> rfl
set_option maxHeartbeats 4000000 in
set_option maxRecDepth 8192 in
theorem R1_arg10 (c : Dev nD) : R1 m c (Proc.devRef .tc main_arg10) = m ((c.tc : Thread nD τ).loc main_arg10) := by
  unfold R1; after_results_simp <;> rfl
set_option maxHeartbeats 4000000 in
set_option maxRecDepth 8192 in
theorem R1_arg11 (c : Dev nD) : R1 m c (Proc.devRef .tc main_arg11) = m ((c.tc : Thread nD τ).loc main_arg11) := by
  unfold R1; after_results_simp <;> rfl
set_option maxHeartbeats 40000000 in
set_option maxRecDepth 8192 in
theorem R1_v1 (c : Dev nD) : R1 m c (Proc.devRef .tc main_v1) = RefRead.val_main_v1 (F := Ideal) (m ((c.tc : Thread nD τ).loc main_arg1)) := by
  unfold R1; after_results_simp <;> (try simp only [write_v13, read_v9, read_v12, read_cst_3, read_write]) <;> rfl
set_option maxHeartbeats 40000000 in
set_option maxRecDepth 8192 in
theorem R1_v3 (c : Dev nD) : R1 m c (Proc.devRef .tc main_v3) = RefRead.val_main_v3 (F := Ideal) (m ((c.tc : Thread nD τ).loc main_arg1)) := by
  unfold R1; after_results_simp <;> (try simp only [write_v13, read_v9, read_v12, read_cst_3, read_write]) <;> rfl
set_option maxHeartbeats 40000000 in
set_option maxRecDepth 8192 in
theorem R1_v46 (c : Dev nD) : R1 m c (Proc.devRef .tc main_v46) = RefRead.val_main_v46 (F := Ideal) (m ((c.tc : Thread nD τ).loc main_arg1)) (m ((c.tc : Thread nD τ).loc main_arg2)) (m ((c.tc : Thread nD τ).loc main_arg3)) := by
  unfold R1; after_results_simp <;> (try simp only [write_v13, read_v9, read_v12, read_cst_3, read_write]) <;> rfl
set_option maxHeartbeats 40000000 in
set_option maxRecDepth 8192 in
theorem R1_v48 (c : Dev nD) : R1 m c (Proc.devRef .tc main_v48) = RefRead.val_main_v48 (F := Ideal) (m ((c.tc : Thread nD τ).loc main_arg2)) (m ((c.tc : Thread nD τ).loc main_arg3)) := by
  unfold R1; after_results_simp <;> (try simp only [write_v13, read_v9, read_v12, read_cst_3, read_write]) <;> rfl
set_option maxHeartbeats 40000000 in
set_option maxRecDepth 8192 in
/-- The first layer's output. -/
theorem R1_v124 (c : Dev nD) : R1 m c (Proc.devRef .tc main_v124) = RefRead.val_main_v124 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold R1; after_results_simp <;> (try simp only [write_v13, read_v9, read_v12, read_cst_3, read_write]) <;> rfl

/-! ## After the second stretch -/

set_option maxHeartbeats 4000000 in
set_option maxRecDepth 8192 in
theorem R2_arg0 (c : Dev nD) : R2 m c (Proc.devRef .tc main_arg0) = m ((c.tc : Thread nD τ).loc main_arg0) := by
  unfold R2; after_results_simp; exact R1_arg0 m c
set_option maxHeartbeats 4000000 in
set_option maxRecDepth 8192 in
theorem R2_arg1 (c : Dev nD) : R2 m c (Proc.devRef .tc main_arg1) = m ((c.tc : Thread nD τ).loc main_arg1) := by
  unfold R2; after_results_simp; exact R1_arg1 m c
set_option maxHeartbeats 4000000 in
set_option maxRecDepth 8192 in
theorem R2_arg2 (c : Dev nD) : R2 m c (Proc.devRef .tc main_arg2) = m ((c.tc : Thread nD τ).loc main_arg2) := by
  unfold R2; after_results_simp; exact R1_arg2 m c
set_option maxHeartbeats 4000000 in
set_option maxRecDepth 8192 in
theorem R2_arg3 (c : Dev nD) : R2 m c (Proc.devRef .tc main_arg3) = m ((c.tc : Thread nD τ).loc main_arg3) := by
  unfold R2; after_results_simp; exact R1_arg3 m c
set_option maxHeartbeats 4000000 in
set_option maxRecDepth 8192 in
theorem R2_arg4 (c : Dev nD) : R2 m c (Proc.devRef .tc main_arg4) = m ((c.tc : Thread nD τ).loc main_arg4) := by
  unfold R2; after_results_simp; exact R1_arg4 m c
set_option maxHeartbeats 4000000 in
set_option maxRecDepth 8192 in
theorem R2_arg5 (c : Dev nD) : R2 m c (Proc.devRef .tc main_arg5) = m ((c.tc : Thread nD τ).loc main_arg5) := by
  unfold R2; after_results_simp; exact R1_arg5 m c
set_option maxHeartbeats 4000000 in
set_option maxRecDepth 8192 in
theorem R2_arg6 (c : Dev nD) : R2 m c (Proc.devRef .tc main_arg6) = m ((c.tc : Thread nD τ).loc main_arg6) := by
  unfold R2; after_results_simp; exact R1_arg6 m c
set_option maxHeartbeats 4000000 in
set_option maxRecDepth 8192 in
theorem R2_arg7 (c : Dev nD) : R2 m c (Proc.devRef .tc main_arg7) = m ((c.tc : Thread nD τ).loc main_arg7) := by
  unfold R2; after_results_simp; exact R1_arg7 m c
set_option maxHeartbeats 4000000 in
set_option maxRecDepth 8192 in
theorem R2_arg8 (c : Dev nD) : R2 m c (Proc.devRef .tc main_arg8) = m ((c.tc : Thread nD τ).loc main_arg8) := by
  unfold R2; after_results_simp; exact R1_arg8 m c
set_option maxHeartbeats 4000000 in
set_option maxRecDepth 8192 in
theorem R2_arg9 (c : Dev nD) : R2 m c (Proc.devRef .tc main_arg9) = m ((c.tc : Thread nD τ).loc main_arg9) := by
  unfold R2; after_results_simp; exact R1_arg9 m c
set_option maxHeartbeats 4000000 in
set_option maxRecDepth 8192 in
theorem R2_arg10 (c : Dev nD) : R2 m c (Proc.devRef .tc main_arg10) = m ((c.tc : Thread nD τ).loc main_arg10) := by
  unfold R2; after_results_simp; exact R1_arg10 m c
set_option maxHeartbeats 4000000 in
set_option maxRecDepth 8192 in
theorem R2_arg11 (c : Dev nD) : R2 m c (Proc.devRef .tc main_arg11) = m ((c.tc : Thread nD τ).loc main_arg11) := by
  unfold R2; after_results_simp; exact R1_arg11 m c
set_option maxHeartbeats 4000000 in
set_option maxRecDepth 8192 in
theorem R2_v1 (c : Dev nD) : R2 m c (Proc.devRef .tc main_v1) = RefRead.val_main_v1 (F := Ideal) (m ((c.tc : Thread nD τ).loc main_arg1)) := by
  unfold R2; after_results_simp; exact R1_v1 m c
set_option maxHeartbeats 4000000 in
set_option maxRecDepth 8192 in
theorem R2_v3 (c : Dev nD) : R2 m c (Proc.devRef .tc main_v3) = RefRead.val_main_v3 (F := Ideal) (m ((c.tc : Thread nD τ).loc main_arg1)) := by
  unfold R2; after_results_simp; exact R1_v3 m c
set_option maxHeartbeats 4000000 in
set_option maxRecDepth 8192 in
theorem R2_v46 (c : Dev nD) : R2 m c (Proc.devRef .tc main_v46) = RefRead.val_main_v46 (F := Ideal) (m ((c.tc : Thread nD τ).loc main_arg1)) (m ((c.tc : Thread nD τ).loc main_arg2)) (m ((c.tc : Thread nD τ).loc main_arg3)) := by
  unfold R2; after_results_simp; exact R1_v46 m c
set_option maxHeartbeats 4000000 in
set_option maxRecDepth 8192 in
theorem R2_v48 (c : Dev nD) : R2 m c (Proc.devRef .tc main_v48) = RefRead.val_main_v48 (F := Ideal) (m ((c.tc : Thread nD τ).loc main_arg2)) (m ((c.tc : Thread nD τ).loc main_arg3)) := by
  unfold R2; after_results_simp; exact R1_v48 m c
set_option maxHeartbeats 40000000 in
set_option maxRecDepth 8192 in
/-- The second layer's output: computed from the first layer's output, the graph arrays and two arguments, which the
    first stretch left at their values. -/
theorem R2_v200 (c : Dev nD) : R2 m c (Proc.devRef .tc main_v200) = RefRead.val_main_v200 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold R2; after_results_simp
  simp only [R1_v124 m c, R1_v46 m c, R1_v48 m c, R1_v1 m c, R1_v3 m c, R1_arg6 m c, R1_arg7 m c]
  rfl

/-! ## After the third stretch -/

set_option maxHeartbeats 4000000 in
set_option maxRecDepth 8192 in
theorem R3_arg0 (c : Dev nD) : R3 m c (Proc.devRef .tc main_arg0) = m ((c.tc : Thread nD τ).loc main_arg0) := by
  unfold R3; after_results_simp; exact R2_arg0 m c
set_option maxHeartbeats 4000000 in
set_option maxRecDepth 8192 in
theorem R3_arg1 (c : Dev nD) : R3 m c (Proc.devRef .tc main_arg1) = m ((c.tc : Thread nD τ).loc main_arg1) := by
  unfold R3; after_results_simp; exact R2_arg1 m c
set_option maxHeartbeats 4000000 in
set_option maxRecDepth 8192 in
theorem R3_arg2 (c : Dev nD) : R3 m c (Proc.devRef .tc main_arg2) = m ((c.tc : Thread nD τ).loc main_arg2) := by
  unfold R3; after_results_simp; exact R2_arg2 m c
set_option maxHeartbeats 4000000 in
set_option maxRecDepth 8192 in
theorem R3_arg3 (c : Dev nD) : R3 m c (Proc.devRef .tc main_arg3) = m ((c.tc : Thread nD τ).loc main_arg3) := by
  unfold R3; after_results_simp; exact R2_arg3 m c
set_option maxHeartbeats 4000000 in
set_option maxRecDepth 8192 in
theorem R3_arg4 (c : Dev nD) : R3 m c (Proc.devRef .tc main_arg4) = m ((c.tc : Thread nD τ).loc main_arg4) := by
  unfold R3; after_results_simp; exact R2_arg4 m c
set_option maxHeartbeats 4000000 in
set_option maxRecDepth 8192 in
theorem R3_arg5 (c : Dev nD) : R3 m c (Proc.devRef .tc main_arg5) = m ((c.tc : Thread nD τ).loc main_arg5) := by
  unfold R3; after_results_simp; exact R2_arg5 m c
set_option maxHeartbeats 4000000 in
set_option maxRecDepth 8192 in
theorem R3_arg6 (c : Dev nD) : R3 m c (Proc.devRef .tc main_arg6) = m ((c.tc : Thread nD τ).loc main_arg6) := by
  unfold R3; after_results_simp; exact R2_arg6 m c
set_option maxHeartbeats 4000000 in
set_option maxRecDepth 8192 in
theorem R3_arg7 (c : Dev nD) : R3 m c (Proc.devRef .tc main_arg7) = m ((c.tc : Thread nD τ).loc main_arg7) := by
  unfold R3; after_results_simp; exact R2_arg7 m c
set_option maxHeartbeats 4000000 in
set_option maxRecDepth 8192 in
theorem R3_arg8 (c : Dev nD) : R3 m c (Proc.devRef .tc main_arg8) = m ((c.tc : Thread nD τ).loc main_arg8) := by
  unfold R3; after_results_simp; exact R2_arg8 m c
set_option maxHeartbeats 4000000 in
set_option maxRecDepth 8192 in
theorem R3_arg9 (c : Dev nD) : R3 m c (Proc.devRef .tc main_arg9) = m ((c.tc : Thread nD τ).loc main_arg9) := by
  unfold R3; after_results_simp; exact R2_arg9 m c
set_option maxHeartbeats 4000000 in
set_option maxRecDepth 8192 in
theorem R3_arg10 (c : Dev nD) : R3 m c (Proc.devRef .tc main_arg10) = m ((c.tc : Thread nD τ).loc main_arg10) := by
  unfold R3; after_results_simp; exact R2_arg10 m c
set_option maxHeartbeats 4000000 in
set_option maxRecDepth 8192 in
theorem R3_arg11 (c : Dev nD) : R3 m c (Proc.devRef .tc main_arg11) = m ((c.tc : Thread nD τ).loc main_arg11) := by
  unfold R3; after_results_simp; exact R2_arg11 m c
set_option maxHeartbeats 40000000 in
set_option maxRecDepth 8192 in
/-- The third layer's output, likewise from what the second stretch left. -/
theorem R3_v276 (c : Dev nD) : R3 m c (Proc.devRef .tc main_v276) = RefRead.val_main_v276 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold R3; after_results_simp
  simp only [R2_v200 m c, R2_v46 m c, R2_v48 m c, R2_v1 m c, R2_v3 m c, R2_arg8 m c, R2_arg9 m c]
  rfl

/-! ## The whole line -/

/-- The fold over the whole line is the fold over the last stretch from what the third left. -/
theorem after_ops_eq (c : Dev nD) :
    after (RefRun.ops (F := Ideal)) (launchContents m c) = after (RefRun.opsD (F := Ideal)) (R3 m c) := by
  rw [RefRun.ops_cut, RefRun.after_append, RefRun.after_append, RefRun.after_append]
  rfl

set_option maxHeartbeats 4000000 in
set_option maxRecDepth 8192 in
/-- The result: pooling, the dense layer and tanh of the third layer's output. -/
theorem result_eq (c : Dev nD) :
    after (RefRun.ops (F := Ideal)) (launchContents m c) (Proc.devRef .tc main_v284) = RefRead.val_main_v284 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [after_ops_eq m c]
  after_results_simp
  simp only [R3_v276 m c, R3_arg2 m c, R3_arg10 m c, R3_arg11 m c]
  rfl

set_option maxHeartbeats 4000000 in
set_option maxRecDepth 8192 in
theorem arg0_eq (c : Dev nD) :
    after (RefRun.ops (F := Ideal)) (launchContents m c) (Proc.devRef .tc main_arg0) = m ((c.tc : Thread nD τ).loc main_arg0) := by
  rw [after_ops_eq m c]; after_results_simp; exact R3_arg0 m c
set_option maxHeartbeats 4000000 in
set_option maxRecDepth 8192 in
theorem arg1_eq (c : Dev nD) :
    after (RefRun.ops (F := Ideal)) (launchContents m c) (Proc.devRef .tc main_arg1) = m ((c.tc : Thread nD τ).loc main_arg1) := by
  rw [after_ops_eq m c]; after_results_simp; exact R3_arg1 m c
set_option maxHeartbeats 4000000 in
set_option maxRecDepth 8192 in
theorem arg2_eq (c : Dev nD) :
    after (RefRun.ops (F := Ideal)) (launchContents m c) (Proc.devRef .tc main_arg2) = m ((c.tc : Thread nD τ).loc main_arg2) := by
  rw [after_ops_eq m c]; after_results_simp; exact R3_arg2 m c
set_option maxHeartbeats 4000000 in
set_option maxRecDepth 8192 in
theorem arg3_eq (c : Dev nD) :
    after (RefRun.ops (F := Ideal)) (launchContents m c) (Proc.devRef .tc main_arg3) = m ((c.tc : Thread nD τ).loc main_arg3) := by
  rw [after_ops_eq m c]; after_results_simp; exact R3_arg3 m c
set_option maxHeartbeats 4000000 in
set_option maxRecDepth 8192 in
theorem arg4_eq (c : Dev nD) :
    after (RefRun.ops (F := Ideal)) (launchContents m c) (Proc.devRef .tc main_arg4) = m ((c.tc : Thread nD τ).loc main_arg4) := by
  rw [after_ops_eq m c]; after_results_simp; exact R3_arg4 m c
set_option maxHeartbeats 4000000 in
set_option maxRecDepth 8192 in
theorem arg5_eq (c : Dev nD) :
    after (RefRun.ops (F := Ideal)) (launchContents m c) (Proc.devRef .tc main_arg5) = m ((c.tc : Thread nD τ).loc main_arg5) := by
  rw [after_ops_eq m c]; after_results_simp; exact R3_arg5 m c
set_option maxHeartbeats 4000000 in
set_option maxRecDepth 8192 in
theorem arg6_eq (c : Dev nD) :
    after (RefRun.ops (F := Ideal)) (launchContents m c) (Proc.devRef .tc main_arg6) = m ((c.tc : Thread nD τ).loc main_arg6) := by
  rw [after_ops_eq m c]; after_results_simp; exact R3_arg6 m c
set_option maxHeartbeats 4000000 in
set_option maxRecDepth 8192 in
theorem arg7_eq (c : Dev nD) :
    after (RefRun.ops (F := Ideal)) (launchContents m c) (Proc.devRef .tc main_arg7) = m ((c.tc : Thread nD τ).loc main_arg7) := by
  rw [after_ops_eq m c]; after_results_simp; exact R3_arg7 m c
set_option maxHeartbeats 4000000 in
set_option maxRecDepth 8192 in
theorem arg8_eq (c : Dev nD) :
    after (RefRun.ops (F := Ideal)) (launchContents m c) (Proc.devRef .tc main_arg8) = m ((c.tc : Thread nD τ).loc main_arg8) := by
  rw [after_ops_eq m c]; after_results_simp; exact R3_arg8 m c
set_option maxHeartbeats 4000000 in
set_option maxRecDepth 8192 in
theorem arg9_eq (c : Dev nD) :
    after (RefRun.ops (F := Ideal)) (launchContents m c) (Proc.devRef .tc main_arg9) = m ((c.tc : Thread nD τ).loc main_arg9) := by
  rw [after_ops_eq m c]; after_results_simp; exact R3_arg9 m c
set_option maxHeartbeats 4000000 in
set_option maxRecDepth 8192 in
theorem arg10_eq (c : Dev nD) :
    after (RefRun.ops (F := Ideal)) (launchContents m c) (Proc.devRef .tc main_arg10) = m ((c.tc : Thread nD τ).loc main_arg10) := by
  rw [after_ops_eq m c]; after_results_simp; exact R3_arg10 m c
set_option maxHeartbeats 4000000 in
set_option maxRecDepth 8192 in
theorem arg11_eq (c : Dev nD) :
    after (RefRun.ops (F := Ideal)) (launchContents m c) (Proc.devRef .tc main_arg11) = m ((c.tc : Thread nD τ).loc main_arg11) := by
  rw [after_ops_eq m c]; after_results_simp; exact R3_arg11 m c

end Stretches

/-- Every weakly fair execution of the reference program terminates with the result array at the value of the whole
    line of operations at the launch contents of the arguments, and every argument array as launched. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v284) = Cert.ReferenceIdeal.RefRead.val_main_v284 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run (defs (F := Ideal)) _ _).mono (fun _ h c => ⟨(h c main_v284).trans (result_eq m c),
      (h c main_arg0).trans (arg0_eq m c),
      (h c main_arg1).trans (arg1_eq m c),
      (h c main_arg2).trans (arg2_eq m c),
      (h c main_arg3).trans (arg3_eq m c),
      (h c main_arg4).trans (arg4_eq m c),
      (h c main_arg5).trans (arg5_eq m c),
      (h c main_arg6).trans (arg6_eq m c),
      (h c main_arg7).trans (arg7_eq m c),
      (h c main_arg8).trans (arg8_eq m c),
      (h c main_arg9).trans (arg9_eq m c),
      (h c main_arg10).trans (arg10_eq m c),
      (h c main_arg11).trans (arg11_eq m c)⟩)
    (RefRun.run (F := Ideal) m ρ)

end Cert.ReferenceIdeal.RefValue

end
-- ==== Proof.lean ====
/-
  The certificate of the Chebyshev graph-convolution network against its reference.

  Both programs compute, from the node features x, the edge list, the batch assignment, the per-graph largest
  eigenvalues and the weights, three Chebyshev layers followed by a pooled dense read-out:

      hₗ = tanh( T₀·W[0] + T₁·W[1] + T₂·W[2] + T₃·W[3] + b ),   T₀ = hₗ₋₁, T₁ = L̂T₀, T₂ = 2·L̂T₁ − T₀, T₃ = 2·L̂T₂ − T₁,

  with L̂ the rescaled normalised Laplacian applied by a gather along the edges and a scatter-add, and the result
  tanh( pool(h₃)·W_fc + b_fc ). The kernel program computes the diffusion steps T₁, T₂, T₃ and the read-out with
  the same host operations as the reference, and each layer's combination in a row-blocked kernel (row blocks of
  5000 nodes, the four products accumulated from zero, in reduced precision on the device — exact on the
  extended reals). The only mathematical facts the equivalence needs are that a product accumulated from zero is
  the sum over the contracted axis, and that the rows of the layer's output depend on the same rows of its inputs;
  the summands are added in the same order on both sides, so nothing is rearranged and the finiteness of the
  inputs is never used.

  The pieces: the kernel program's run with its result named (KernelRun), its buffer contents followed from the
  launch to the result (KernelPrelude, KernelLayer1–3, over the per-kernel array lemmas Region0–2Array and the
  layer function ChebSpec), the reference's three layers as that function (RefLayers) and its run read to its
  result (RefValue). The idealization rewrote no operation, so that conjunct is trivial.
-/
import proofs.«153326_j64991445123400_1_alg».proof.Defs
import proofs.«153326_j64991445123400_1_alg».proof.Proof.Gen.Kernel
import proofs.«153326_j64991445123400_1_alg».proof.Proof.Gen.Kernel.Skeleton
import proofs.«153326_j64991445123400_1_alg».proof.Proof.Gen.Kernel.Launch
import proofs.«153326_j64991445123400_1_alg».proof.Proof.Gen.Kernel.Points
import proofs.«153326_j64991445123400_1_alg».proof.Proof.Gen.Kernel.Frame
import proofs.«153326_j64991445123400_1_alg».proof.Proof.Gen.KernelIdeal
import proofs.«153326_j64991445123400_1_alg».proof.Proof.Gen.KernelIdeal.Skeleton
import proofs.«153326_j64991445123400_1_alg».proof.Proof.Gen.KernelIdeal.Launch
import proofs.«153326_j64991445123400_1_alg».proof.Proof.Gen.KernelIdeal.Points
import proofs.«153326_j64991445123400_1_alg».proof.Proof.Gen.KernelIdeal.Frame
import proofs.«153326_j64991445123400_1_alg».proof.Proof.Gen.ReferenceIdeal
import proofs.«153326_j64991445123400_1_alg».proof.Proof.Gen.Pre_finite_inputs
import proofs.«153326_j64991445123400_1_alg».proof.Proof.KernelRun
import proofs.«153326_j64991445123400_1_alg».proof.Proof.KernelLayer3
import proofs.«153326_j64991445123400_1_alg».proof.Proof.RefValue
import Idealize.ShloMosaic.Adequacy
import Idealize.ShloMosaic.Init

noncomputable section

namespace Cert.Proof

open Idealize.ShloMosaic Idealize.SL.Sem

/-- The word-level kernel program runs and leaves its arguments as launched: the generated frame. -/
theorem frame_kernel : Cert.frame_Kernel :=
  fun m ρ _ => Cert.Kernel.Gen.frame m ρ

/-- So does its idealization. -/
theorem frame_kernelIdeal : Cert.frame_KernelIdeal :=
  fun m ρ _ => Cert.KernelIdeal.Gen.frame m ρ

/-- The reference runs and leaves its arguments as launched: its run, the result forgotten. -/
theorem frame_reference : Cert.frame_ReferenceIdeal :=
  fun m ρ _ => (θ_run Cert.ReferenceIdeal.defs _ _).mono (fun _ h c => (h c).2) (Cert.ReferenceIdeal.RefValue.run_value m ρ)

/-- From memories that agree on the arguments both programs end with the same result: the reference's value of the
    arguments. The kernel program's result buffer holds it by the chain of boundary contents; the reference's by its
    own run, the arguments' agreement rewritten. -/
theorem algebraic [Cert.KernelIdeal.Facts] : Cert.algebraic_KernelIdeal_ReferenceIdeal := by
  intro m ρ m' ρ' _ hagree
  refine ⟨fun c => Cert.ReferenceIdeal.RefRead.val_main_v284 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono (fun r h c => ⟨(h c).1.trans (Cert.KernelIdeal.Whole.W9_v230 m ρ c), (h c).2⟩)
      (Cert.KernelIdeal.Whole.run_result m ρ)
  · refine (θ_run Cert.ReferenceIdeal.defs _ _).mono (fun r h c => ⟨?_, (h c).2⟩) (Cert.ReferenceIdeal.RefValue.run_value m' ρ')
    rw [(h c).1, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
